-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x128 : Shape := ⟨3, ![4, 10000, 128]⟩
abbrev S2x160000 : Shape := ⟨2, ![2, 160000]⟩
abbrev S128x128 : Shape := ⟨2, ![128, 128]⟩
abbrev S128 : Shape := ⟨1, ![128]⟩
abbrev S_ : Shape := ⟨0, ![]⟩

class Facts : Prop where
  bcast_S_S4x10000x128 : S_.BroadcastsInDim S4x10000x128 (![] : Fin 0 → Fin S4x10000x128.rank)
  reducesTo_S4x10000x128_S_d0_1_2 : S4x10000x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4x10000x128 .f32) (main_arg1 : IVec S2x160000 32) (main_arg2 : FVec F S128x128 .f32) (main_arg3 : FVec F S128x128 .f32) (main_arg4 : FVec F S128 .f32) (main_arg5 : FVec F S128 .f32) (main_arg6 : FVec F S128 .f32) : IVec S_ 1 :=
  let main_v0 : FVec F S4x10000x128 .f32 := Host.absf main_arg0
  let main_cst : FVec F S_ .f32 := constant S_ .f32 0x7F800000#32
  let main_v1 : FVec F S4x10000x128 .f32 := broadcastInDim S4x10000x128 ![] bcast_S_S4x10000x128 main_cst
  let main_v2 : IVec S4x10000x128 1 := cmpf .olt main_v0 main_v1
  let main_c : IVec S_ 1 := constantI S_ 1 1#1
  let main_v3 : IVec S_ 1 := (fun x v => Host.reduce IntOp.andi x v reducesTo_S4x10000x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S4x10000x128 : Shape := ⟨3, ![4, 10000, 128]⟩
abbrev S2x160000 : Shape := ⟨2, ![2, 160000]⟩
abbrev S128x128 : Shape := ⟨2, ![128, 128]⟩
abbrev S128 : Shape := ⟨1, ![128]⟩
abbrev S40000x128 : Shape := ⟨2, ![40000, 128]⟩
abbrev S128x256 : Shape := ⟨2, ![128, 256]⟩
abbrev S1x128 : Shape := ⟨2, ![1, 128]⟩
abbrev S4000x128 : Shape := ⟨2, ![4000, 128]⟩
abbrev S4000x256 : Shape := ⟨2, ![4000, 256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S4x160000x128 : Shape := ⟨3, ![4, 160000, 128]⟩

abbrev nBuf : Space → Nat
  | .hbm => 56
  | .vmem => 26
  | .smem => 0
  | _ => 0

abbrev bufTy : (tb : Table) → Fin (tcTables nBuf tb) → BufTy
  | .hbm, ⟨0, _⟩ => ⟨S4x10000x128, .f32⟩
  | .hbm, ⟨1, _⟩ => ⟨S2x160000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S40000x128, .f32⟩
  | .hbm, ⟨8, _⟩ => ⟨S128x128, .f32⟩
  | .hbm, ⟨9, _⟩ => ⟨S128x128, .f32⟩
  | .hbm, ⟨10, _⟩ => ⟨S128x256, .f32⟩
  | .hbm, ⟨11, _⟩ => ⟨S1x128, .f32⟩
  | .hbm, ⟨12, _⟩ => ⟨S40000x128, .f32⟩
  | .hbm, ⟨13, _⟩ => ⟨S40000x128, .f32⟩
  | .hbm, ⟨14, _⟩ => ⟨S4x10000x128, .f32⟩
  | .hbm, ⟨15, _⟩ => ⟨S4x10000x128, .f32⟩
  | .hbm, ⟨16, _⟩ => ⟨S1x160000, .i32⟩
  | .hbm, ⟨17, _⟩ => ⟨S160000, .i32⟩
  | .hbm, ⟨18, _⟩ => ⟨S1x160000, .i32⟩
  | .hbm, ⟨19, _⟩ => ⟨S160000, .i32⟩
  | .hbm, ⟨20, _⟩ => ⟨S_, .i32⟩
  | .hbm, ⟨21, _⟩ => ⟨S160000, .i32⟩
  | .hbm, ⟨22, _⟩ => ⟨S160000, .i1⟩
  | .hbm, ⟨23, _⟩ => ⟨S_, .i32⟩
  | .hbm, ⟨24, _⟩ => ⟨S160000, .i32⟩
  | .hbm, ⟨25, _⟩ => ⟨S160000, .i32⟩
  | .hbm, ⟨26, _⟩ => ⟨S160000, .i32⟩
  | .hbm, ⟨27, _⟩ => ⟨S160000x1, .i32⟩
  | .hbm, ⟨28, _⟩ => ⟨S4x160000x128, .f32⟩
  | .hbm, ⟨29, _⟩ => ⟨S_, .f32⟩
  | .hbm, ⟨30, _⟩ => ⟨S4x10000x128, .f32⟩
  | .hbm, ⟨31, _⟩ => ⟨S_, .i32⟩
  | .hbm, ⟨32, _⟩ => ⟨S160000, .i32⟩
  | .hbm, ⟨33, _⟩ => ⟨S160000, .i1⟩
  | .hbm, ⟨34, _⟩ => ⟨S_, .i32⟩
  | .hbm, ⟨35, _⟩ => ⟨S160000, .i32⟩
  | .hbm, ⟨36, _⟩ => ⟨S160000, .i32⟩
  | .hbm, ⟨37, _⟩ => ⟨S160000, .i32⟩
  | .hbm, ⟨38, _⟩ => ⟨S160000x1, .i32⟩
  | .hbm, ⟨39, _⟩ => ⟨S4x10000x128, .f32⟩
  | .hbm, ⟨40, _⟩ => ⟨S40000x128, .f32⟩
  | .hbm, ⟨41, _⟩ => ⟨S40000x128, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S40000x128, .f32⟩
  | .hbm, ⟨55, _⟩ => ⟨S4x10000x128, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | _, _ => ⟨S4x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_15 : BitVec 32 := 0#32
  let v26 : BitVec 1 := Scalar.cmpi .ne v25 c0_i32_15
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S4x10000x128_S40000x128 : S4x10000x128.ShapeCasts S40000x128
  transposes_S128x128_S128x128_1_0 : S128x128.Transposes [1, 0] S128x128
  concatenates_S128x128_S128x128_S128x256_d1 : Shape.Concatenates [S128x128, S128x128] S128x256 1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S4000x256_o0_0_S4000x128 : S4000x256.Slices ![0, 0] S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S4000x256_o0_128_S4000x128 : S4000x256.Slices ![0, 128] S4000x128
  shapeCasts_S40000x128_S4x10000x128 : S40000x128.ShapeCasts S4x10000x128
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S4x10000x128 : S_.BroadcastsInDim S4x10000x128 (![] : Fin 0 → Fin S4x10000x128.rank)
  reduces_S4000x128_S128 : S4000x128.Reduces [0] S128
  bcast_S_S1x128 : S_.BroadcastsInDim S1x128 (![] : Fin 0 → Fin S1x128.rank)
  dot_S4000x128_S128x256_S4000x256_1_0_0_1_n_n_wf : DotDims.WF S4000x128 S128x256 S4000x256 [1] [0] [0] [1] [] []
  gather_S4x10000x128_S160000x1_S4x160000x128_02_1_n_n_1_1_41128_wf : GatherDims.WF S4x10000x128 S160000x1 S4x160000x128 [0, 2] [1] [] [1] [] 1 ![4, 1, 128]
  scatter_S4x10000x128_S160000x1_S4x160000x128_02_1_1_1_wf : ScatterDims.WF S4x10000x128 S160000x1 S4x160000x128 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .f32 = 32 ∨ (Rect.block (s := S40000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S40000x128.size a
  hwx0_4 : ∀ i : grid0.Coords, EltTy.bits .f32 = 32 ∨ (Rect.block (s := S40000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S40000x128.size a
  hwx1_2 : ∀ i : grid1.Coords, EltTy.bits .f32 = 32 ∨ (Rect.block (s := S40000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S40000x128.size a
  hwx2_5 : ∀ i : grid2.Coords, EltTy.bits .f32 = 32 ∨ (Rect.block (s := S40000x128) S4000x128.size (cc2_transform_5 i) (hinb2_5 i)).WholeWords (EltTy.packing .f32)

variable [Facts₀]

def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S4x10000x128_S160000x1_S4x160000x128_02_1_n_n_1_1_41128 : GatherDims S4x10000x128 S160000x1 S4x160000x128 where
  offsetDims := [0, 2]
  collapsedSliceDims := [1]
  operandBatchingDims := []
  startIndicesBatchingDims := []
  startIndexMap := [1]
  indexVectorDim := 1
  sliceSizes := ![4, 1, 128]
  wf := gather_S4x10000x128_S160000x1_S4x160000x128_02_1_n_n_1_1_41128_wf
def scatter_S4x10000x128_S160000x1_S4x160000x128_02_1_1_1 : ScatterDims S4x10000x128 S160000x1 S4x160000x128 where
  updateWindowDims := [0, 2]
  insertedWindowDims := [1]
  scatterDimsToOperandDims := [1]
  indexVectorDim := 1
  wf := scatter_S4x10000x128_S160000x1_S4x160000x128_02_1_1_1_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28_0) S4000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v28_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x10000x128 : Shape := ⟨3, ![4, 10000, 128]⟩
abbrev S2x160000 : Shape := ⟨2, ![2, 160000]⟩
abbrev S128x128 : Shape := ⟨2, ![128, 128]⟩
abbrev S128 : Shape := ⟨1, ![128]⟩
abbrev S1x1x128 : Shape := ⟨3, ![1, 1, 128]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S4x160000x128 : Shape := ⟨3, ![4, 160000, 128]⟩

abbrev nBuf : Space → Nat
  | .hbm => 84
  | .vmem => 0
  | .smem => 0
  | _ => 0

abbrev bufTy : (tb : Table) → Fin (tcTables nBuf tb) → BufTy
  | .hbm, ⟨0, _⟩ => ⟨S4x10000x128, .f32⟩
  | .hbm, ⟨1, _⟩ => ⟨S2x160000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S4x10000x128, .f32⟩
  | .hbm, ⟨8, _⟩ => ⟨S1x1x128, .f32⟩
  | .hbm, ⟨9, _⟩ => ⟨S4x10000x128, .f32⟩
  | .hbm, ⟨10, _⟩ => ⟨S4x10000x128, .f32⟩
  | .hbm, ⟨11, _⟩ => ⟨S4x10000x128, .f32⟩
  | .hbm, ⟨12, _⟩ => ⟨S1x160000, .i32⟩
  | .hbm, ⟨13, _⟩ => ⟨S160000, .i32⟩
  | .hbm, ⟨14, _⟩ => ⟨S1x160000, .i32⟩
  | .hbm, ⟨15, _⟩ => ⟨S160000, .i32⟩
  | .hbm, ⟨16, _⟩ => ⟨S_, .f32⟩
  | .hbm, ⟨17, _⟩ => ⟨S4x10000x128, .f32⟩
  | .hbm, ⟨18, _⟩ => ⟨S_, .i32⟩
  | .hbm, ⟨19, _⟩ => ⟨S160000, .i32⟩
  | .hbm, ⟨20, _⟩ => ⟨S160000, .i1⟩
  | .hbm, ⟨21, _⟩ => ⟨S_, .i32⟩
  | .hbm, ⟨22, _⟩ => ⟨S160000, .i32⟩
  | .hbm, ⟨23, _⟩ => ⟨S160000, .i32⟩
  | .hbm, ⟨24, _⟩ => ⟨S160000, .i32⟩
  | .hbm, ⟨25, _⟩ => ⟨S160000x1, .i32⟩
  | .hbm, ⟨26, _⟩ => ⟨S4x160000x128, .f32⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S4x10000x128, .f32⟩
  | .hbm, ⟨36, _⟩ => ⟨S4x10000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x1x128, .f32⟩
  | .hbm, ⟨46, _⟩ => ⟨S_, .f32⟩
  | .hbm, ⟨47, _⟩ => ⟨S1x1x128, .f32⟩
  | .hbm, ⟨48, _⟩ => ⟨S1x1x128, .f32⟩
  | .hbm, ⟨49, _⟩ => ⟨S4x10000x128, .f32⟩
  | .hbm, ⟨50, _⟩ => ⟨S4x10000x128, .f32⟩
  | .hbm, ⟨51, _⟩ => ⟨S4x10000x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x1x128, .f32⟩
  | .hbm, ⟨66, _⟩ => ⟨S4x10000x128, .f32⟩
  | .hbm, ⟨67, _⟩ => ⟨S4x10000x128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S1x1x128, .f32⟩
  | .hbm, ⟨73, _⟩ => ⟨S4x10000x128, .f32⟩
  | .hbm, ⟨74, _⟩ => ⟨S4x10000x128, .f32⟩
  | .hbm, ⟨75, _⟩ => ⟨S1x1x128, .f32⟩
  | .hbm, ⟨76, _⟩ => ⟨S4x10000x128, .f32⟩
  | .hbm, ⟨77, _⟩ => ⟨S4x10000x128, .f32⟩
  | .hbm, ⟨78, _⟩ => ⟨S1x1x128, .f32⟩
  | .hbm, ⟨79, _⟩ => ⟨S4x10000x128, .f32⟩
  | .hbm, ⟨80, _⟩ => ⟨S4x10000x128, .f32⟩
  | .hbm, ⟨81, _⟩ => ⟨S_, .f32⟩
  | .hbm, ⟨82, _⟩ => ⟨S4x10000x128, .f32⟩
  | .hbm, ⟨83, _⟩ => ⟨S4x10000x128, .f32⟩
  | _, _ => ⟨S4x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call1_cst : Ref sig .tc := ⟨.hbm, 81, rfl⟩
abbrev main_call1_v0 : Ref sig .tc := ⟨.hbm, 82, rfl⟩
abbrev main_v44 : Ref sig .tc := ⟨.hbm, 83, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x10000x128_0_1_2 : S1x1x128.BroadcastsInDim S4x10000x128 (![0, 1, 2] : Fin 3 → Fin S4x10000x128.rank)
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S4x10000x128 : S_.BroadcastsInDim S4x10000x128 (![] : Fin 0 → Fin S4x10000x128.rank)
  bcast_S_S160000 : S_.BroadcastsInDim S160000 (![] : Fin 0 → Fin S160000.rank)
  bcast_S160000_S160000x1_0 : S160000.BroadcastsInDim S160000x1 (![0] : Fin 1 → Fin S160000x1.rank)
  reducesTo_S4x10000x128_S128_d0_1 : S4x10000x128.ReducesTo [0, 1] S128
  h_S_ : 0 < S_.numel
  bcast_S_S128 : S_.BroadcastsInDim S128 (![] : Fin 0 → Fin S128.rank)
  bcast_S_S1x1x128 : S_.BroadcastsInDim S1x1x128 (![] : Fin 0 → Fin S1x1x128.rank)
  dot_S4x10000x128_S128x128_S4x10000x128_2_1_01_0_n_n_wf : DotDims.WF S4x10000x128 S128x128 S4x10000x128 [2] [1] [0, 1] [0] [] []
  gather_S4x10000x128_S160000x1_S4x160000x128_02_1_n_n_1_1_41128_wf : GatherDims.WF S4x10000x128 S160000x1 S4x160000x128 [0, 2] [1] [] [1] [] 1 ![4, 1, 128]
  scatter_S4x10000x128_S160000x1_S4x160000x128_02_1_1_1_wf : ScatterDims.WF S4x10000x128 S160000x1 S4x160000x128 [0, 2] [1] [1] 1

variable [Facts₀]

def dot_S4x10000x128_S128x128_S4x10000x128_2_1_01_0_n_n : DotDims S4x10000x128 S128x128 S4x10000x128 where
  lhsContracting := [2]
  rhsContracting := [1]
  lhsNonContracting := [0, 1]
  rhsNonContracting := [0]
  lhsBatch := []
  rhsBatch := []
  wf := dot_S4x10000x128_S128x128_S4x10000x128_2_1_01_0_n_n_wf
def gather_S4x10000x128_S160000x1_S4x160000x128_02_1_n_n_1_1_41128 : GatherDims S4x10000x128 S160000x1 S4x160000x128 where
  offsetDims := [0, 2]
  collapsedSliceDims := [1]
  operandBatchingDims := []
  startIndicesBatchingDims := []
  startIndexMap := [1]
  indexVectorDim := 1
  sliceSizes := ![4, 1, 128]
  wf := gather_S4x10000x128_S160000x1_S4x160000x128_02_1_n_n_1_1_41128_wf
def scatter_S4x10000x128_S160000x1_S4x160000x128_02_1_1_1 : ScatterDims S4x10000x128 S160000x1 S4x160000x128 where
  updateWindowDims := [0, 2]
  insertedWindowDims := [1]
  scatterDimsToOperandDims := [1]
  indexVectorDim := 1
  wf := scatter_S4x10000x128_S160000x1_S4x160000x128_02_1_1_1_wf

class Facts : Prop extends Facts₀ where

variable [Facts]
-- ==== Proof.K.Linear.lean ====
/- The linear layer of the kernel program, as one pipelined region.

   The region walks a grid of 10 points. Point `t` takes rows 4000·t .. 4000·t + 3999 of the activations
   (an array of 40000 rows and 128 columns), the whole weight matrix (128 × 256) and the bias row (1 × 128), and
   writes two blocks of 4000 rows and 128 columns: the left half of the product plus the bias, and the right half
   of the product. This module states, for any float instance, what each staging buffer holds before and after
   the body at every point, and proves that the body meets that description. -/
import proofs.«109383_j39367670235762_1_alg».proof.Proof.Gen.Kernel.Launch
import proofs.«109383_j39367670235762_1_alg».proof.Proof.Gen.Kernel.Skeleton
import proofs.«109383_j39367670235762_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 4000 is decided by structural recursion along the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section LinearRegion
-- the TensorCore's buffer contents when the region is entered
variable (V : (c : Dev nD) → (b : Ref sig .tc) → Buf (Elt F) ((c : Thread nD τ).loc b))

/-! # The linear layer: region 0

One grid point handles 4000 rows. It reads a block `x` of 4000 rows of the activations, the whole weight matrix
`w` (128 × 256) and the bias row `b` (1 × 128); it forms the product `x · w` (4000 × 256) once and writes its
left half plus the bias into the first output block and its right half into the second. -/

/-! ## Blocks -/

/-- The block of window `w` at grid point `t`: the part of the window's array, as the region finds it, that
    the point's block index selects. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block of rows. The block index moves with every point, so
    the block is fetched at every point; the statement is for any proof data reading `V` and leaving the block
    where it is. -/
theorem holds0_x {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weights' staging buffer holds the whole weight matrix at every point. Its block index is constant: it is
    fetched at the first point only, and at a later point the buffer still holds what the point before left, which
    is the same block. -/
theorem holds0_w {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Likewise the bias row: one block, fetched once, found in place at every point. -/
theorem holds0_b {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body reads and writes: each is the whole of its buffer -/

abbrev allRows : Rect S4000x128 := Rect.unit (s := S4000x128) ![0, 0] S4000x128.size inb_S4000x128_S4000x128_0_0
abbrev allWeights : Rect S128x256 := Rect.unit (s := S128x256) ![0, 0] S128x256.size inb_S128x256_S128x256_0_0
abbrev biasRow : Rect S1x128 := Rect.unit (s := S1x128) ![0, 0] S1x128.size inb_S1x128_S1x128_0_0

/-! ## What the body leaves in the two output buffers -/

/-- The first output block: columns 0..127 of `x · w` with the bias added to every row. The body stores it in
    one piece over the whole buffer. -/
def linH (x : Vec F S4000x128 .f32) (w : Vec F S128x256 .f32) (b : Vec F S1x128 .f32) : Vec F S4000x128 .f32 :=
  View.canon [⟨allRows, k0_pay2 (View.ld x allRows) (View.ld w allWeights) (View.ld b biasRow)⟩]

/-- The second output block: columns 128..255 of `x · w`, again one piece over the whole buffer. -/
def linM (x : Vec F S4000x128 .f32) (w : Vec F S128x256 .f32) : Vec F S4000x128 .f32 :=
  View.canon [⟨allRows, k0_pay3 (View.ld x allRows) (View.ld w allWeights)⟩]

/-- A single piece over all rows leaves no index of the buffer uncovered. -/
theorem allRows_covers (p : Vec F S4000x128 .f32) (y : S4000x128.Idx) :
    ∃ pc ∈ ([⟨allRows, p⟩] : List (View.Piece (Elt F) S4000x128 .f32)), y ∈ pc.1.set :=
  View.cover_of_tiled [⟨allRows, p⟩] S4000x128.size (by rfl) y

/-! ## The body's triple -/

set_option maxHeartbeats 1000000 in
/-- The body on five whole staging buffers — the three inputs at contents `x`, `w`, `b`, the two outputs at
    anything (the body reads each output buffer once before overwriting it and uses nothing of what it read) —
    runs to a state where the inputs are as they were and the outputs hold `linH x w b` and `linM x w`. The grid
    coordinate `i` is not used by the body. -/
theorem sound_kernel0 (c : Dev nD) (E : Set ℕ) (i : grid0.Coords)
    (arg1 : Memref sig .tc .vmem S4000x128 .f32) (harg1 : arg1.IsWhole) (arg2 : Memref sig .tc .vmem S128x256 .f32) (harg2 : arg2.IsWhole)
    (arg3 : Memref sig .tc .vmem S1x128 .f32) (harg3 : arg3.IsWhole) (arg4 : Memref sig .tc .vmem S4000x128 .f32) (harg4 : arg4.IsWhole)
    (arg5 : Memref sig .tc .vmem S4000x128 .f32) (harg5 : arg5.IsWhole)
    (x : Vec F S4000x128 .f32) (w : Vec F S128x256 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (linH x w b) ∗ owns (c : Thread nD τ) arg5 fullShare (linM x w)) -∗ K ⟨⟩))
      ⊢ wp frame (wpE (defs₀ (F := F)) Variants.none c none) E (cc0__linear_kernel_body i arg1 harg1 arg2 harg2 arg3 harg3 arg4 harg4 arg5 harg5) K := by
  simp only [cc0__linear_kernel_body_eq_skeleton]; unfold cc0__linear_kernel_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (allRows_covers _)
  iexists _; isplitr
  swap; · iexact H5
  ipureintro
  exact View.read_writes_eq_canon _ _ _ (allRows_covers _)

/-! ## The region's proof data -/

/-- The proof data of the linear layer's pipeline on core `c`. The arrays are as the region finds them. After
    the body at point `t` the three input buffers still hold their blocks, the first output buffer holds
    `linH` of the three blocks and the second `linM` of the activations' and the weights' blocks. The invariant
    is the untouched rest of the core's scoped memory and its generator register; the arrays are held whole and the
    core owes nothing. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => linH (blk0 V c 0 t) (blk0 V c 1 t) (blk0 V c 2 t)
    | ⟨4, _⟩ => linM (blk0 V c 0 t) (blk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = linH (blk0 V c 0 t) (blk0 V c 1 t) (blk0 V c 2 t) := by dsimp only [dat0]
theorem after0_4 (c : Dev nD) (t : Fin cfg0.N) :
    (dat0 V c).after 4 t = linM (blk0 V c 0 t) (blk0 V c 1 t) := by dsimp only [dat0]

/-- What the body finds in each input buffer at point `t`: the window's block there. -/
theorem before0_0 (c : Dev nD) (t : Fin cfg0.N) (d) : (dat0 V c).before 0 t d = blk0 V c 0 t :=
  holds0_x V (dat0 V c) (A_eq0 V c 0) (after0_0 V c) t d
theorem before0_1 (c : Dev nD) (t : Fin cfg0.N) (d) : (dat0 V c).before 1 t d = blk0 V c 1 t :=
  holds0_w V (dat0 V c) (A_eq0 V c 1) (after0_1 V c) t d
theorem before0_2 (c : Dev nD) (t : Fin cfg0.N) (d) : (dat0 V c).before 2 t d = blk0 V c 2 t :=
  holds0_b V (dat0 V c) (A_eq0 V c 2) (after0_2 V c) t d

/-! ## The body obligation -/

/-- What the pipeline hands the body at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body hands back: the same invariant and debt, every buffer at what the proof data says it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. The input buffers hold their blocks, so the body's triple applies with `x`, `w`, `b`
    the three blocks; the invariant and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the linear layer, at every point. -/
theorem body_obligation0 (c : Dev nD) : BodyObligation (dat0 (F := F) V c) (defs₀ (F := F)) Variants.none () Set.univ := fun t => by
  rw [bigSep_W0, bigSep_W0]
  exact sound_body0 V c t

end LinearRegion

end Cert.Kernel.Hand

end
-- ==== Proof.K.StatsRuns.lean ====
import proofs.«109383_j39367670235762_1_alg».proof.Proof.Gen.Kernel.Launch
import proofs.«109383_j39367670235762_1_alg».proof.Proof.Gen.Kernel.Skeleton
import proofs.«109383_j39367670235762_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The two conditions of the statistics kernel, over the grid -/

/-- The first conditional (the reset of the two accumulators): taken when the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional (the copy of the accumulators into the two row outputs): taken when the coordinate is 9. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last point the two row outputs are idle and not written back. -/
theorem idle1_3 : ∀ t : Fin cfg1.N, ¬cond1_1 (grid1.coords t) → cfg1.idle 3 (grid1.coords t) = true := by decide +kernel
theorem idle1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- At the last point they are live. -/
theorem live1_3 : ∀ t : Fin cfg1.N, cond1_1 (grid1.coords t) → cfg1.idle 3 (grid1.coords t) = false := by decide +kernel
theorem live1_4 : ∀ t : Fin cfg1.N, cond1_1 (grid1.coords t) → cfg1.idle 4 (grid1.coords t) = false := by decide +kernel

/-! ## The scratch accumulators -/

/-- The two accumulators: whole scoped buffers no window stages. -/
abbrev scM0 : Memref sig .tc .vmem S1x128 .f32 := Memref.whole cc1_scratch0
abbrev scM1 : Memref sig .tc .vmem S1x128 .f32 := Memref.whole cc1_scratch1

/-- The zero offset of a whole-row access. -/
theorem off00 : (![0, 0] : Fin 2 → ℕ) = fun _ => 0 := by
  funext a; fin_cases a <;> rfl

/-! ## Reading back a whole store -/

/-- A store through the whole-shape rectangle, made last, reads back as its payload. -/
theorem read_store_unit {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h]

set_option maxHeartbeats 1000000 in
/-- Point 0: both accumulators are reset to zero, then the point's column sums are added; the two row outputs are left as found. -/
theorem run1_A (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond1_0 i) (hc1 : ¬cond1_1 i)
    (x0 x1 : Vec F S4000x128 .f32)  (xi3 xi4 : Vec F S1x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare xi3 ∗ owns (c : Thread nD τ) arg5 fullShare xi4
            ∗ owns (c : Thread nD τ) arg6 fullShare (k1_pay4 x0 x1 k1_pay1) ∗ owns (c : Thread nD τ) arg7 fullShare (k1_pay5 x0 x1 k1_pay2)) -∗ K ⟨⟩))
      ⊢ wp frame (wpE (defs₀ (F := F)) Variants.none c none) E (cc1__stats_kernel_body i arg1 harg1 arg2 harg2 arg3 harg3 arg4 harg4 arg5 harg5 arg6 harg6 arg7 harg7) K := by
  simp only [cc1__stats_kernel_body_eq_skeleton]; unfold cc1__stats_kernel_body_skel
  unfold owns
  iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  iexists _; isplitr; swap; · iexact HS1
  ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]

set_option maxHeartbeats 1000000 in
/-- Points 1 to 8: the point's column sums are added to the accumulators; the two row outputs are left as found. -/
theorem run1_B (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i) (hc1 : ¬cond1_1 i)
    (x0 x1 : Vec F S4000x128 .f32) (xs0 xs1 : Vec F S1x128 .f32) (xi3 xi4 : Vec F S1x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare xi3 ∗ owns (c : Thread nD τ) arg5 fullShare xi4
            ∗ owns (c : Thread nD τ) arg6 fullShare (k1_pay4 x0 x1 xs0) ∗ owns (c : Thread nD τ) arg7 fullShare (k1_pay5 x0 x1 xs1)) -∗ K ⟨⟩))
      ⊢ wp frame (wpE (defs₀ (F := F)) Variants.none c none) E (cc1__stats_kernel_body i arg1 harg1 arg2 harg2 arg3 harg3 arg4 harg4 arg5 harg5 arg6 harg6 arg7 harg7) K := by
  simp only [cc1__stats_kernel_body_eq_skeleton]; unfold cc1__stats_kernel_body_skel
  unfold owns
  iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  iexists _; isplitr; swap; · iexact HS1
  ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]

set_option maxHeartbeats 1000000 in
/-- Point 9: the point's column sums are added, and the accumulators are copied into the two row outputs. -/
theorem run1_C (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i) (hc1 : cond1_1 i)
    (x0 x1 : Vec F S4000x128 .f32) (xs0 xs1 : Vec F S1x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare (k1_pay4 x0 x1 xs0) ∗ owns (c : Thread nD τ) arg5 fullShare (k1_pay5 x0 x1 xs1)
            ∗ owns (c : Thread nD τ) arg6 fullShare (k1_pay4 x0 x1 xs0) ∗ owns (c : Thread nD τ) arg7 fullShare (k1_pay5 x0 x1 xs1)) -∗ K ⟨⟩))
      ⊢ wp frame (wpE (defs₀ (F := F)) Variants.none c none) E (cc1__stats_kernel_body i arg1 harg1 arg2 harg2 arg3 harg3 arg4 harg4 arg5 harg5 arg6 harg6 arg7 harg7) K := by
  simp only [cc1__stats_kernel_body_eq_skeleton]; unfold cc1__stats_kernel_body_skel
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
  obtain rfl := harg1.eq_unread hf0; obtain rfl := harg2.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [H3]
  · iexists _; isplitr; swap; · iexact H3
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [H4]
  · iexists _; isplitr; swap; · iexact H4
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [HS0]
  · iexists _; isplitr; swap; · iexact HS0
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  iexists _; isplitr; swap; · iexact HS1
  ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]

end Cert.Kernel.Hand

end
-- ==== Proof.K.Stats.lean ====
import proofs.«109383_j39367670235762_1_alg».proof.Proof.K.StatsRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two accumulators, point by point -/

/-- The first accumulator after the first `n` points: zero, then at each point the column sums of the
    point's block of `h + agg` added. -/
def accSum (c : Dev nD) : ℕ → Vec F S1x128 .f32
  | 0 => k1_pay1
  | n + 1 => if h : n < cfg1.N then k1_pay4 (blk1 V c 0 ⟨n, h⟩) (blk1 V c 1 ⟨n, h⟩) (accSum c n) else accSum c n

/-- The second accumulator after the first `n` points: zero, then at each point the column sums of the
    squares of the point's block of `h + agg` added. -/
def accSq (c : Dev nD) : ℕ → Vec F S1x128 .f32
  | 0 => k1_pay2
  | n + 1 => if h : n < cfg1.N then k1_pay5 (blk1 V c 0 ⟨n, h⟩) (blk1 V c 1 ⟨n, h⟩) (accSq c n) else accSq c n

theorem accSum_zero (c : Dev nD) (n : ℕ) (hz : n = 0) : accSum V c n = k1_pay1 := by subst hz; rfl
theorem accSq_zero (c : Dev nD) (n : ℕ) (hz : n = 0) : accSq V c n = k1_pay2 := by subst hz; rfl
theorem accSum_succ (c : Dev nD) (t : Fin cfg1.N) :
    accSum V c (t.val + 1) = k1_pay4 (blk1 V c 0 t) (blk1 V c 1 t) (accSum V c t.val) := by
  show (if h : t.val < cfg1.N then _ else _) = _
  rw [dif_pos t.isLt]
theorem accSq_succ (c : Dev nD) (t : Fin cfg1.N) :
    accSq V c (t.val + 1) = k1_pay5 (blk1 V c 0 t) (blk1 V c 1 t) (accSq V c t.val) := by
  show (if h : t.val < cfg1.N then _ else _) = _
  rw [dif_pos t.isLt]

/-! ## The invariant -/

/-- The scoped buffers no window stages, with the two accumulators split off: the accumulators at some
    contents, the other buffers unopened. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] (by decide) (by decide)]
  simp only [scM0, scM1, owns_whole, Idealize.SL.BI.bigSepL_cons_cons, Idealize.SL.BI.bigSepL_singleton]; try rfl

/-- The invariant before point `n`: before the first point every scoped buffer at some contents; afterwards the
    two accumulators at what the first `n` points accumulated, the other scoped buffers unopened; the generator
    register at some state throughout. -/
def PhiS (c : Dev nD) (n : ℕ) : sProp 𝕄 :=
  if n = 0 then Pipeline.ΦA spec1 c
  else iprop((owns (c : Thread nD τ) scM0 fullShare (accSum V c n) ∗ owns (c : Thread nD τ) scM1 fullShare (accSq V c n))
      ∗ Pipeline.scopedRestBut (Ix := Unit) (Name := ℕ) (U := UR sig nD τ) (Lvl := ℕ) (Val := Elt F) spec1 c [cc1_scratch0, cc1_scratch1]
      ∗ (∃ r, prngReg c r))

theorem PhiS_zero (c : Dev nD) (n : ℕ) (hz : n = 0) :
    PhiS V c n = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec1 c [cc1_scratch0, cc1_scratch1])
      ∗ (∃ r, prngReg c r)) := by
  unfold PhiS; rw [if_pos hz]; unfold Pipeline.ΦA; rw [scopedRest1_split]

theorem PhiS_pos (c : Dev nD) (n : ℕ) (hz : n ≠ 0) :
    PhiS V c n = iprop((owns (c : Thread nD τ) scM0 fullShare (accSum V c n) ∗ owns (c : Thread nD τ) scM1 fullShare (accSq V c n))
      ∗ Pipeline.scopedRestBut (Ix := Unit) (Name := ℕ) (U := UR sig nD τ) (Lvl := ℕ) (Val := Elt F) spec1 c [cc1_scratch0, cc1_scratch1]
      ∗ (∃ r, prngReg c r)) := by
  unfold PhiS; rw [if_neg hz]

/-! ## The proof data -/

/-- The proof data of the statistics call on core `c`: the arrays as the region finds them; after the body at
    point `t` the two inputs' buffers at their blocks, the first output's at the block of `h + agg`, the two
    row outputs' at the accumulators after `t + 1` points (read at the last point only); the invariant above;
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay3 (blk1 V c 0 t) (blk1 V c 1 t)
    | ⟨3, _⟩ => accSum V c (t.val + 1)
    | ⟨4, _⟩ => accSq V c (t.val + 1)
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay3 (blk1 V c 0 t) (blk1 V c 1 t) := by dsimp only [dat1]
theorem after1_3 (c : Dev nD) (t : Fin cfg1.N) : (dat1 V c).after 3 t = accSum V c (t.val + 1) := by dsimp only [dat1]
theorem after1_4 (c : Dev nD) (t : Fin cfg1.N) : (dat1 V c).after 4 t = accSq V c (t.val + 1) := by dsimp only [dat1]
theorem after1_3_last (c : Dev nD) : (dat1 V c).after 3 t1_9 = accSum V c 10 := by rw [after1_3]; rfl
theorem after1_4_last (c : Dev nD) : (dat1 V c).after 4 t1_9 = accSq V c 10 := by rw [after1_4]; rfl

theorem Phi1_castSucc (c : Dev nD) (t : Fin cfg1.N) : (dat1 V c).Φ t.castSucc = PhiS V c t.val := by
  dsimp only [dat1]; simp only [Fin.coe_castSucc]
theorem Phi1_succ (c : Dev nD) (t : Fin cfg1.N) : (dat1 V c).Φ t.succ = PhiS V c (t.val + 1) := by
  dsimp only [dat1]; simp only [Fin.val_succ]

/-- Each input's current staging buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's position selects the case
    (first, middle, last); the invariant hands the body the two accumulators at what the points before
    accumulated (at anything before the first point, where the body resets them) and takes them back with this
    point's column sums added; off the last point the two row outputs are handed back untouched, at the last
    point they hold the accumulators. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_castSucc, Phi1_succ, PhiS_pos V c (t.val + 1) (Nat.succ_ne_zero _)]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  have hN : t.val < 10 := lt_of_lt_of_eq t.isLt (show cfg1.N = 10 from N_1)
  by_cases h0 : t.val % 10 = 0
  · have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 3 t (idle1_3 t hc1) (noFlush1_3 t hc1), Dat.leavesExact_idle (dat1 V c) 4 t (idle1_4 t hc1) (noFlush1_4 t hc1)]
    rw [accSum_succ, accSq_succ]
    rw [PhiS_zero V c _ hz, accSum_zero V c _ hz, accSq_zero V c _ hz]
    iintro ⟨⟨⟨⟨⟨%ds0, HS0⟩, ⟨%ds1, HS1⟩⟩, HB⟩, Hg⟩, Ho, ⟨%d0, H0⟩, ⟨%d1, H1⟩, ⟨%d2, H2⟩, ⟨%d3, H3⟩, ⟨%d4, H4⟩⟩
    iapply (run1_A c (grid1.coords t) _ _ _ _ _ _ _ _ _ _ _ _ _ _ hc0 hc1 (blk1 V c 0 t) (blk1 V c 1 t) _ _ Set.univ _)
    isplitl [H0]; · iexact H0
    isplitl [H1]; · iexact H1
    isplitl [H2]; · iexists _; iexact H2
    isplitl [H3]; · iexact H3
    isplitl [H4]; · iexact H4
    isplitl [HS0]; · iexists _; iexact HS0
    isplitl [HS1]; · iexists _; iexact HS1
    iintro ⟨H0, H1, H2, H3, H4, HS0, HS1⟩
    isplitl [HS0 HS1 HB Hg]
    · isplitl [HS0 HS1]
      · isplitl [HS0]; · iexact HS0
        iexact HS1
      isplitl [HB]; · iexact HB
      iexact Hg
    isplitl [Ho]; · iexact Ho
    isplitl [H0]; · iexact H0
    isplitl [H1]; · iexact H1
    isplitl [H2]; · iexact H2
    isplitl [H3]; · iexists _; iexact H3
    iexists _; iexact H4
  by_cases h1 : t.val % 10 = 9
  · have hz : t.val ≠ 0 := by omega
    have hc0 : ¬cond1_0 (grid1.coords t) := fun h => h0 ((hcond1_0 t).mp h)
    have hc1 : cond1_1 (grid1.coords t) := (hcond1_1 t).mpr h1
    rw [show (dat1 V c).leavesExact 3 t = owns (c : Thread nD τ) (st1_3 t) fullShare ((dat1 V c).after 3 t) from by
      unfold Dat.leavesExact; rw [live1_3 t hc1], after1_3]
    rw [show (dat1 V c).leavesExact 4 t = owns (c : Thread nD τ) (st1_4 t) fullShare ((dat1 V c).after 4 t) from by
      unfold Dat.leavesExact; rw [live1_4 t hc1], after1_4]
    rw [accSum_succ, accSq_succ]
    rw [PhiS_pos V c _ hz]
    iintro ⟨⟨⟨HS0, HS1⟩, HB, Hg⟩, Ho, ⟨%d0, H0⟩, ⟨%d1, H1⟩, ⟨%d2, H2⟩, ⟨%d3, H3⟩, ⟨%d4, H4⟩⟩
    iapply (run1_C c (grid1.coords t) _ _ _ _ _ _ _ _ _ _ _ _ _ _ hc0 hc1 (blk1 V c 0 t) (blk1 V c 1 t) (accSum V c t.val) (accSq V c t.val) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HB Hg]
    · isplitl [HS0 HS1]
      · isplitl [HS0]; · iexact HS0
        iexact HS1
      isplitl [HB]; · iexact HB
      iexact Hg
    isplitl [Ho]; · iexact Ho
    isplitl [H0]; · iexact H0
    isplitl [H1]; · iexact H1
    isplitl [H2]; · iexact H2
    isplitl [H3]; · iexact H3
    iexact H4
  · have hz : t.val ≠ 0 := by omega
    have hc0 : ¬cond1_0 (grid1.coords t) := fun h => h0 ((hcond1_0 t).mp h)
    have hc1 : ¬cond1_1 (grid1.coords t) := fun h => h1 ((hcond1_1 t).mp h)
    rw [Dat.leavesExact_idle (dat1 V c) 3 t (idle1_3 t hc1) (noFlush1_3 t hc1), Dat.leavesExact_idle (dat1 V c) 4 t (idle1_4 t hc1) (noFlush1_4 t hc1)]
    rw [accSum_succ, accSq_succ]
    rw [PhiS_pos V c _ hz]
    iintro ⟨⟨⟨HS0, HS1⟩, HB, Hg⟩, Ho, ⟨%d0, H0⟩, ⟨%d1, H1⟩, ⟨%d2, H2⟩, ⟨%d3, H3⟩, ⟨%d4, H4⟩⟩
    iapply (run1_B c (grid1.coords t) _ _ _ _ _ _ _ _ _ _ _ _ _ _ hc0 hc1 (blk1 V c 0 t) (blk1 V c 1 t) (accSum V c t.val) (accSq V c t.val) _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HB Hg]
    · isplitl [HS0 HS1]
      · isplitl [HS0]; · iexact HS0
        iexact HS1
      isplitl [HB]; · iexact HB
      iexact Hg
    isplitl [Ho]; · iexact Ho
    isplitl [H0]; · iexact H0
    isplitl [H1]; · iexact H1
    isplitl [H2]; · iexact H2
    isplitl [H3]; · iexists _; iexact H3
    iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- The generator register and the scoped rest, as the region is entered, are the invariant before the first point. -/
theorem phi1_in (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [show (dat1 V c).Φ 0 = PhiS V c 0 from rfl]; unfold PhiS; rw [if_pos rfl]; unfold Pipeline.ΦA
  iintro ⟨Hp, Hr⟩
  isplitl [Hr]; · iexact Hr
  iexact Hp

/-- After the last point the invariant gives them back: the accumulators' contents are forgotten. -/
theorem phi1_out (c : Dev nD) :
    (dat1 V c).Φ (Fin.last _)
      ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last _) = PhiS V c cfg1.N from rfl,
    PhiS_pos V c _ (by rw [show cfg1.N = 10 from N_1]; decide), scopedRest1_split]
  iintro ⟨⟨HS0, HS1⟩, HB, Hg⟩
  isplitl [Hg]; · iexact Hg
  isplitl [HS0 HS1]
  · isplitl [HS0]; · iexists _; iexact HS0
    iexists _; iexact HS1
  iexact HB

end Region

end Cert.Kernel.Hand

end
-- ==== Proof.K.Norm.lean ====
/- The normalisation of the kernel program, as one pipelined region.

   The region walks a grid of 10 points. Point `t` takes rows 4000·t .. 4000·t + 3999 of its input (an array
   of 40000 rows and 128 columns) and four rows of 128 per-column numbers — mean, variance, scale, shift — and
   writes the block of 4000 rows normalised by the mean and the variance, scaled, shifted and clamped below at
   zero. This module states, for any float instance, what each staging buffer holds before and after the body at
   every point, and proves that the body meets that description. -/
import proofs.«109383_j39367670235762_1_alg».proof.Proof.Gen.Kernel.Launch
import proofs.«109383_j39367670235762_1_alg».proof.Proof.Gen.Kernel.Skeleton
import proofs.«109383_j39367670235762_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 4000 is decided by structural recursion along the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section NormRegion
-- the TensorCore's buffer contents when the region is entered
variable (V : (c : Dev nD) → (b : Ref sig .tc) → Buf (Elt F) ((c : Thread nD τ).loc b))

/-! # The normalisation: region 2

One grid point handles 4000 rows. It reads a block `x` of 4000 rows and four rows of 128 per-column numbers —
the mean, the variance, the scale `gamma` and the shift `beta` — and writes, entry by entry,
`max ((x - mean) * rsqrt (var + ε) * gamma + beta) 0`, each row of per-column numbers repeated down the 4000 rows. -/

/-! ## Blocks -/

/-- The block of window `w` at grid point `t`: the part of the window's array, as the region finds it, that
    the point's block index selects. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input rows' staging buffer holds the point's block of rows. The block index moves with every point, so
    the block is fetched at every point; the statement is for any proof data reading `V` and leaving the block
    where it is. -/
theorem holds2_x {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The row of means is one block whose index never moves: it is fetched at the first point only, and at every
    later point the buffer still holds what the point before left, which is the same block. -/
theorem holds2_mean {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Likewise the row of variances. -/
theorem holds2_var {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Likewise the row of scales. -/
theorem holds2_gamma {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Likewise the row of shifts. -/
theorem holds2_beta {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-! ## The rectangles the body reads and writes: each is the whole of its buffer -/

abbrev normRows : Rect S4000x128 := Rect.unit (s := S4000x128) ![0, 0] S4000x128.size inb_S4000x128_S4000x128_0_0
abbrev statRow : Rect S1x128 := Rect.unit (s := S1x128) ![0, 0] S1x128.size inb_S1x128_S1x128_0_0

/-! ## What the body leaves in the output buffer -/

/-- The output block: the rows normalised, scaled, shifted and clamped below at zero. The body stores it in one
    piece over the whole buffer. -/
def normOut (x : Vec F S4000x128 .f32) (mean var gamma beta : Vec F S1x128 .f32) : Vec F S4000x128 .f32 :=
  View.canon [⟨normRows, k2_pay1 (View.ld x normRows) (View.ld mean statRow) (View.ld var statRow) (View.ld gamma statRow) (View.ld beta statRow)⟩]

/-- A single piece over all rows leaves no index of the buffer uncovered. -/
theorem normRows_covers (p : Vec F S4000x128 .f32) (y : S4000x128.Idx) :
    ∃ pc ∈ ([⟨normRows, p⟩] : List (View.Piece (Elt F) S4000x128 .f32)), y ∈ pc.1.set :=
  View.cover_of_tiled [⟨normRows, p⟩] S4000x128.size (by rfl) y

/-! ## The body's triple -/

set_option maxHeartbeats 1000000 in
/-- The body on six whole staging buffers — the five inputs at contents `x`, `mean`, `var`, `gamma`, `beta`,
    the output at anything (the body reads the output buffer once before overwriting it and uses nothing of what it
    read) — runs to a state where the inputs are as they were and the output holds `normOut` of them. The grid
    coordinate `i` is not used by the body. -/
theorem sound_kernel2 (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4000x128 .f32) (harg6 : arg6.IsWhole)
    (x : Vec F S4000x128 .f32) (mean var gamma beta : Vec F S1x128 .f32) (K : PUnit → sProp 𝕄) :
    iprop(owns (c : Thread nD τ) arg1 fullShare x ∗ owns (c : Thread nD τ) arg2 fullShare mean ∗ owns (c : Thread nD τ) arg3 fullShare var
        ∗ owns (c : Thread nD τ) arg4 fullShare gamma ∗ owns (c : Thread nD τ) arg5 fullShare beta
        ∗ (∃ d, owns (c : Thread nD τ) arg6 fullShare d)
        ∗ (iprop(owns (c : Thread nD τ) arg1 fullShare x ∗ owns (c : Thread nD τ) arg2 fullShare mean ∗ owns (c : Thread nD τ) arg3 fullShare var
            ∗ owns (c : Thread nD τ) arg4 fullShare gamma ∗ owns (c : Thread nD τ) arg5 fullShare beta
            ∗ owns (c : Thread nD τ) arg6 fullShare (normOut x mean var gamma beta)) -∗ K ⟨⟩))
      ⊢ wp frame (wpE (defs₀ (F := F)) Variants.none c none) E (cc2__norm_kernel_body i arg1 harg1 arg2 harg2 arg3 harg3 arg4 harg4 arg5 harg5 arg6 harg6) K := by
  simp only [cc2__norm_kernel_body_eq_skeleton]; unfold cc2__norm_kernel_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normRows_covers _)

/-! ## The region's proof data -/

/-- The proof data of the normalisation's pipeline on core `c`. The arrays are as the region finds them. After
    the body at point `t` the five input buffers still hold their blocks and the output buffer holds `normOut` of
    the five blocks. The invariant is the untouched rest of the core's scoped memory and its generator register; the
    arrays are held whole and the core owes nothing. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => normOut (blk2 V c 0 t) (blk2 V c 1 t) (blk2 V c 2 t) (blk2 V c 3 t) (blk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) :
    (dat2 V c).after 5 t = normOut (blk2 V c 0 t) (blk2 V c 1 t) (blk2 V c 2 t) (blk2 V c 3 t) (blk2 V c 4 t) := by dsimp only [dat2]

/-- What the body finds in each input buffer at point `t`: the window's block there. -/
theorem before2_0 (c : Dev nD) (t : Fin cfg2.N) (d) : (dat2 V c).before 0 t d = blk2 V c 0 t :=
  holds2_x V (dat2 V c) (A_eq2 V c 0) (after2_0 V c) t d
theorem before2_1 (c : Dev nD) (t : Fin cfg2.N) (d) : (dat2 V c).before 1 t d = blk2 V c 1 t :=
  holds2_mean V (dat2 V c) (A_eq2 V c 1) (after2_1 V c) t d
theorem before2_2 (c : Dev nD) (t : Fin cfg2.N) (d) : (dat2 V c).before 2 t d = blk2 V c 2 t :=
  holds2_var V (dat2 V c) (A_eq2 V c 2) (after2_2 V c) t d
theorem before2_3 (c : Dev nD) (t : Fin cfg2.N) (d) : (dat2 V c).before 3 t d = blk2 V c 3 t :=
  holds2_gamma V (dat2 V c) (A_eq2 V c 3) (after2_3 V c) t d
theorem before2_4 (c : Dev nD) (t : Fin cfg2.N) (d) : (dat2 V c).before 4 t d = blk2 V c 4 t :=
  holds2_beta V (dat2 V c) (A_eq2 V c 4) (after2_4 V c) t d

/-! ## The body obligation -/

/-- What the pipeline hands the body at point `t`: the invariant, what the core owes, and each window's current
    staging buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body hands back: the same invariant and debt, every buffer at what the proof data says it leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. The input buffers hold their blocks, so the body's triple applies with the five blocks;
    the invariant and the debt are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the normalisation, at every point. -/
theorem body_obligation2 (c : Dev nD) : BodyObligation (dat2 (F := F) V c) (defs₀ (F := F)) Variants.none () Set.univ := fun t => by
  rw [bigSep_W2, bigSep_W2]
  exact sound_body2 V c t

end NormRegion

end Cert.Kernel.Hand

end
-- ==== Proof.K.Run.lean ====
/-
  The kernel program's run, read back whole: @main is seven items — host operations, the linear region, host
  operations, the statistics region, host operations, the normalising region, the last reshape — and from any memory
  every weakly fair execution runs through them in order, terminates, and ends with each unscoped buffer holding what
  the items make of the launch contents (`W7`). That one statement carries both what the certificate needs of this
  program: no item writes an argument array, so the arguments end as launched (`frame`); and the result buffer ends at the
  last reshape of what the normalising region wrote.
  Each region's part of the run comes from that region's own module (what its body leaves in each window's buffer at each
  grid point, and that the body does so): here they are only put end to end.
-/
import proofs.«109383_j39367670235762_1_alg».proof.Proof.K.Linear
import proofs.«109383_j39367670235762_1_alg».proof.Proof.K.Stats
import proofs.«109383_j39367670235762_1_alg».proof.Proof.K.Norm
import proofs.«109383_j39367670235762_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every unscoped buffer holds between two items of @main

@main is seven items: a stretch of host operations, the linear region, a stretch (the reshapes, the index arithmetic, the
gather and the scatter-add), the statistics region, a stretch (mean and variance from the two sums), the normalising region,
and the last reshape. `Wj c` is what core `c`'s unscoped buffers hold after item `j − 1`: a host stretch applies its
operations to the contents before it; a region leaves each of its windows' arrays at what its write-backs made of it and
every other buffer alone. -/

/-- At launch. -/
abbrev W0 : Dev nD → Valuation τ sig (Elt F) := fun c b => (s₀ m ρ).mem ((c : Dev nD), b)
/-- After the first host stretch: the linear region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the linear region: its five arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the statistics region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the statistics region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem left1 (c : Dev nD) (w : Fin cfg1.W) : (dat1 (V3 m ρ) c).arrAt w cfg1.N = V4 m ρ c (Pipeline.arrRef spec1 w) :=
  (W4_arr m ρ c w).symm
theorem kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: the normalising region's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the normalising region. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem left2 (c : Dev nD) (w : Fin cfg2.W) : (dat2 (V5 m ρ) c).arrAt w cfg2.N = V6 m ρ c (Pipeline.arrRef spec2 w) :=
  (W6_arr m ρ c w).symm
theorem kept2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last reshape: what @main returns with. -/
abbrev W7 : Dev nD → Valuation τ sig (Elt F) := fun c => StableHlo.after hostOps3 (W6 m ρ c)

/-! ## The proof data of the three pipelines, and what rides beside the buffers -/

/-- No pipeline has a prefetched table. -/
abbrev adm : (p : Fin 3) → (pcfgs (F := F) p).Adm := fun p => (cfgs p).toPCfg_adm
/-- Each pipeline's proof data at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- Beside the buffers every item carries the core's generator register, at some state, and the core owing nothing. -/
abbrev R (c : Dev nD) : sProp 𝕄 := iprop((∃ r, prngReg c r) ∗ ∃ W, owes (c : Thread nD τ) (0 : CellTallies nD τ sig Unit) W)
/-- A host stretch as an item: its operations over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor

/-- The last thread state without the `owes`: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The three regions as items

Each region is entered from "every unscoped buffer at `W(2k+1)`" and left at "every unscoped buffer at `W(2k+2)`": its
arrays are taken out of the unscoped buffers at entry and put back, at what the write-backs left, at exit; nothing is owed;
no kernel has a semaphore of its own. The first and the last keep nothing between grid points, so their invariant is the
scoped buffers and the generator register, untouched. The statistics region's invariant also holds its two accumulators;
they arrive among the scoped buffers at whatever they held and go back among them. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (phi1_in (V3 m ρ) c)
    isplitl [Hp]; · iexact Hp
    iexact Hr
  hout c := by
    rw [Pipeline.ownSems0_none, show (pdats m ρ 1 c).Φ (Fin.last _) = (dat1 (V3 m ρ) c).Φ (Fin.last _) from rfl]
    iintro H
    ihave H' := (phi1_out (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven items, and the run -/

abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)),
    .region (reg2 m ρ),
    .host (hseg hostOps3 hostOps3_sub fresh3 (W6 m ρ)) ]

/-- @main is the run of its items, one after the other. -/
theorem main_run (c : Dev nD) : main (F := F) c = Pipeline.Seg.run (segs m ρ) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and every
    final memory holds each unscoped buffer of each core at `W7` — the arguments (which nothing writes) and the result. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (W7 m ρ c) ∗ R c) : sProp 𝕄) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

/-- A buffer that no host operation writes and that is no window's array holds at the end what it held at launch. -/
theorem W7_of_untouched (c : Dev nD) (r : Ref sig .tc) (h0 : r ∉ hostOps0_W) (h1 : r ∉ hostOps1_W) (h2 : r ∉ hostOps2_W)
    (h3 : r ∉ hostOps3_W) (a0 : ∀ w, Pipeline.arrRef spec0 w ≠ r) (a1 : ∀ w, Pipeline.arrRef spec1 w ≠ r)
    (a2 : ∀ w, Pipeline.arrRef spec2 w ≠ r) :
    W7 m ρ c (Proc.devRef .tc r) = m ((c : Thread nD τ).loc r) :=
  (StableHlo.after_of_writes_sub hostOps3 _ hostOps3_writes h3).trans <|
  (W6_of_ne m ρ c r a2).trans <|
  (StableHlo.after_of_writes_sub hostOps2 _ hostOps2_writes h2).trans <|
  (W4_of_ne m ρ c r a1).trans <|
  (StableHlo.after_of_writes_sub hostOps1 _ hostOps1_writes h1).trans <|
  (W2_of_ne m ρ c r a0).trans <|
  (StableHlo.after_of_writes_sub hostOps0 _ hostOps0_writes h0).trans rfl

/-- THE FRAME: every weakly fair execution of @main terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_of_untouched m ρ c main_arg0 (by decide) (by decide) (by decide) (by decide) (by decide) (by decide) (by decide)),
     (h c _ (mem_uc main_arg1 (by decide))).trans (W7_of_untouched m ρ c main_arg1 (by decide) (by decide) (by decide) (by decide) (by decide) (by decide) (by decide)),
     (h c _ (mem_uc main_arg2 (by decide))).trans (W7_of_untouched m ρ c main_arg2 (by decide) (by decide) (by decide) (by decide) (by decide) (by decide) (by decide)),
     (h c _ (mem_uc main_arg3 (by decide))).trans (W7_of_untouched m ρ c main_arg3 (by decide) (by decide) (by decide) (by decide) (by decide) (by decide) (by decide)),
     (h c _ (mem_uc main_arg4 (by decide))).trans (W7_of_untouched m ρ c main_arg4 (by decide) (by decide) (by decide) (by decide) (by decide) (by decide) (by decide)),
     (h c _ (mem_uc main_arg5 (by decide))).trans (W7_of_untouched m ρ c main_arg5 (by decide) (by decide) (by decide) (by decide) (by decide) (by decide) (by decide)),
     (h c _ (mem_uc main_arg6 (by decide))).trans (W7_of_untouched m ρ c main_arg6 (by decide) (by decide) (by decide) (by decide) (by decide) (by decide) (by decide))⟩)
    (run_all m ρ)

end Cert.Kernel.Hand

end
-- ==== Proof.KI.Linear.lean ====
/- The linear layer of the kernel program, as one pipelined region.

   The region walks a grid of 10 points. Point `t` takes rows 4000·t .. 4000·t + 3999 of the activations
   (an array of 40000 rows and 128 columns), the whole weight matrix (128 × 256) and the bias row (1 × 128), and
   writes two blocks of 4000 rows and 128 columns: the left half of the product plus the bias, and the right half
   of the product. This module states, for any float instance, what each staging buffer holds before and after
   the body at every point, and proves that the body meets that description. -/
import proofs.«109383_j39367670235762_1_alg».proof.Proof.Gen.KernelIdeal.Launch
import proofs.«109383_j39367670235762_1_alg».proof.Proof.Gen.KernelIdeal.Skeleton
import proofs.«109383_j39367670235762_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 4000 is decided by structural recursion along the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section LinearRegion
-- the TensorCore's buffer contents when the region is entered
variable (V : (c : Dev nD) → (b : Ref sig .tc) → Buf (Elt F) ((c : Thread nD τ).loc b))

/-! # The linear layer: region 0

One grid point handles 4000 rows. It reads a block `x` of 4000 rows of the activations, the whole weight matrix
`w` (128 × 256) and the bias row `b` (1 × 128); it forms the product `x · w` (4000 × 256) once and writes its
left half plus the bias into the first output block and its right half into the second. -/

/-! ## Blocks -/

/-- The block of window `w` at grid point `t`: the part of the window's array, as the region finds it, that
    the point's block index selects. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block of rows. The block index moves with every point, so
    the block is fetched at every point; the statement is for any proof data reading `V` and leaving the block
    where it is. -/
theorem holds0_x {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The weights' staging buffer holds the whole weight matrix at every point. Its block index is constant: it is
    fetched at the first point only, and at a later point the buffer still holds what the point before left, which
    is the same block. -/
theorem holds0_w {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Likewise the bias row: one block, fetched once, found in place at every point. -/
theorem holds0_b {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-! ## The rectangles the body reads and writes: each is the whole of its buffer -/

abbrev allRows : Rect S4000x128 := Rect.unit (s := S4000x128) ![0, 0] S4000x128.size inb_S4000x128_S4000x128_0_0
abbrev allWeights : Rect S128x256 := Rect.unit (s := S128x256) ![0, 0] S128x256.size inb_S128x256_S128x256_0_0
abbrev biasRow : Rect S1x128 := Rect.unit (s := S1x128) ![0, 0] S1x128.size inb_S1x128_S1x128_0_0

/-! ## What the body leaves in the two output buffers -/

/-- The first output block: columns 0..127 of `x · w` with the bias added to every row. The body stores it in
    one piece over the whole buffer. -/
def linH (x : Vec F S4000x128 .f32) (w : Vec F S128x256 .f32) (b : Vec F S1x128 .f32) : Vec F S4000x128 .f32 :=
  View.canon [⟨allRows, k0_pay2 (View.ld x allRows) (View.ld w allWeights) (View.ld b biasRow)⟩]

/-- The second output block: columns 128..255 of `x · w`, again one piece over the whole buffer. -/
def linM (x : Vec F S4000x128 .f32) (w : Vec F S128x256 .f32) : Vec F S4000x128 .f32 :=
  View.canon [⟨allRows, k0_pay3 (View.ld x allRows) (View.ld w allWeights)⟩]

/-- A single piece over all rows leaves no index of the buffer uncovered. -/
theorem allRows_covers (p : Vec F S4000x128 .f32) (y : S4000x128.Idx) :
    ∃ pc ∈ ([⟨allRows, p⟩] : List (View.Piece (Elt F) S4000x128 .f32)), y ∈ pc.1.set :=
  View.cover_of_tiled [⟨allRows, p⟩] S4000x128.size (by rfl) y

/-! ## The body's triple -/

set_option maxHeartbeats 1000000 in
/-- The body on five whole staging buffers — the three inputs at contents `x`, `w`, `b`, the two outputs at
    anything (the body reads each output buffer once before overwriting it and uses nothing of what it read) —
    runs to a state where the inputs are as they were and the outputs hold `linH x w b` and `linM x w`. The grid
    coordinate `i` is not used by the body. -/
theorem sound_kernel0 (c : Dev nD) (E : Set ℕ) (i : grid0.Coords)
    (arg1 : Memref sig .tc .vmem S4000x128 .f32) (harg1 : arg1.IsWhole) (arg2 : Memref sig .tc .vmem S128x256 .f32) (harg2 : arg2.IsWhole)
    (arg3 : Memref sig .tc .vmem S1x128 .f32) (harg3 : arg3.IsWhole) (arg4 : Memref sig .tc .vmem S4000x128 .f32) (harg4 : arg4.IsWhole)
    (arg5 : Memref sig .tc .vmem S4000x128 .f32) (harg5 : arg5.IsWhole)
    (x : Vec F S4000x128 .f32) (w : Vec F S128x256 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (linH x w b) ∗ owns (c : Thread nD τ) arg5 fullShare (linM x w)) -∗ K ⟨⟩))
      ⊢ wp frame (wpE (defs₀ (F := F)) Variants.none c none) E (cc0__linear_kernel_body i arg1 harg1 arg2 harg2 arg3 harg3 arg4 harg4 arg5 harg5) K := by
  simp only [cc0__linear_kernel_body_eq_skeleton]; unfold cc0__linear_kernel_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (allRows_covers _)
  iexists _; isplitr
  swap; · iexact H5
  ipureintro
  exact View.read_writes_eq_canon _ _ _ (allRows_covers _)

/-! ## The region's proof data -/

/-- The proof data of the linear layer's pipeline on core `c`. The arrays are as the region finds them. After
    the body at point `t` the three input buffers still hold their blocks, the first output buffer holds
    `linH` of the three blocks and the second `linM` of the activations' and the weights' blocks. The invariant
    is the untouched rest of the core's scoped memory and its generator register; the arrays are held whole and the
    core owes nothing. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => linH (blk0 V c 0 t) (blk0 V c 1 t) (blk0 V c 2 t)
    | ⟨4, _⟩ => linM (blk0 V c 0 t) (blk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = linH (blk0 V c 0 t) (blk0 V c 1 t) (blk0 V c 2 t) := by dsimp only [dat0]
theorem after0_4 (c : Dev nD) (t : Fin cfg0.N) :
    (dat0 V c).after 4 t = linM (blk0 V c 0 t) (blk0 V c 1 t) := by dsimp only [dat0]

/-- What the body finds in each input buffer at point `t`: the window's block there. -/
theorem before0_0 (c : Dev nD) (t : Fin cfg0.N) (d) : (dat0 V c).before 0 t d = blk0 V c 0 t :=
  holds0_x V (dat0 V c) (A_eq0 V c 0) (after0_0 V c) t d
theorem before0_1 (c : Dev nD) (t : Fin cfg0.N) (d) : (dat0 V c).before 1 t d = blk0 V c 1 t :=
  holds0_w V (dat0 V c) (A_eq0 V c 1) (after0_1 V c) t d
theorem before0_2 (c : Dev nD) (t : Fin cfg0.N) (d) : (dat0 V c).before 2 t d = blk0 V c 2 t :=
  holds0_b V (dat0 V c) (A_eq0 V c 2) (after0_2 V c) t d

/-! ## The body obligation -/

/-- What the pipeline hands the body at point `t`: the invariant, what the core owes, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body hands back: the same invariant and debt, every buffer at what the proof data says it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. The input buffers hold their blocks, so the body's triple applies with `x`, `w`, `b`
    the three blocks; the invariant and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for the linear layer, at every point. -/
theorem body_obligation0 (c : Dev nD) : BodyObligation (dat0 (F := F) V c) (defs₀ (F := F)) Variants.none () Set.univ := fun t => by
  rw [bigSep_W0, bigSep_W0]
  exact sound_body0 V c t

end LinearRegion

end Cert.KernelIdeal.Hand

end
-- ==== Proof.KI.StatsRuns.lean ====
import proofs.«109383_j39367670235762_1_alg».proof.Proof.Gen.KernelIdeal.Launch
import proofs.«109383_j39367670235762_1_alg».proof.Proof.Gen.KernelIdeal.Skeleton
import proofs.«109383_j39367670235762_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The two conditions of the statistics kernel, over the grid -/

/-- The first conditional (the reset of the two accumulators): taken when the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional (the copy of the accumulators into the two row outputs): taken when the coordinate is 9. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last point the two row outputs are idle and not written back. -/
theorem idle1_3 : ∀ t : Fin cfg1.N, ¬cond1_1 (grid1.coords t) → cfg1.idle 3 (grid1.coords t) = true := by decide +kernel
theorem idle1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
/-- At the last point they are live. -/
theorem live1_3 : ∀ t : Fin cfg1.N, cond1_1 (grid1.coords t) → cfg1.idle 3 (grid1.coords t) = false := by decide +kernel
theorem live1_4 : ∀ t : Fin cfg1.N, cond1_1 (grid1.coords t) → cfg1.idle 4 (grid1.coords t) = false := by decide +kernel

/-! ## The scratch accumulators -/

/-- The two accumulators: whole scoped buffers no window stages. -/
abbrev scM0 : Memref sig .tc .vmem S1x128 .f32 := Memref.whole cc1_scratch0
abbrev scM1 : Memref sig .tc .vmem S1x128 .f32 := Memref.whole cc1_scratch1

/-- The zero offset of a whole-row access. -/
theorem off00 : (![0, 0] : Fin 2 → ℕ) = fun _ => 0 := by
  funext a; fin_cases a <;> rfl

/-! ## Reading back a whole store -/

/-- A store through the whole-shape rectangle, made last, reads back as its payload. -/
theorem read_store_unit {sp : Space} {s : Shape} {e : EltTy} (v : View sig .tc sp s e) (f : v.ty.Contents (Elt F))
    {off : Fin s.rank → ℕ} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon _ _ _ (fun y => ⟨_, List.mem_cons_self, View.mem_set_unit_zero h inb y⟩),
    View.canon_cons_unit_zero h]

set_option maxHeartbeats 1000000 in
/-- Point 0: both accumulators are reset to zero, then the point's column sums are added; the two row outputs are left as found. -/
theorem run1_A (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : cond1_0 i) (hc1 : ¬cond1_1 i)
    (x0 x1 : Vec F S4000x128 .f32)  (xi3 xi4 : Vec F S1x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare xi3 ∗ owns (c : Thread nD τ) arg5 fullShare xi4
            ∗ owns (c : Thread nD τ) arg6 fullShare (k1_pay4 x0 x1 k1_pay1) ∗ owns (c : Thread nD τ) arg7 fullShare (k1_pay5 x0 x1 k1_pay2)) -∗ K ⟨⟩))
      ⊢ wp frame (wpE (defs₀ (F := F)) Variants.none c none) E (cc1__stats_kernel_body i arg1 harg1 arg2 harg2 arg3 harg3 arg4 harg4 arg5 harg5 arg6 harg6 arg7 harg7) K := by
  simp only [cc1__stats_kernel_body_eq_skeleton]; unfold cc1__stats_kernel_body_skel
  unfold owns
  iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  iexists _; isplitr; swap; · iexact HS1
  ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]

set_option maxHeartbeats 1000000 in
/-- Points 1 to 8: the point's column sums are added to the accumulators; the two row outputs are left as found. -/
theorem run1_B (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i) (hc1 : ¬cond1_1 i)
    (x0 x1 : Vec F S4000x128 .f32) (xs0 xs1 : Vec F S1x128 .f32) (xi3 xi4 : Vec F S1x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare xi3 ∗ owns (c : Thread nD τ) arg5 fullShare xi4
            ∗ owns (c : Thread nD τ) arg6 fullShare (k1_pay4 x0 x1 xs0) ∗ owns (c : Thread nD τ) arg7 fullShare (k1_pay5 x0 x1 xs1)) -∗ K ⟨⟩))
      ⊢ wp frame (wpE (defs₀ (F := F)) Variants.none c none) E (cc1__stats_kernel_body i arg1 harg1 arg2 harg2 arg3 harg3 arg4 harg4 arg5 harg5 arg6 harg6 arg7 harg7) K := by
  simp only [cc1__stats_kernel_body_eq_skeleton]; unfold cc1__stats_kernel_body_skel
  unfold owns
  iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1
  obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [H3]
  · iexists _; isplitr; · ipureintro; exact harg4.read_unread _
    iexact H3
  isplitl [H4]
  · iexists _; isplitr; · ipureintro; exact harg5.read_unread _
    iexact H4
  isplitl [HS0]
  · iexists _; isplitr; swap; · iexact HS0
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  iexists _; isplitr; swap; · iexact HS1
  ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]

set_option maxHeartbeats 1000000 in
/-- Point 9: the point's column sums are added, and the accumulators are copied into the two row outputs. -/
theorem run1_C (c : Dev nD) (i : grid1.Coords) (arg1 : Memref sig .tc .vmem S4000x128 .f32) (harg1 : arg1.IsWhole) (arg2 : Memref sig .tc .vmem S4000x128 .f32) (harg2 : arg2.IsWhole) (arg3 : Memref sig .tc .vmem S4000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i) (hc1 : cond1_1 i)
    (x0 x1 : Vec F S4000x128 .f32) (xs0 xs1 : Vec F S1x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare (k1_pay4 x0 x1 xs0) ∗ owns (c : Thread nD τ) arg5 fullShare (k1_pay5 x0 x1 xs1)
            ∗ owns (c : Thread nD τ) arg6 fullShare (k1_pay4 x0 x1 xs0) ∗ owns (c : Thread nD τ) arg7 fullShare (k1_pay5 x0 x1 xs1)) -∗ K ⟨⟩))
      ⊢ wp frame (wpE (defs₀ (F := F)) Variants.none c none) E (cc1__stats_kernel_body i arg1 harg1 arg2 harg2 arg3 harg3 arg4 harg4 arg5 harg5 arg6 harg6 arg7 harg7) K := by
  simp only [cc1__stats_kernel_body_eq_skeleton]; unfold cc1__stats_kernel_body_skel
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
  obtain rfl := harg1.eq_unread hf0; obtain rfl := harg2.eq_unread hf1
  obtain rfl := harg6.eq_unread hfs0; obtain rfl := harg7.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [H3]
  · iexists _; isplitr; swap; · iexact H3
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [H4]
  · iexists _; isplitr; swap; · iexact H4
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  isplitl [HS0]
  · iexists _; isplitr; swap; · iexact HS0
    ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]
  iexists _; isplitr; swap; · iexact HS1
  ipureintro; (try sl_unfold_run_names); rw [read_store_unit _ _ off00]; simp only [View.readAt_eq_ld, harg1.read_unread, harg2.read_unread, harg6.read_unread, harg7.read_unread, View.ld_unit_zero (S := S4000x128) off00, View.ld_unit_zero (S := S1x128) off00, View.readCov_unit_zero arg6.view off00, View.readCov_unit_zero arg7.view off00]

end Cert.KernelIdeal.Hand

end
-- ==== Proof.KI.Stats.lean ====
import proofs.«109383_j39367670235762_1_alg».proof.Proof.KI.StatsRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two accumulators, point by point -/

/-- The first accumulator after the first `n` points: zero, then at each point the column sums of the
    point's block of `h + agg` added. -/
def accSum (c : Dev nD) : ℕ → Vec F S1x128 .f32
  | 0 => k1_pay1
  | n + 1 => if h : n < cfg1.N then k1_pay4 (blk1 V c 0 ⟨n, h⟩) (blk1 V c 1 ⟨n, h⟩) (accSum c n) else accSum c n

/-- The second accumulator after the first `n` points: zero, then at each point the column sums of the
    squares of the point's block of `h + agg` added. -/
def accSq (c : Dev nD) : ℕ → Vec F S1x128 .f32
  | 0 => k1_pay2
  | n + 1 => if h : n < cfg1.N then k1_pay5 (blk1 V c 0 ⟨n, h⟩) (blk1 V c 1 ⟨n, h⟩) (accSq c n) else accSq c n

theorem accSum_zero (c : Dev nD) (n : ℕ) (hz : n = 0) : accSum V c n = k1_pay1 := by subst hz; rfl
theorem accSq_zero (c : Dev nD) (n : ℕ) (hz : n = 0) : accSq V c n = k1_pay2 := by subst hz; rfl
theorem accSum_succ (c : Dev nD) (t : Fin cfg1.N) :
    accSum V c (t.val + 1) = k1_pay4 (blk1 V c 0 t) (blk1 V c 1 t) (accSum V c t.val) := by
  show (if h : t.val < cfg1.N then _ else _) = _
  rw [dif_pos t.isLt]
theorem accSq_succ (c : Dev nD) (t : Fin cfg1.N) :
    accSq V c (t.val + 1) = k1_pay5 (blk1 V c 0 t) (blk1 V c 1 t) (accSq V c t.val) := by
  show (if h : t.val < cfg1.N then _ else _) = _
  rw [dif_pos t.isLt]

/-! ## The invariant -/

/-- The scoped buffers no window stages, with the two accumulators split off: the accumulators at some
    contents, the other buffers unopened. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] (by decide) (by decide)]
  simp only [scM0, scM1, owns_whole, Idealize.SL.BI.bigSepL_cons_cons, Idealize.SL.BI.bigSepL_singleton]; try rfl

/-- The invariant before point `n`: before the first point every scoped buffer at some contents; afterwards the
    two accumulators at what the first `n` points accumulated, the other scoped buffers unopened; the generator
    register at some state throughout. -/
def PhiS (c : Dev nD) (n : ℕ) : sProp 𝕄 :=
  if n = 0 then Pipeline.ΦA spec1 c
  else iprop((owns (c : Thread nD τ) scM0 fullShare (accSum V c n) ∗ owns (c : Thread nD τ) scM1 fullShare (accSq V c n))
      ∗ Pipeline.scopedRestBut (Ix := Unit) (Name := ℕ) (U := UR sig nD τ) (Lvl := ℕ) (Val := Elt F) spec1 c [cc1_scratch0, cc1_scratch1]
      ∗ (∃ r, prngReg c r))

theorem PhiS_zero (c : Dev nD) (n : ℕ) (hz : n = 0) :
    PhiS V c n = iprop((((∃ d, owns (c : Thread nD τ) scM0 fullShare d) ∗ (∃ d, owns (c : Thread nD τ) scM1 fullShare d))
      ∗ Pipeline.scopedRestBut (Ix := Unit) (Name := ℕ) (U := UR sig nD τ) (Lvl := ℕ) (Val := Elt F) spec1 c [cc1_scratch0, cc1_scratch1])
      ∗ (∃ r, prngReg c r)) := by
  unfold PhiS; rw [if_pos hz]; unfold Pipeline.ΦA; rw [scopedRest1_split]

theorem PhiS_pos (c : Dev nD) (n : ℕ) (hz : n ≠ 0) :
    PhiS V c n = iprop((owns (c : Thread nD τ) scM0 fullShare (accSum V c n) ∗ owns (c : Thread nD τ) scM1 fullShare (accSq V c n))
      ∗ Pipeline.scopedRestBut (Ix := Unit) (Name := ℕ) (U := UR sig nD τ) (Lvl := ℕ) (Val := Elt F) spec1 c [cc1_scratch0, cc1_scratch1]
      ∗ (∃ r, prngReg c r)) := by
  unfold PhiS; rw [if_neg hz]

/-! ## The proof data -/

/-- The proof data of the statistics call on core `c`: the arrays as the region finds them; after the body at
    point `t` the two inputs' buffers at their blocks, the first output's at the block of `h + agg`, the two
    row outputs' at the accumulators after `t + 1` points (read at the last point only); the invariant above;
    nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay3 (blk1 V c 0 t) (blk1 V c 1 t)
    | ⟨3, _⟩ => accSum V c (t.val + 1)
    | ⟨4, _⟩ => accSq V c (t.val + 1)
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay3 (blk1 V c 0 t) (blk1 V c 1 t) := by dsimp only [dat1]
theorem after1_3 (c : Dev nD) (t : Fin cfg1.N) : (dat1 V c).after 3 t = accSum V c (t.val + 1) := by dsimp only [dat1]
theorem after1_4 (c : Dev nD) (t : Fin cfg1.N) : (dat1 V c).after 4 t = accSq V c (t.val + 1) := by dsimp only [dat1]
theorem after1_3_last (c : Dev nD) : (dat1 V c).after 3 t1_9 = accSum V c 10 := by rw [after1_3]; rfl
theorem after1_4_last (c : Dev nD) : (dat1 V c).after 4 t1_9 = accSq V c 10 := by rw [after1_4]; rfl

theorem Phi1_castSucc (c : Dev nD) (t : Fin cfg1.N) : (dat1 V c).Φ t.castSucc = PhiS V c t.val := by
  dsimp only [dat1]; simp only [Fin.coe_castSucc]
theorem Phi1_succ (c : Dev nD) (t : Fin cfg1.N) : (dat1 V c).Φ t.succ = PhiS V c (t.val + 1) := by
  dsimp only [dat1]; simp only [Fin.val_succ]

/-- Each input's current staging buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's position selects the case
    (first, middle, last); the invariant hands the body the two accumulators at what the points before
    accumulated (at anything before the first point, where the body resets them) and takes them back with this
    point's column sums added; off the last point the two row outputs are handed back untouched, at the last
    point they hold the accumulators. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [Phi1_castSucc, Phi1_succ, PhiS_pos V c (t.val + 1) (Nat.succ_ne_zero _)]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  have hN : t.val < 10 := lt_of_lt_of_eq t.isLt (show cfg1.N = 10 from N_1)
  by_cases h0 : t.val % 10 = 0
  · have hz : t.val = 0 := by omega
    have hc0 : cond1_0 (grid1.coords t) := (hcond1_0 t).mpr h0
    have hc1 : ¬cond1_1 (grid1.coords t) := fun h => by have := (hcond1_1 t).mp h; omega
    rw [Dat.leavesExact_idle (dat1 V c) 3 t (idle1_3 t hc1) (noFlush1_3 t hc1), Dat.leavesExact_idle (dat1 V c) 4 t (idle1_4 t hc1) (noFlush1_4 t hc1)]
    rw [accSum_succ, accSq_succ]
    rw [PhiS_zero V c _ hz, accSum_zero V c _ hz, accSq_zero V c _ hz]
    iintro ⟨⟨⟨⟨⟨%ds0, HS0⟩, ⟨%ds1, HS1⟩⟩, HB⟩, Hg⟩, Ho, ⟨%d0, H0⟩, ⟨%d1, H1⟩, ⟨%d2, H2⟩, ⟨%d3, H3⟩, ⟨%d4, H4⟩⟩
    iapply (run1_A c (grid1.coords t) _ _ _ _ _ _ _ _ _ _ _ _ _ _ hc0 hc1 (blk1 V c 0 t) (blk1 V c 1 t) _ _ Set.univ _)
    isplitl [H0]; · iexact H0
    isplitl [H1]; · iexact H1
    isplitl [H2]; · iexists _; iexact H2
    isplitl [H3]; · iexact H3
    isplitl [H4]; · iexact H4
    isplitl [HS0]; · iexists _; iexact HS0
    isplitl [HS1]; · iexists _; iexact HS1
    iintro ⟨H0, H1, H2, H3, H4, HS0, HS1⟩
    isplitl [HS0 HS1 HB Hg]
    · isplitl [HS0 HS1]
      · isplitl [HS0]; · iexact HS0
        iexact HS1
      isplitl [HB]; · iexact HB
      iexact Hg
    isplitl [Ho]; · iexact Ho
    isplitl [H0]; · iexact H0
    isplitl [H1]; · iexact H1
    isplitl [H2]; · iexact H2
    isplitl [H3]; · iexists _; iexact H3
    iexists _; iexact H4
  by_cases h1 : t.val % 10 = 9
  · have hz : t.val ≠ 0 := by omega
    have hc0 : ¬cond1_0 (grid1.coords t) := fun h => h0 ((hcond1_0 t).mp h)
    have hc1 : cond1_1 (grid1.coords t) := (hcond1_1 t).mpr h1
    rw [show (dat1 V c).leavesExact 3 t = owns (c : Thread nD τ) (st1_3 t) fullShare ((dat1 V c).after 3 t) from by
      unfold Dat.leavesExact; rw [live1_3 t hc1], after1_3]
    rw [show (dat1 V c).leavesExact 4 t = owns (c : Thread nD τ) (st1_4 t) fullShare ((dat1 V c).after 4 t) from by
      unfold Dat.leavesExact; rw [live1_4 t hc1], after1_4]
    rw [accSum_succ, accSq_succ]
    rw [PhiS_pos V c _ hz]
    iintro ⟨⟨⟨HS0, HS1⟩, HB, Hg⟩, Ho, ⟨%d0, H0⟩, ⟨%d1, H1⟩, ⟨%d2, H2⟩, ⟨%d3, H3⟩, ⟨%d4, H4⟩⟩
    iapply (run1_C c (grid1.coords t) _ _ _ _ _ _ _ _ _ _ _ _ _ _ hc0 hc1 (blk1 V c 0 t) (blk1 V c 1 t) (accSum V c t.val) (accSq V c t.val) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HB Hg]
    · isplitl [HS0 HS1]
      · isplitl [HS0]; · iexact HS0
        iexact HS1
      isplitl [HB]; · iexact HB
      iexact Hg
    isplitl [Ho]; · iexact Ho
    isplitl [H0]; · iexact H0
    isplitl [H1]; · iexact H1
    isplitl [H2]; · iexact H2
    isplitl [H3]; · iexact H3
    iexact H4
  · have hz : t.val ≠ 0 := by omega
    have hc0 : ¬cond1_0 (grid1.coords t) := fun h => h0 ((hcond1_0 t).mp h)
    have hc1 : ¬cond1_1 (grid1.coords t) := fun h => h1 ((hcond1_1 t).mp h)
    rw [Dat.leavesExact_idle (dat1 V c) 3 t (idle1_3 t hc1) (noFlush1_3 t hc1), Dat.leavesExact_idle (dat1 V c) 4 t (idle1_4 t hc1) (noFlush1_4 t hc1)]
    rw [accSum_succ, accSq_succ]
    rw [PhiS_pos V c _ hz]
    iintro ⟨⟨⟨HS0, HS1⟩, HB, Hg⟩, Ho, ⟨%d0, H0⟩, ⟨%d1, H1⟩, ⟨%d2, H2⟩, ⟨%d3, H3⟩, ⟨%d4, H4⟩⟩
    iapply (run1_B c (grid1.coords t) _ _ _ _ _ _ _ _ _ _ _ _ _ _ hc0 hc1 (blk1 V c 0 t) (blk1 V c 1 t) (accSum V c t.val) (accSq V c t.val) _ _ Set.univ _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HB Hg]
    · isplitl [HS0 HS1]
      · isplitl [HS0]; · iexact HS0
        iexact HS1
      isplitl [HB]; · iexact HB
      iexact Hg
    isplitl [Ho]; · iexact Ho
    isplitl [H0]; · iexact H0
    isplitl [H1]; · iexact H1
    isplitl [H2]; · iexact H2
    isplitl [H3]; · iexists _; iexact H3
    iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- The generator register and the scoped rest, as the region is entered, are the invariant before the first point. -/
theorem phi1_in (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [show (dat1 V c).Φ 0 = PhiS V c 0 from rfl]; unfold PhiS; rw [if_pos rfl]; unfold Pipeline.ΦA
  iintro ⟨Hp, Hr⟩
  isplitl [Hr]; · iexact Hr
  iexact Hp

/-- After the last point the invariant gives them back: the accumulators' contents are forgotten. -/
theorem phi1_out (c : Dev nD) :
    (dat1 V c).Φ (Fin.last _)
      ⊢ (iprop((∃ r, prngReg c r) ∗ Pipeline.scopedRest (Ix := Unit) (Name := ℕ) (U := UR sig nD τ) (Lvl := ℕ) (Val := Elt F) spec1 c) : sProp 𝕄) := by
  rw [show (dat1 V c).Φ (Fin.last _) = PhiS V c cfg1.N from rfl,
    PhiS_pos V c _ (by rw [show cfg1.N = 10 from N_1]; decide), scopedRest1_split]
  iintro ⟨⟨HS0, HS1⟩, HB, Hg⟩
  isplitl [Hg]; · iexact Hg
  isplitl [HS0 HS1]
  · isplitl [HS0]; · iexists _; iexact HS0
    iexists _; iexact HS1
  iexact HB

end Region

end Cert.KernelIdeal.Hand

end
-- ==== Proof.KI.Norm.lean ====
/- The normalisation of the kernel program, as one pipelined region.

   The region walks a grid of 10 points. Point `t` takes rows 4000·t .. 4000·t + 3999 of its input (an array
   of 40000 rows and 128 columns) and four rows of 128 per-column numbers — mean, variance, scale, shift — and
   writes the block of 4000 rows normalised by the mean and the variance, scaled, shifted and clamped below at
   zero. This module states, for any float instance, what each staging buffer holds before and after the body at
   every point, and proves that the body meets that description. -/
import proofs.«109383_j39367670235762_1_alg».proof.Proof.Gen.KernelIdeal.Launch
import proofs.«109383_j39367670235762_1_alg».proof.Proof.Gen.KernelIdeal.Skeleton
import proofs.«109383_j39367670235762_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of extent 4000 is decided by structural recursion along the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section NormRegion
-- the TensorCore's buffer contents when the region is entered
variable (V : (c : Dev nD) → (b : Ref sig .tc) → Buf (Elt F) ((c : Thread nD τ).loc b))

/-! # The normalisation: region 2

One grid point handles 4000 rows. It reads a block `x` of 4000 rows and four rows of 128 per-column numbers —
the mean, the variance, the scale `gamma` and the shift `beta` — and writes, entry by entry,
`max ((x - mean) * rsqrt (var + ε) * gamma + beta) 0`, each row of per-column numbers repeated down the 4000 rows. -/

/-! ## Blocks -/

/-- The block of window `w` at grid point `t`: the part of the window's array, as the region finds it, that
    the point's block index selects. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input rows' staging buffer holds the point's block of rows. The block index moves with every point, so
    the block is fetched at every point; the statement is for any proof data reading `V` and leaving the block
    where it is. -/
theorem holds2_x {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The row of means is one block whose index never moves: it is fetched at the first point only, and at every
    later point the buffer still holds what the point before left, which is the same block. -/
theorem holds2_mean {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Likewise the row of variances. -/
theorem holds2_var {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- Likewise the row of scales. -/
theorem holds2_gamma {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Likewise the row of shifts. -/
theorem holds2_beta {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)

/-! ## The rectangles the body reads and writes: each is the whole of its buffer -/

abbrev normRows : Rect S4000x128 := Rect.unit (s := S4000x128) ![0, 0] S4000x128.size inb_S4000x128_S4000x128_0_0
abbrev statRow : Rect S1x128 := Rect.unit (s := S1x128) ![0, 0] S1x128.size inb_S1x128_S1x128_0_0

/-! ## What the body leaves in the output buffer -/

/-- The output block: the rows normalised, scaled, shifted and clamped below at zero. The body stores it in one
    piece over the whole buffer. -/
def normOut (x : Vec F S4000x128 .f32) (mean var gamma beta : Vec F S1x128 .f32) : Vec F S4000x128 .f32 :=
  View.canon [⟨normRows, k2_pay1 (View.ld x normRows) (View.ld mean statRow) (View.ld var statRow) (View.ld gamma statRow) (View.ld beta statRow)⟩]

/-- A single piece over all rows leaves no index of the buffer uncovered. -/
theorem normRows_covers (p : Vec F S4000x128 .f32) (y : S4000x128.Idx) :
    ∃ pc ∈ ([⟨normRows, p⟩] : List (View.Piece (Elt F) S4000x128 .f32)), y ∈ pc.1.set :=
  View.cover_of_tiled [⟨normRows, p⟩] S4000x128.size (by rfl) y

/-! ## The body's triple -/

set_option maxHeartbeats 1000000 in
/-- The body on six whole staging buffers — the five inputs at contents `x`, `mean`, `var`, `gamma`, `beta`,
    the output at anything (the body reads the output buffer once before overwriting it and uses nothing of what it
    read) — runs to a state where the inputs are as they were and the output holds `normOut` of them. The grid
    coordinate `i` is not used by the body. -/
theorem sound_kernel2 (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S4000x128 .f32) (harg6 : arg6.IsWhole)
    (x : Vec F S4000x128 .f32) (mean var gamma beta : Vec F S1x128 .f32) (K : PUnit → sProp 𝕄) :
    iprop(owns (c : Thread nD τ) arg1 fullShare x ∗ owns (c : Thread nD τ) arg2 fullShare mean ∗ owns (c : Thread nD τ) arg3 fullShare var
        ∗ owns (c : Thread nD τ) arg4 fullShare gamma ∗ owns (c : Thread nD τ) arg5 fullShare beta
        ∗ (∃ d, owns (c : Thread nD τ) arg6 fullShare d)
        ∗ (iprop(owns (c : Thread nD τ) arg1 fullShare x ∗ owns (c : Thread nD τ) arg2 fullShare mean ∗ owns (c : Thread nD τ) arg3 fullShare var
            ∗ owns (c : Thread nD τ) arg4 fullShare gamma ∗ owns (c : Thread nD τ) arg5 fullShare beta
            ∗ owns (c : Thread nD τ) arg6 fullShare (normOut x mean var gamma beta)) -∗ K ⟨⟩))
      ⊢ wp frame (wpE (defs₀ (F := F)) Variants.none c none) E (cc2__norm_kernel_body i arg1 harg1 arg2 harg2 arg3 harg3 arg4 harg4 arg5 harg5 arg6 harg6) K := by
  simp only [cc2__norm_kernel_body_eq_skeleton]; unfold cc2__norm_kernel_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normRows_covers _)

/-! ## The region's proof data -/

/-- The proof data of the normalisation's pipeline on core `c`. The arrays are as the region finds them. After
    the body at point `t` the five input buffers still hold their blocks and the output buffer holds `normOut` of
    the five blocks. The invariant is the untouched rest of the core's scoped memory and its generator register; the
    arrays are held whole and the core owes nothing. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => normOut (blk2 V c 0 t) (blk2 V c 1 t) (blk2 V c 2 t) (blk2 V c 3 t) (blk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) :
    (dat2 V c).after 5 t = normOut (blk2 V c 0 t) (blk2 V c 1 t) (blk2 V c 2 t) (blk2 V c 3 t) (blk2 V c 4 t) := by dsimp only [dat2]

/-- What the body finds in each input buffer at point `t`: the window's block there. -/
theorem before2_0 (c : Dev nD) (t : Fin cfg2.N) (d) : (dat2 V c).before 0 t d = blk2 V c 0 t :=
  holds2_x V (dat2 V c) (A_eq2 V c 0) (after2_0 V c) t d
theorem before2_1 (c : Dev nD) (t : Fin cfg2.N) (d) : (dat2 V c).before 1 t d = blk2 V c 1 t :=
  holds2_mean V (dat2 V c) (A_eq2 V c 1) (after2_1 V c) t d
theorem before2_2 (c : Dev nD) (t : Fin cfg2.N) (d) : (dat2 V c).before 2 t d = blk2 V c 2 t :=
  holds2_var V (dat2 V c) (A_eq2 V c 2) (after2_2 V c) t d
theorem before2_3 (c : Dev nD) (t : Fin cfg2.N) (d) : (dat2 V c).before 3 t d = blk2 V c 3 t :=
  holds2_gamma V (dat2 V c) (A_eq2 V c 3) (after2_3 V c) t d
theorem before2_4 (c : Dev nD) (t : Fin cfg2.N) (d) : (dat2 V c).before 4 t d = blk2 V c 4 t :=
  holds2_beta V (dat2 V c) (A_eq2 V c 4) (after2_4 V c) t d

/-! ## The body obligation -/

/-- What the pipeline hands the body at point `t`: the invariant, what the core owes, and each window's current
    staging buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body hands back: the same invariant and debt, every buffer at what the proof data says it leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. The input buffers hold their blocks, so the body's triple applies with the five blocks;
    the invariant and the debt are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for the normalisation, at every point. -/
theorem body_obligation2 (c : Dev nD) : BodyObligation (dat2 (F := F) V c) (defs₀ (F := F)) Variants.none () Set.univ := fun t => by
  rw [bigSep_W2, bigSep_W2]
  exact sound_body2 V c t

end NormRegion

end Cert.KernelIdeal.Hand

end
-- ==== Proof.KI.Run.lean ====
/-
  The idealized kernel program's run, read back whole: @main is seven items — host operations, the linear region, host
  operations, the statistics region, host operations, the normalising region, the last reshape — and from any memory
  every weakly fair execution runs through them in order, terminates, and ends with each unscoped buffer holding what
  the items make of the launch contents (`W7`). That one statement carries both what the certificate needs of this
  program: no item writes an argument array, so the arguments end as launched (`frame`); and the result buffer ends at the
  last reshape of what the normalising region wrote.
  Each region's part of the run comes from that region's own module (what its body leaves in each window's buffer at each
  grid point, and that the body does so): here they are only put end to end.
-/
import proofs.«109383_j39367670235762_1_alg».proof.Proof.KI.Linear
import proofs.«109383_j39367670235762_1_alg».proof.Proof.KI.Stats
import proofs.«109383_j39367670235762_1_alg».proof.Proof.KI.Norm
import proofs.«109383_j39367670235762_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every unscoped buffer holds between two items of @main

@main is seven items: a stretch of host operations, the linear region, a stretch (the reshapes, the index arithmetic, the
gather and the scatter-add), the statistics region, a stretch (mean and variance from the two sums), the normalising region,
and the last reshape. `Wj c` is what core `c`'s unscoped buffers hold after item `j − 1`: a host stretch applies its
operations to the contents before it; a region leaves each of its windows' arrays at what its write-backs made of it and
every other buffer alone. -/

/-- At launch. -/
abbrev W0 : Dev nD → Valuation τ sig (Elt F) := fun c b => (s₀ m ρ).mem ((c : Dev nD), b)
/-- After the first host stretch: the linear region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the linear region: its five arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the statistics region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the statistics region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem left1 (c : Dev nD) (w : Fin cfg1.W) : (dat1 (V3 m ρ) c).arrAt w cfg1.N = V4 m ρ c (Pipeline.arrRef spec1 w) :=
  (W4_arr m ρ c w).symm
theorem kept1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: the normalising region's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After the normalising region. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem left2 (c : Dev nD) (w : Fin cfg2.W) : (dat2 (V5 m ρ) c).arrAt w cfg2.N = V6 m ρ c (Pipeline.arrRef spec2 w) :=
  (W6_arr m ρ c w).symm
theorem kept2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last reshape: what @main returns with. -/
abbrev W7 : Dev nD → Valuation τ sig (Elt F) := fun c => StableHlo.after hostOps3 (W6 m ρ c)

/-! ## The proof data of the three pipelines, and what rides beside the buffers -/

/-- No pipeline has a prefetched table. -/
abbrev adm : (p : Fin 3) → (pcfgs (F := F) p).Adm := fun p => (cfgs p).toPCfg_adm
/-- Each pipeline's proof data at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- Beside the buffers every item carries the core's generator register, at some state, and the core owing nothing. -/
abbrev R (c : Dev nD) : sProp 𝕄 := iprop((∃ r, prngReg c r) ∗ ∃ W, owes (c : Thread nD τ) (0 : CellTallies nD τ sig Unit) W)
/-- A host stretch as an item: its operations over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem fresh3 : (hostOps3 : List (HloOp τ sig (Elt F))).Forall fun op => op.fresh = ∅ := by
  simp only [List.Forall]; repeat' constructor

/-- The last thread state without the `owes`: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The three regions as items

Each region is entered from "every unscoped buffer at `W(2k+1)`" and left at "every unscoped buffer at `W(2k+2)`": its
arrays are taken out of the unscoped buffers at entry and put back, at what the write-backs left, at exit; nothing is owed;
no kernel has a semaphore of its own. The first and the last keep nothing between grid points, so their invariant is the
scoped buffers and the generator register, untouched. The statistics region's invariant also holds its two accumulators;
they arrive among the scoped buffers at whatever they held and go back among them. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (phi1_in (V3 m ρ) c)
    isplitl [Hp]; · iexact Hp
    iexact Hr
  hout c := by
    rw [Pipeline.ownSems0_none, show (pdats m ρ 1 c).Φ (Fin.last _) = (dat1 (V3 m ρ) c).Φ (Fin.last _) from rfl]
    iintro H
    ihave H' := (phi1_out (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its seven items, and the run -/

abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)),
    .region (reg2 m ρ),
    .host (hseg hostOps3 hostOps3_sub fresh3 (W6 m ρ)) ]

/-- @main is the run of its items, one after the other. -/
theorem main_run (c : Dev nD) : main (F := F) c = Pipeline.Seg.run (segs m ρ) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and every
    final memory holds each unscoped buffer of each core at `W7` — the arguments (which nothing writes) and the result. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show (iprop(StableHlo.held (c : Thread nD τ) (Pipeline.ucRefs τ sig) (W7 m ρ c) ∗ R c) : sProp 𝕄) ⊢ _
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

/-- A buffer that no host operation writes and that is no window's array holds at the end what it held at launch. -/
theorem W7_of_untouched (c : Dev nD) (r : Ref sig .tc) (h0 : r ∉ hostOps0_W) (h1 : r ∉ hostOps1_W) (h2 : r ∉ hostOps2_W)
    (h3 : r ∉ hostOps3_W) (a0 : ∀ w, Pipeline.arrRef spec0 w ≠ r) (a1 : ∀ w, Pipeline.arrRef spec1 w ≠ r)
    (a2 : ∀ w, Pipeline.arrRef spec2 w ≠ r) :
    W7 m ρ c (Proc.devRef .tc r) = m ((c : Thread nD τ).loc r) :=
  (StableHlo.after_of_writes_sub hostOps3 _ hostOps3_writes h3).trans <|
  (W6_of_ne m ρ c r a2).trans <|
  (StableHlo.after_of_writes_sub hostOps2 _ hostOps2_writes h2).trans <|
  (W4_of_ne m ρ c r a1).trans <|
  (StableHlo.after_of_writes_sub hostOps1 _ hostOps1_writes h1).trans <|
  (W2_of_ne m ρ c r a0).trans <|
  (StableHlo.after_of_writes_sub hostOps0 _ hostOps0_writes h0).trans rfl

/-- THE FRAME: every weakly fair execution of @main terminates, nothing faulting, with the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W7_of_untouched m ρ c main_arg0 (by decide) (by decide) (by decide) (by decide) (by decide) (by decide) (by decide)),
     (h c _ (mem_uc main_arg1 (by decide))).trans (W7_of_untouched m ρ c main_arg1 (by decide) (by decide) (by decide) (by decide) (by decide) (by decide) (by decide)),
     (h c _ (mem_uc main_arg2 (by decide))).trans (W7_of_untouched m ρ c main_arg2 (by decide) (by decide) (by decide) (by decide) (by decide) (by decide) (by decide)),
     (h c _ (mem_uc main_arg3 (by decide))).trans (W7_of_untouched m ρ c main_arg3 (by decide) (by decide) (by decide) (by decide) (by decide) (by decide) (by decide)),
     (h c _ (mem_uc main_arg4 (by decide))).trans (W7_of_untouched m ρ c main_arg4 (by decide) (by decide) (by decide) (by decide) (by decide) (by decide) (by decide)),
     (h c _ (mem_uc main_arg5 (by decide))).trans (W7_of_untouched m ρ c main_arg5 (by decide) (by decide) (by decide) (by decide) (by decide) (by decide) (by decide)),
     (h c _ (mem_uc main_arg6 (by decide))).trans (W7_of_untouched m ρ c main_arg6 (by decide) (by decide) (by decide) (by decide) (by decide) (by decide) (by decide))⟩)
    (run_all m ρ)

end Cert.KernelIdeal.Hand

end
-- ==== Proof.RI.Run.lean ====
/-
  The idealized reference program's @main read as ONE straight line of host operations, and its run:
  every weakly fair execution terminates with the result buffer at one pure term of the seven argument
  arrays, the arguments unchanged. The program is a graph layer followed by a batch normalisation and a
  rectifier:
    s    = (X·W_selfᵀ + b) + scatterAdd(0, dst, gather(X·W_nodeᵀ, src))       (edge rows wrapped by 10000 where negative)
    mean = (Σ_{batch, node} s) / 40000,   var = (Σ_{batch, node} (s − mean)²) / (40000 − 0), selected where 40000 − 0 > 0
    out  = max(((s − mean) · rsqrt(var + ε)) · γ + β, 0).
  The term is stated in stages (`refS`, `refMean`, `refVar`, `refTail`) so that a reading of it index by
  index opens one stage at a time.
-/
import proofs.«109383_j39367670235762_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's operations in order, the three private functions unfolded where they are called: the variance
    function's nineteen operations and, inside it, the three of the select on its count, over the buffers of
    its call; the rectifier's three over the buffers of its call; around them @main's own fifty-two. -/
abbrev ops : List (HloOp τ sig (Elt F)) :=
  [
    StableHlo.binary main_arg0 main_arg3 main_v0 ((fun l r => Host.dotGeneral dot_S4x10000x128_S128x128_S4x10000x128_2_1_01_0_n_n none l r) : (⟨S4x10000x128, .f32⟩ : BufTy).Contents (Elt F) → (⟨S128x128, .f32⟩ : BufTy).Contents (Elt F) → (⟨S4x10000x128, .f32⟩ : BufTy).Contents (Elt F)),
    StableHlo.unary main_arg4 main_v1 (broadcastInDim S1x1x128 ![2] bcast_S128_S1x1x128_2 : (⟨S128, .f32⟩ : BufTy).Contents (Elt F) → (⟨S1x1x128, .f32⟩ : BufTy).Contents (Elt F)),
    StableHlo.unary main_v1 main_v2 (broadcastInDim S4x10000x128 ![0, 1, 2] bcast_S1x1x128_S4x10000x128_0_1_2 : (⟨S1x1x128, .f32⟩ : BufTy).Contents (Elt F) → (⟨S4x10000x128, .f32⟩ : BufTy).Contents (Elt F)),
    StableHlo.binary main_v0 main_v2 main_v3 (addf : (⟨S4x10000x128, .f32⟩ : BufTy).Contents (Elt F) → (⟨S4x10000x128, .f32⟩ : BufTy).Contents (Elt F) → (⟨S4x10000x128, .f32⟩ : BufTy).Contents (Elt F)),
    StableHlo.binary main_arg0 main_arg2 main_v4 ((fun l r => Host.dotGeneral dot_S4x10000x128_S128x128_S4x10000x128_2_1_01_0_n_n none l r) : (⟨S4x10000x128, .f32⟩ : BufTy).Contents (Elt F) → (⟨S128x128, .f32⟩ : BufTy).Contents (Elt F) → (⟨S4x10000x128, .f32⟩ : BufTy).Contents (Elt F)),
    StableHlo.unary main_arg1 main_v5 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v5 main_v6 rfl shapeCasts_S1x160000_S160000,
    StableHlo.unary main_arg1 main_v7 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v7 main_v8 rfl shapeCasts_S1x160000_S160000,
    StableHlo.nullary main_cst (constant S_ .f32 0x00000000#32),
    StableHlo.unary main_cst main_v9 (broadcastInDim S4x10000x128 ![] bcast_S_S4x10000x128 : (⟨S_, .f32⟩ : BufTy).Contents (Elt F) → (⟨S4x10000x128, .f32⟩ : BufTy).Contents (Elt F)),
    StableHlo.nullary main_c (constantI S_ 32 0#32),
    StableHlo.unary main_c main_v10 (broadcastInDim S160000 ![] bcast_S_S160000 : (⟨S_, .i32⟩ : BufTy).Contents (Elt F) → (⟨S160000, .i32⟩ : BufTy).Contents (Elt F)),
    StableHlo.binary main_v6 main_v10 main_v11 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 10000#32),
    StableHlo.unary main_c_0 main_v12 (broadcastInDim S160000 ![] bcast_S_S160000 : (⟨S_, .i32⟩ : BufTy).Contents (Elt F) → (⟨S160000, .i32⟩ : BufTy).Contents (Elt F)),
    StableHlo.binary main_v6 main_v12 main_v13 (addi : (⟨S160000, .i32⟩ : BufTy).Contents (Elt F) → (⟨S160000, .i32⟩ : BufTy).Contents (Elt F) → (⟨S160000, .i32⟩ : BufTy).Contents (Elt F)),
    StableHlo.ternary main_v11 main_v13 main_v6 main_v14 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v14 main_v15 (broadcastInDim S160000x1 ![0] bcast_S160000_S160000x1_0 : (⟨S160000, .i32⟩ : BufTy).Contents (Elt F) → (⟨S160000x1, .i32⟩ : BufTy).Contents (Elt F)),
    StableHlo.binary main_v4 main_v15 main_v16 ((fun x i => Host.gather gather_S4x10000x128_S160000x1_S4x160000x128_02_1_n_n_1_1_41128 x i) : (⟨S4x10000x128, .f32⟩ : BufTy).Contents (Elt F) → (⟨S160000x1, .i32⟩ : BufTy).Contents (Elt F) → (⟨S4x160000x128, .f32⟩ : BufTy).Contents (Elt F)),
    StableHlo.nullary main_c_1 (constantI S_ 32 0#32),
    StableHlo.unary main_c_1 main_v17 (broadcastInDim S160000 ![] bcast_S_S160000 : (⟨S_, .i32⟩ : BufTy).Contents (Elt F) → (⟨S160000, .i32⟩ : BufTy).Contents (Elt F)),
    StableHlo.binary main_v8 main_v17 main_v18 (cmpi .slt : (⟨S160000, .i32⟩ : BufTy).Contents (Elt F) → (⟨S160000, .i32⟩ : BufTy).Contents (Elt F) → (⟨S160000, .i1⟩ : BufTy).Contents (Elt F)),
    StableHlo.nullary main_c_2 (constantI S_ 32 10000#32),
    StableHlo.unary main_c_2 main_v19 (broadcastInDim S160000 ![] bcast_S_S160000 : (⟨S_, .i32⟩ : BufTy).Contents (Elt F) → (⟨S160000, .i32⟩ : BufTy).Contents (Elt F)),
    StableHlo.binary main_v8 main_v19 main_v20 (addi : (⟨S160000, .i32⟩ : BufTy).Contents (Elt F) → (⟨S160000, .i32⟩ : BufTy).Contents (Elt F) → (⟨S160000, .i32⟩ : BufTy).Contents (Elt F)),
    StableHlo.ternary main_v18 main_v20 main_v8 main_v21 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v21 main_v22 (broadcastInDim S160000x1 ![0] bcast_S160000_S160000x1_0 : (⟨S160000, .i32⟩ : BufTy).Contents (Elt F) → (⟨S160000x1, .i32⟩ : BufTy).Contents (Elt F)),
    StableHlo.ternary main_v9 main_v22 main_v16 main_v23 ((fun x i u => Host.scatterAdd scatter_S4x10000x128_S160000x1_S4x160000x128_02_1_1_1 x i u) : (⟨S4x10000x128, .f32⟩ : BufTy).Contents (Elt F) → (⟨S160000x1, .i32⟩ : BufTy).Contents (Elt F) → (⟨S4x160000x128, .f32⟩ : BufTy).Contents (Elt F) → (⟨S4x10000x128, .f32⟩ : BufTy).Contents (Elt F)),
    StableHlo.binary main_v3 main_v23 main_v24 (addf : (⟨S4x10000x128, .f32⟩ : BufTy).Contents (Elt F) → (⟨S4x10000x128, .f32⟩ : BufTy).Contents (Elt F) → (⟨S4x10000x128, .f32⟩ : BufTy).Contents (Elt F)),
    StableHlo.nullary main_cst_3 (constant S_ .f32 0x00000000#32),
    StableHlo.binary main_v24 main_cst_3 main_v25 ((fun x v => Host.reduceAdd x v reducesTo_S4x10000x128_S128_d0_1 h_S_) : (⟨S4x10000x128, .f32⟩ : BufTy).Contents (Elt F) → (⟨S_, .f32⟩ : BufTy).Contents (Elt F) → (⟨S128, .f32⟩ : BufTy).Contents (Elt F)),
    StableHlo.nullary main_cst_4 (constant S_ .f32 0x471C4000#32),
    StableHlo.unary main_cst_4 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary main_call0.cst (constant S_ .f32 0x00000000#32),
    StableHlo.TRef.binary (TRef.of main_v24 : TRef sig ⟨S4x10000x128, .f32⟩) main_call0.cst main_call0.v0 (fun x v => Host.reduceAdd x v reducesTo_S4x10000x128_S128_d0_1 h_S_),
    StableHlo.TRef.unary main_call0.v0 main_call0.v1 (broadcastInDim S1x1x128 ![2] bcast_S128_S1x1x128_2),
    StableHlo.TRef.nullary main_call0.cst_0 (constant S_ .f32 0x471C4000#32),
    StableHlo.TRef.unary main_call0.cst_0 main_call0.v2 (broadcastInDim S1x1x128 ![] bcast_S_S1x1x128),
    StableHlo.TRef.binary main_call0.v1 main_call0.v2 main_call0.v3 Host.divf,
    StableHlo.TRef.unary main_call0.v3 main_call0.v4 (broadcastInDim S4x10000x128 ![0, 1, 2] bcast_S1x1x128_S4x10000x128_0_1_2),
    StableHlo.TRef.binary (TRef.of main_v24 : TRef sig ⟨S4x10000x128, .f32⟩) main_call0.v4 main_call0.v5 subf,
    StableHlo.TRef.binary main_call0.v5 main_call0.v5 main_call0.v6 mulf,
    StableHlo.TRef.unary (TRef.of main_c_5 : TRef sig ⟨S_, .i32⟩) main_call0.v7 (sitofp .f32),
    StableHlo.TRef.nullary main_call0.cst_1 (constant S_ .f32 0x471C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x10000x128_S128_d0_1 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v27 main_v29 (broadcastInDim S1x1x128 ![2] bcast_S128_S1x1x128_2 : (⟨S128, .f32⟩ : BufTy).Contents (Elt F) → (⟨S1x1x128, .f32⟩ : BufTy).Contents (Elt F)),
    StableHlo.unary main_v29 main_v30 (broadcastInDim S4x10000x128 ![0, 1, 2] bcast_S1x1x128_S4x10000x128_0_1_2 : (⟨S1x1x128, .f32⟩ : BufTy).Contents (Elt F) → (⟨S4x10000x128, .f32⟩ : BufTy).Contents (Elt F)),
    StableHlo.binary main_v24 main_v30 main_v31 (subf : (⟨S4x10000x128, .f32⟩ : BufTy).Contents (Elt F) → (⟨S4x10000x128, .f32⟩ : BufTy).Contents (Elt F) → (⟨S4x10000x128, .f32⟩ : BufTy).Contents (Elt F)),
    StableHlo.nullary main_cst_6 (constant S_ .f32 0x3727C5AC#32),
    StableHlo.unary main_cst_6 main_v32 (broadcastInDim S128 ![] bcast_S_S128 : (⟨S_, .f32⟩ : BufTy).Contents (Elt F) → (⟨S128, .f32⟩ : BufTy).Contents (Elt F)),
    StableHlo.binary main_v28 main_v32 main_v33 (addf : (⟨S128, .f32⟩ : BufTy).Contents (Elt F) → (⟨S128, .f32⟩ : BufTy).Contents (Elt F) → (⟨S128, .f32⟩ : BufTy).Contents (Elt F)),
    StableHlo.unary main_v33 main_v34 (Host.rsqrt : (⟨S128, .f32⟩ : BufTy).Contents (Elt F) → (⟨S128, .f32⟩ : BufTy).Contents (Elt F)),
    StableHlo.unary main_v34 main_v35 (broadcastInDim S1x1x128 ![2] bcast_S128_S1x1x128_2 : (⟨S128, .f32⟩ : BufTy).Contents (Elt F) → (⟨S1x1x128, .f32⟩ : BufTy).Contents (Elt F)),
    StableHlo.unary main_v35 main_v36 (broadcastInDim S4x10000x128 ![0, 1, 2] bcast_S1x1x128_S4x10000x128_0_1_2 : (⟨S1x1x128, .f32⟩ : BufTy).Contents (Elt F) → (⟨S4x10000x128, .f32⟩ : BufTy).Contents (Elt F)),
    StableHlo.binary main_v31 main_v36 main_v37 (mulf : (⟨S4x10000x128, .f32⟩ : BufTy).Contents (Elt F) → (⟨S4x10000x128, .f32⟩ : BufTy).Contents (Elt F) → (⟨S4x10000x128, .f32⟩ : BufTy).Contents (Elt F)),
    StableHlo.unary main_arg5 main_v38 (broadcastInDim S1x1x128 ![2] bcast_S128_S1x1x128_2 : (⟨S128, .f32⟩ : BufTy).Contents (Elt F) → (⟨S1x1x128, .f32⟩ : BufTy).Contents (Elt F)),
    StableHlo.unary main_v38 main_v39 (broadcastInDim S4x10000x128 ![0, 1, 2] bcast_S1x1x128_S4x10000x128_0_1_2 : (⟨S1x1x128, .f32⟩ : BufTy).Contents (Elt F) → (⟨S4x10000x128, .f32⟩ : BufTy).Contents (Elt F)),
    StableHlo.binary main_v37 main_v39 main_v40 (mulf : (⟨S4x10000x128, .f32⟩ : BufTy).Contents (Elt F) → (⟨S4x10000x128, .f32⟩ : BufTy).Contents (Elt F) → (⟨S4x10000x128, .f32⟩ : BufTy).Contents (Elt F)),
    StableHlo.unary main_arg6 main_v41 (broadcastInDim S1x1x128 ![2] bcast_S128_S1x1x128_2 : (⟨S128, .f32⟩ : BufTy).Contents (Elt F) → (⟨S1x1x128, .f32⟩ : BufTy).Contents (Elt F)),
    StableHlo.unary main_v41 main_v42 (broadcastInDim S4x10000x128 ![0, 1, 2] bcast_S1x1x128_S4x10000x128_0_1_2 : (⟨S1x1x128, .f32⟩ : BufTy).Contents (Elt F) → (⟨S4x10000x128, .f32⟩ : BufTy).Contents (Elt F)),
    StableHlo.binary main_v40 main_v42 main_v43 (addf : (⟨S4x10000x128, .f32⟩ : BufTy).Contents (Elt F) → (⟨S4x10000x128, .f32⟩ : BufTy).Contents (Elt F) → (⟨S4x10000x128, .f32⟩ : BufTy).Contents (Elt F)),
    StableHlo.TRef.nullary main_call1.cst (constant S_ .f32 0x00000000#32),
    StableHlo.TRef.unary main_call1.cst main_call1.v0 (broadcastInDim S4x10000x128 ![] bcast_S_S4x10000x128),
    StableHlo.TRef.binary (TRef.of main_v43 : TRef sig ⟨S4x10000x128, .f32⟩) main_call1.v0 main_call1.v1 maximumf ]

-- seventy-seven binds re-associated, one recursion of the rewriting per statement
set_option maxRecDepth 4096 in
/-- @main is that straight line: the private functions' bodies substituted at their calls, and sequencing
    re-associated, both sides are one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    reshape_bufs_sub .., unary_bufs_sub .., reshape_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., ternary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

/-! ## The result, in stages -/

/-- One row of the edge table as gather / scatter start indices: the row flattened, an entry `j < 0` replaced
    by `j + 10000`, each entry a one-element index vector. -/
def refIdx (r : IVec S1x160000 32) : IVec S160000x1 32 :=
  broadcastInDim S160000x1 ![0] bcast_S160000_S160000x1_0
    (select
      (cmpi .slt (shapeCast S160000 r shapeCasts_S1x160000_S160000)
        (broadcastInDim S160000 ![] bcast_S_S160000 (constantI S_ 32 0#32)))
      (addi (shapeCast S160000 r shapeCasts_S1x160000_S160000)
        (broadcastInDim S160000 ![] bcast_S_S160000 (constantI S_ 32 10000#32)))
      (shapeCast S160000 r shapeCasts_S1x160000_S160000))

/-- The layer before normalisation: `(X·W_selfᵀ + b) + A`, where `A` accumulates, at each node named by the
    edge table's second row, the rows of `X·W_nodeᵀ` named by its first row. -/
def refS (x : FVec F S4x10000x128 .f32) (e : IVec S2x160000 32) (wn ws : FVec F S128x128 .f32)
    (b : FVec F S128 .f32) : FVec F S4x10000x128 .f32 :=
  addf
    (addf (Host.dotGeneral dot_S4x10000x128_S128x128_S4x10000x128_2_1_01_0_n_n none x ws)
      (broadcastInDim S4x10000x128 ![0, 1, 2] bcast_S1x1x128_S4x10000x128_0_1_2
        (broadcastInDim S1x1x128 ![2] bcast_S128_S1x1x128_2 b)))
    (Host.scatterAdd scatter_S4x10000x128_S160000x1_S4x160000x128_02_1_1_1
      (broadcastInDim S4x10000x128 ![] bcast_S_S4x10000x128 (constant S_ .f32 0x00000000#32))
      (refIdx (extractStridedSlice S1x160000 ![1, 0] e slices_S2x160000_S1x160000_1_0))
      (Host.gather gather_S4x10000x128_S160000x1_S4x160000x128_02_1_n_n_1_1_41128 (Host.dotGeneral dot_S4x10000x128_S128x128_S4x10000x128_2_1_01_0_n_n none x wn)
        (refIdx (extractStridedSlice S1x160000 ![0, 0] e slices_S2x160000_S1x160000_0_0))))

/-- The mean over batch and node, per feature: the sum divided by the constant `40000`. -/
def refMean (s : FVec F S4x10000x128 .f32) : FVec F S128 .f32 :=
  Host.divf (Host.reduceAdd s (constant S_ .f32 0x00000000#32) reducesTo_S4x10000x128_S128_d0_1 h_S_)
    (broadcastInDim S128 ![] bcast_S_S128 (constant S_ .f32 0x471C4000#32))

/-- The variance function's own mean, broadcast back over batch and node (it recomputes the mean at rank 3). -/
def refVarMean (s : FVec F S4x10000x128 .f32) : FVec F S4x10000x128 .f32 :=
  broadcastInDim S4x10000x128 ![0, 1, 2] bcast_S1x1x128_S4x10000x128_0_1_2
    (Host.divf
      (broadcastInDim S1x1x128 ![2] bcast_S128_S1x1x128_2
        (Host.reduceAdd s (constant S_ .f32 0x00000000#32) reducesTo_S4x10000x128_S128_d0_1 h_S_))
      (broadcastInDim S1x1x128 ![] bcast_S_S1x1x128 (constant S_ .f32 0x471C4000#32)))

/-- The variance function's count: `40000 − 0`, the `0` an integer converted. -/
def refCount : FVec F S_ .f32 :=
  subf (constant S_ .f32 0x471C4000#32) (sitofp .f32 (constantI S_ 32 0#32))

/-- The variance over batch and node, per feature: the sum of squared deviations divided by the count, taken
    where the count is positive, the quiet-NaN constant elsewhere. -/
def refVar (s : FVec F S4x10000x128 .f32) : FVec F S128 .f32 :=
  select
    (broadcastInDim S128 ![] bcast_S_S128 (cmpf .ogt (refCount (F := F)) (constant S_ .f32 0x00000000#32)))
    (Host.divf
      (Host.reduceAdd (mulf (subf s (refVarMean s)) (subf s (refVarMean s))) (constant S_ .f32 0x00000000#32)
        reducesTo_S4x10000x128_S128_d0_1 h_S_)
      (broadcastInDim S128 ![] bcast_S_S128 (refCount (F := F))))
    (broadcastInDim S128 ![] bcast_S_S128 (id (constant S_ .f32 0x7FC00000#32)))

/-- Normalisation, scale, shift and rectifier: `max(((s − mean) · rsqrt(var + ε)) · γ + β, 0)`, each per-feature
    vector broadcast over batch and node. -/
def refTail (s : FVec F S4x10000x128 .f32) (mean var gam bet : FVec F S128 .f32) : FVec F S4x10000x128 .f32 :=
  maximumf
    (addf
      (mulf
        (mulf
          (subf s
            (broadcastInDim S4x10000x128 ![0, 1, 2] bcast_S1x1x128_S4x10000x128_0_1_2
              (broadcastInDim S1x1x128 ![2] bcast_S128_S1x1x128_2 mean)))
          (broadcastInDim S4x10000x128 ![0, 1, 2] bcast_S1x1x128_S4x10000x128_0_1_2
            (broadcastInDim S1x1x128 ![2] bcast_S128_S1x1x128_2
              (Host.rsqrt (addf var (broadcastInDim S128 ![] bcast_S_S128 (constant S_ .f32 0x3727C5AC#32)))))))
        (broadcastInDim S4x10000x128 ![0, 1, 2] bcast_S1x1x128_S4x10000x128_0_1_2
          (broadcastInDim S1x1x128 ![2] bcast_S128_S1x1x128_2 gam)))
      (broadcastInDim S4x10000x128 ![0, 1, 2] bcast_S1x1x128_S4x10000x128_0_1_2
        (broadcastInDim S1x1x128 ![2] bcast_S128_S1x1x128_2 bet)))
    (broadcastInDim S4x10000x128 ![] bcast_S_S4x10000x128 (constant S_ .f32 0x00000000#32))

/-- @main's result as a term of its seven arguments. -/
def refOut (x : FVec F S4x10000x128 .f32) (e : IVec S2x160000 32) (wn ws : FVec F S128x128 .f32)
    (b gam bet : FVec F S128 .f32) : FVec F S4x10000x128 .f32 :=
  refTail (refS x e wn ws b) (refMean (refS x e wn ws b)) (refVar (refS x e wn ws b)) gam bet

theorem refOut_eq (x : FVec F S4x10000x128 .f32) (e : IVec S2x160000 32) (wn ws : FVec F S128x128 .f32)
    (b gam bet : FVec F S128 .f32) :
    refOut x e wn ws b gam bet
      = refTail (refS x e wn ws b) (refMean (refS x e wn ws b)) (refVar (refS x e wn ws b)) gam bet := rfl

/-! ## The fold of the operations at the result and at the arguments -/

set_option maxRecDepth 8192 in
set_option maxHeartbeats 1000000 in
/-- The operations' fold at the result buffer is `refOut` of the arguments' contents: each operation's result read
    at its own buffer, every other buffer passed over, and the stages' definitions unfolded. -/
theorem out_eq (V : Valuation τ sig (Elt F)) :
    after ops V (Proc.devRef .tc main_v44)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  after_results_simp
  rfl

set_option maxRecDepth 8192 in
/-- No operation writes argument 0. -/
theorem arg0_eq (V : Valuation τ sig (Elt F)) :
    after ops V (Proc.devRef .tc main_arg0) = V (Proc.devRef .tc main_arg0) := by
  after_results_simp

set_option maxRecDepth 8192 in
/-- No operation writes argument 1. -/
theorem arg1_eq (V : Valuation τ sig (Elt F)) :
    after ops V (Proc.devRef .tc main_arg1) = V (Proc.devRef .tc main_arg1) := by
  after_results_simp

set_option maxRecDepth 8192 in
/-- No operation writes argument 2. -/
theorem arg2_eq (V : Valuation τ sig (Elt F)) :
    after ops V (Proc.devRef .tc main_arg2) = V (Proc.devRef .tc main_arg2) := by
  after_results_simp

set_option maxRecDepth 8192 in
/-- No operation writes argument 3. -/
theorem arg3_eq (V : Valuation τ sig (Elt F)) :
    after ops V (Proc.devRef .tc main_arg3) = V (Proc.devRef .tc main_arg3) := by
  after_results_simp

set_option maxRecDepth 8192 in
/-- No operation writes argument 4. -/
theorem arg4_eq (V : Valuation τ sig (Elt F)) :
    after ops V (Proc.devRef .tc main_arg4) = V (Proc.devRef .tc main_arg4) := by
  after_results_simp

set_option maxRecDepth 8192 in
/-- No operation writes argument 5. -/
theorem arg5_eq (V : Valuation τ sig (Elt F)) :
    after ops V (Proc.devRef .tc main_arg5) = V (Proc.devRef .tc main_arg5) := by
  after_results_simp

set_option maxRecDepth 8192 in
/-- No operation writes argument 6. -/
theorem arg6_eq (V : Valuation τ sig (Elt F)) :
    after ops V (Proc.devRef .tc main_arg6) = V (Proc.devRef .tc main_arg6) := by
  after_results_simp

/-! ## The run -/

/-- On every device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v44)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v44).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.Hand

end
-- ==== Proof.Frames.lean ====
/-
  Three of the certificate's claims are frames: of the word-level kernel program, of the same program read over the
  extended reals, and of the reference program read over the extended reals. Each says the same thing of its
  program: launched from any memory whose argument arrays satisfy the precondition, with every semaphore at zero,
  every weakly fair execution of @main reaches its end without a fault, and when it does each of the seven argument
  arrays — the activations, the edge list, the two weight matrices and the three per-channel rows — holds exactly
  what it held at launch. None of the three uses the precondition: no operation of any of the programs writes an
  argument array, whatever the values. For the two kernel programs this is the frame of the whole run; for the
  reference it is the run's statement with the result buffer's part dropped.
  The fourth claim compares the word-level kernel program with its reading over the extended reals, and lists the
  rewrites between the two texts; there are none, so it asks for nothing.
-/
import proofs.«109383_j39367670235762_1_alg».proof.Defs
import proofs.«109383_j39367670235762_1_alg».proof.Proof.Gen.Kernel
import proofs.«109383_j39367670235762_1_alg».proof.Proof.Gen.KernelIdeal
import proofs.«109383_j39367670235762_1_alg».proof.Proof.Gen.ReferenceIdeal
import proofs.«109383_j39367670235762_1_alg».proof.Proof.Gen.Pre_finite_inputs
import proofs.«109383_j39367670235762_1_alg».proof.Proof.K.Run
import proofs.«109383_j39367670235762_1_alg».proof.Proof.KI.Run
import proofs.«109383_j39367670235762_1_alg».proof.Proof.RI.Run

noncomputable section

namespace Cert.Proof.Parts

open Idealize.ShloMosaic Idealize.ShloMosaic.TcCoe Idealize.SL.Sem

/-- The word-level kernel program runs to its end and leaves its arguments as launched. -/
theorem frame_kernel :
    Cert.frame_Kernel (hKernel := Cert.Kernel.Gen.facts) (hPre_finite_inputs := Cert.Pre_finite_inputs.Gen.facts) :=
  fun m ρ _ => Cert.Kernel.Hand.frame (F := Bits) m ρ

/-- The kernel program over the extended reals runs to its end and leaves its arguments as launched. -/
theorem frame_kernelIdeal :
    Cert.frame_KernelIdeal (hKernelIdeal := Cert.KernelIdeal.Gen.facts)
      (hPre_finite_inputs := Cert.Pre_finite_inputs.Gen.facts) :=
  fun m ρ _ => Cert.KernelIdeal.Hand.frame (F := Ideal) m ρ

/-- The reference program over the extended reals runs to its end and leaves its arguments as launched: its run's
    statement without the part about the result buffer. -/
theorem frame_referenceIdeal :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Hand.run (F := Ideal) m ρ)

/-- No operation was rewritten between the word-level kernel program and its reading over the extended reals. -/
theorem preserves : Cert.preserves_Kernel_KernelIdeal := trivial

end Cert.Proof.Parts

end
-- ==== Proof.KI.Host.lean ====
/-
  What the four stretches of host operations of the idealized kernel program leave in the buffers the three regions and the
  result read, over ANY contents `V` the stretch starts from, at the ideal values:
  * before the linear region: the input flattened to 40000 rows, the two weight matrices transposed and set side by side,
    the bias as one row;
  * before the statistics region: the aggregated messages — the second output of the linear region read as 4 × 10000 × 128,
    its rows gathered at the edges' sources and summed into the edges' destinations (an index below zero counted from the
    end), flattened again;
  * before the normalising region: the mean (the column sums over 40000), the variance (the sums of squares over 40000 less
    the squared mean), scale and shift as rows;
  * at the end: the normalised rows read as 4 × 10000 × 128.
  A stretch leaves alone every buffer it does not write.
-/
import proofs.«109383_j39367670235762_1_alg».proof.Proof.Gen.KernelIdeal.Launch
import proofs.«109383_j39367670235762_1_alg».proof.Proof.Gen.KernelIdeal.Regions
import Idealize.ShloMosaic.Lib.StableHlo.Run
import Idealize.ShloMosaic.PureOps.Ideal
import Idealize.ShloMosaic.Lib.Pipeline.Value

set_option maxRecDepth 16384

noncomputable section

namespace Cert.KernelIdeal.HandValue

open Idealize.ShloMosaic Idealize.ShloMosaic.TcCoe
open Cert.KernelIdeal.Gen

variable (V : Valuation τ sig (Elt Ideal))

/-! ## Untouched buffers -/

theorem keep0 (r : Ref sig .tc) (h : r ∉ hostOps0_W) :
    StableHlo.after (hostOps0 (F := Ideal)) V (Proc.devRef .tc r) = V (Proc.devRef .tc r) :=
  StableHlo.after_of_writes_sub hostOps0 _ hostOps0_writes h
theorem keep1 (r : Ref sig .tc) (h : r ∉ hostOps1_W) :
    StableHlo.after (hostOps1 (F := Ideal)) V (Proc.devRef .tc r) = V (Proc.devRef .tc r) :=
  StableHlo.after_of_writes_sub hostOps1 _ hostOps1_writes h
theorem keep2 (r : Ref sig .tc) (h : r ∉ hostOps2_W) :
    StableHlo.after (hostOps2 (F := Ideal)) V (Proc.devRef .tc r) = V (Proc.devRef .tc r) :=
  StableHlo.after_of_writes_sub hostOps2 _ hostOps2_writes h
theorem keep3 (r : Ref sig .tc) (h : r ∉ hostOps3_W) :
    StableHlo.after (hostOps3 (F := Ideal)) V (Proc.devRef .tc r) = V (Proc.devRef .tc r) :=
  StableHlo.after_of_writes_sub hostOps3 _ hostOps3_writes h

/-! ## Before the linear region -/

/-- The input as 40000 rows. -/
theorem rows_eq : StableHlo.after (hostOps0 (F := Ideal)) V (Proc.devRef .tc main_v0)
    = shapeCast S40000x128 (V (Proc.devRef .tc main_arg0)) shapeCasts_S4x10000x128_S40000x128 := by
  after_results; rfl

/-- The weights: the self-loop matrix transposed beside the message matrix transposed. -/
theorem weights_eq : StableHlo.after (hostOps0 (F := Ideal)) V (Proc.devRef .tc main_v3)
    = concatenate S128x256 1
        [⟨S128x128, transpose S128x128 [1, 0] (V (Proc.devRef .tc main_arg3)) transposes_S128x128_S128x128_1_0⟩,
         ⟨S128x128, transpose S128x128 [1, 0] (V (Proc.devRef .tc main_arg2)) transposes_S128x128_S128x128_1_0⟩]
        concatenates_S128x128_S128x128_S128x256_d1 := by
  after_results

/-- The bias as one row. -/
theorem biasRow_eq : StableHlo.after (hostOps0 (F := Ideal)) V (Proc.devRef .tc main_v4)
    = shapeCast S1x128 (V (Proc.devRef .tc main_arg4)) shapeCasts_S128_S1x128 := by
  after_results; rfl

/-! ## Before the statistics region -/

/-- One row of the edge list as start indices: the row, an index below zero moved up by the number of nodes, as a column. -/
def startIdx (row : IVec S160000 32) : IVec S160000x1 32 :=
  broadcastInDim S160000x1 ![0] bcast_S160000_S160000x1_0
    (select (cmpi .slt row (broadcastInDim S160000 ![] bcast_S_S160000 (constantI S_ 32 0#32)))
      (addi row (broadcastInDim S160000 ![] bcast_S_S160000 (constantI S_ 32 10000#32))) row)

/-- Row `k` of the edge list (0: sources, 1: destinations). -/
def srcRow (e : IVec S2x160000 32) : IVec S160000 32 :=
  shapeCast S160000 (extractStridedSlice S1x160000 ![0, 0] e slices_S2x160000_S1x160000_0_0) shapeCasts_S1x160000_S160000
def dstRow (e : IVec S2x160000 32) : IVec S160000 32 :=
  shapeCast S160000 (extractStridedSlice S1x160000 ![1, 0] e slices_S2x160000_S1x160000_1_0) shapeCasts_S1x160000_S160000

/-- The messages gathered at the sources and summed into the destinations, from zero. -/
def aggregate (msg : FVec Ideal S4x10000x128 .f32) (e : IVec S2x160000 32) : FVec Ideal S4x10000x128 .f32 :=
  Host.scatterAdd (F := Ideal) scatter_S4x10000x128_S160000x1_S4x160000x128_02_1_1_1
    (broadcastInDim S4x10000x128 ![] bcast_S_S4x10000x128 (constant (F := Ideal) S_ .f32 0x00000000#32))
    (startIdx (dstRow e))
    (Host.gather gather_S4x10000x128_S160000x1_S4x160000x128_02_1_n_n_1_1_41128 msg (startIdx (srcRow e)))

set_option maxHeartbeats 2000000 in
/-- The aggregated messages, flattened: of the linear region's second output read as 4 × 10000 × 128. -/
theorem aggRows_eq : StableHlo.after (hostOps1 (F := Ideal)) V (Proc.devRef .tc main_v27)
    = shapeCast S40000x128
        (aggregate (shapeCast S4x10000x128 (V (Proc.devRef .tc main_v5_1)) shapeCasts_S40000x128_S4x10000x128)
          (V (Proc.devRef .tc main_arg1)))
        shapeCasts_S4x10000x128_S40000x128 := by
  after_results_simp
  rfl

/-! ## Before the normalising region -/

/-- The divisor 40000 as a row. -/
def countRow : FVec Ideal S1x128 .f32 := broadcastInDim S1x128 ![] bcast_S_S1x128 (constant (F := Ideal) S_ .f32 0x471C4000#32)

theorem meanRow_eq : StableHlo.after (hostOps2 (F := Ideal)) V (Proc.devRef .tc main_v30)
    = Host.divf (F := Ideal) (V (Proc.devRef .tc main_v28_1)) countRow := by
  after_results
  try rfl

theorem varRow_eq : StableHlo.after (hostOps2 (F := Ideal)) V (Proc.devRef .tc main_v34)
    = subf (Host.divf (F := Ideal) (V (Proc.devRef .tc main_v28_2)) countRow)
        (mulf (Host.divf (F := Ideal) (V (Proc.devRef .tc main_v28_1)) countRow) (Host.divf (F := Ideal) (V (Proc.devRef .tc main_v28_1)) countRow)) := by
  after_results
  try rfl

theorem scaleRow_eq : StableHlo.after (hostOps2 (F := Ideal)) V (Proc.devRef .tc main_v35)
    = shapeCast S1x128 (V (Proc.devRef .tc main_arg5)) shapeCasts_S128_S1x128 := by
  after_results; rfl

theorem shiftRow_eq : StableHlo.after (hostOps2 (F := Ideal)) V (Proc.devRef .tc main_v36)
    = shapeCast S1x128 (V (Proc.devRef .tc main_arg6)) shapeCasts_S128_S1x128 := by
  after_results; rfl

/-! ## At the end -/

theorem result_eq : StableHlo.after (hostOps3 (F := Ideal)) V (Proc.devRef .tc main_v38)
    = shapeCast S4x10000x128 (V (Proc.devRef .tc main_v37)) shapeCasts_S40000x128_S4x10000x128 := by
  after_results; rfl

end Cert.KernelIdeal.HandValue

end
-- ==== Proof.KI.LinearValue.lean ====
/- The linear layer's two output arrays, at the ideal values, as functions of the arrays the region finds.

   At the ideal values a change of float format changes nothing, so the body's product of a block of rows with the
   weight matrix is the exact matrix product. Each grid point writes 4000 consecutive rows, the ten points cover all
   40000 rows, and so after the region the first output array is the activations times the left half of the weights
   plus the bias, and the second is the activations times the right half of the weights. -/
import proofs.«109383_j39367670235762_1_alg».proof.Proof.KI.Linear
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

-- membership of an index in a rectangle of extent 40000 is decided by structural recursion along the long axis
set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.HandValue

open Cert.KernelIdeal Cert.KernelIdeal.Gen Cert.KernelIdeal.Hand

/-! ## The body's arithmetic, entry by entry

At the ideal values a narrowing of the float format changes nothing, so the body's product is the exact product of
the block of rows with the weight matrix. -/

/-- Entry `(r, j)` of the product of a block of 4000 rows with the weights: the sum over the 128 shared
    coordinates. The accumulator the body passes is zero. -/
theorem prod_at (x : FVec Ideal S4000x128 .f32) (w : FVec Ideal S128x256 .f32) (r : Fin 4000) (j : Fin 256) :
    k0_pay1 (F := Ideal) x w (ix2 r j) = ∑ k : Fin 128, x (ix2 r k) * w (ix2 k j) := by
  unfold k0_pay1
  simp only [shapeCast_self]
  show FloatOps.matmul dot_S4000x128_S128x256_S4000x256_1_0_0_1_n_n none (truncf FTy.bf16 x bitsLt_bf16_f32) (truncf FTy.bf16 w bitsLt_bf16_f32)
      (constant S4000x256 .f32 0x00000000#32) (ix2 r j) = _
  rw [Ideal.matmul_constant_zero_apply, ← Equiv.sum_comp (contrEquiv1 dot_S4000x128_S128x256_S4000x256_1_0_0_1_n_n 128 rfl rfl).symm]
  refine Finset.sum_congr rfl fun k _ => ?_
  have ck := contrEquiv1_symm_val dot_S4000x128_S128x256_S4000x256_1_0_0_1_n_n 128 rfl rfl k
  have hl : dot_S4000x128_S128x256_S4000x256_1_0_0_1_n_n.lhsIdx (ix2 r j) ((contrEquiv1 dot_S4000x128_S128x256_S4000x256_1_0_0_1_n_n 128 rfl rfl).symm k) = ix2 r k := by
    funext ax; apply Fin.ext
    match ax with
    | ⟨0, _⟩ => simp [DotDims.lhsIdx, dot_S4000x128_S128x256_S4000x256_1_0_0_1_n_n]; rfl
    | ⟨1, _⟩ => simp [DotDims.lhsIdx, dot_S4000x128_S128x256_S4000x256_1_0_0_1_n_n]; exact ck
  have hr : dot_S4000x128_S128x256_S4000x256_1_0_0_1_n_n.rhsIdx (ix2 r j) ((contrEquiv1 dot_S4000x128_S128x256_S4000x256_1_0_0_1_n_n 128 rfl rfl).symm k) = ix2 k j := by
    funext ax; apply Fin.ext
    match ax with
    | ⟨0, _⟩ => simp [DotDims.rhsIdx, dot_S4000x128_S128x256_S4000x256_1_0_0_1_n_n]; exact ck
    | ⟨1, _⟩ => simp [DotDims.rhsIdx, dot_S4000x128_S128x256_S4000x256_1_0_0_1_n_n]; rfl
  rw [hl, hr]
  rfl

/-- Entry `(r, j)` of the first output block: column `j` of the product, plus the bias of column `j`. -/
theorem linH_block_at (x : FVec Ideal S4000x128 .f32) (w : FVec Ideal S128x256 .f32) (b : FVec Ideal S1x128 .f32)
    (r : Fin 4000) (j : Fin 128) :
    k0_pay2 (F := Ideal) x w b (ix2 r j)
      = (∑ k : Fin 128, x (ix2 r k) * w (ix2 k ⟨j.val, by have := j.isLt; omega⟩)) + b (ix2 (0 : Fin 1) j) := by
  unfold k0_pay2
  simp only [shapeCast_self]
  show (extractStridedSlice S4000x128 ![0, 0] (k0_pay1 (F := Ideal) x w) slices_S4000x256_o0_0_S4000x128 (ix2 r j) : EReal)
      + broadcastTo S4000x128 b broadcasts_S1x128_S4000x128 (ix2 r j) = _
  rw [slice2_axis1_apply 0 (k0_pay1 (F := Ideal) x w) slices_S4000x256_o0_0_S4000x128 r j ⟨j.val, by have := j.isLt; omega⟩ (Nat.zero_add _).symm,
    broadcastTo_1b_ab_apply b broadcasts_S1x128_S4000x128 r j, prod_at]

/-- Entry `(r, j)` of the second output block: column `128 + j` of the product. -/
theorem linM_block_at (x : FVec Ideal S4000x128 .f32) (w : FVec Ideal S128x256 .f32) (r : Fin 4000) (j : Fin 128) :
    k0_pay3 (F := Ideal) x w (ix2 r j)
      = ∑ k : Fin 128, x (ix2 r k) * w (ix2 k ⟨j.val + 128, by have := j.isLt; omega⟩) := by
  unfold k0_pay3
  show (extractStridedSlice S4000x128 ![0, 128] (k0_pay1 (F := Ideal) x w) slices_S4000x256_o0_128_S4000x128 (ix2 r j) : EReal) = _
  rw [slice2_axis1_apply 128 (k0_pay1 (F := Ideal) x w) slices_S4000x256_o0_128_S4000x128 r j ⟨j.val + 128, by have := j.isLt; omega⟩ (Nat.add_comm _ _),
    prod_at]

section Arrays
-- the TensorCore's buffer contents when the region is entered, at the ideal values
variable (V : (c : Dev nD) → (b : Ref sig .tc) → Buf (Elt Ideal) ((c : Thread nD τ).loc b))

/-! ## Where each block sits in its array -/

theorem hz : (![0, 0] : Fin 2 → Nat) = fun _ => 0 := funext fun a => by fin_cases a <;> rfl

/-- The block indices, decided over the ten grid points: the activations' block and the two output blocks are block
    `t` of 4000 rows at point `t`; the weights and the bias have one block. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of the activations' block at point `t` is row `4000 t + r` of the activations. -/
theorem rows_at (c : Dev nD) (t : Fin cfg0.N) (r : Fin 4000) (k : Fin 128) (R : Fin 40000) (hR : R.val = 4000 * t.val + r.val) :
    (blk0 V c 0 t : Vec Ideal S4000x128 .f32) (ix2 r k) = (V c main_v0 : S40000x128.Idx → EReal) (ix2 R k) := by
  obtain ⟨e0, e1, -⟩ := block_index0 t
  unfold blk0
  rw [View.read_apply]
  show V c main_v0 _ = V c main_v0 _
  congr 1
  funext a; apply Fin.ext
  match a with
  | ⟨0, _⟩ => show win0_0.index t 0 * 4000 + 1 * r.val = R.val; rw [e0, hR]; omega
  | ⟨1, _⟩ => show win0_0.index t 1 * 128 + 1 * k.val = k.val; rw [e1]; omega

/-- The weights' block at any point is the weight matrix. -/
theorem weights_at (c : Dev nD) (t : Fin cfg0.N) (k : Fin 128) (j : Fin 256) :
    (blk0 V c 1 t : Vec Ideal S128x256 .f32) (ix2 k j) = (V c main_v3 : S128x256.Idx → EReal) (ix2 k j) := by
  obtain ⟨-, -, e0, e1, -⟩ := block_index0 t
  unfold blk0
  rw [View.read_apply]
  show V c main_v3 _ = V c main_v3 _
  congr 1
  funext a; apply Fin.ext
  match a with
  | ⟨0, _⟩ => show win0_1.index t 0 * 128 + 1 * k.val = k.val; rw [e0]; omega
  | ⟨1, _⟩ => show win0_1.index t 1 * 256 + 1 * j.val = j.val; rw [e1]; omega

/-- The bias block at any point is the bias row. -/
theorem bias_at (c : Dev nD) (t : Fin cfg0.N) (j : Fin 128) :
    (blk0 V c 2 t : Vec Ideal S1x128 .f32) (ix2 (0 : Fin 1) j) = (V c main_v4 : S1x128.Idx → EReal) (ix2 (0 : Fin 1) j) := by
  obtain ⟨-, -, -, -, e0, e1, -⟩ := block_index0 t
  unfold blk0
  rw [View.read_apply]
  show V c main_v4 _ = V c main_v4 _
  congr 1
  funext a; apply Fin.ext
  match a with
  | ⟨0, _⟩ => show win0_2.index t 0 * 1 + 1 * 0 = 0; rw [e0]
  | ⟨1, _⟩ => show win0_2.index t 1 * 128 + 1 * j.val = j.val; rw [e1]; omega

/-! ## The two output arrays as functions of the entry arrays -/

/-- The first output array: row `i 0` of the activations times column `i 1` of the weights, plus the bias of column
    `i 1`. -/
def hArr (a : S40000x128.Idx → EReal) (w : S128x256.Idx → EReal) (b : S1x128.Idx → EReal) : S40000x128.Idx → EReal :=
  fun i => (∑ k : Fin 128, a (ix2 (i 0) k) * w (ix2 k ⟨(i 1).val, by have := idx2_lt1 i; omega⟩)) + b (ix2 (0 : Fin 1) (i 1))

/-- The second output array: row `i 0` of the activations times column `128 + i 1` of the weights. -/
def mArr (a : S40000x128.Idx → EReal) (w : S128x256.Idx → EReal) : S40000x128.Idx → EReal :=
  fun i => ∑ k : Fin 128, a (ix2 (i 0) k) * w (ix2 k ⟨(i 1).val + 128, by have := idx2_lt1 i; omega⟩)

/-- Where entry `(r, j)` of an output block at point `t` sits in the output array: row `4000 t + r`, column `j`. -/
theorem out_emb (t : Fin cfg0.N) (r : Fin 4000) (j : Fin 128) (R : Fin 40000) (hR : R.val = 4000 * t.val + r.val) :
    ((cfg0.win 3).blk t).view.emb (ix2 r j) = ix2 R j ∧ ((cfg0.win 4).blk t).view.emb (ix2 r j) = ix2 R j := by
  obtain ⟨-, -, -, -, -, -, e0, e1, f0, f1⟩ := block_index0 t
  constructor
  · funext a; apply Fin.ext
    match a with
    | ⟨0, _⟩ => show win0_3.index t 0 * 4000 + 1 * r.val = R.val; rw [e0, hR]; omega
    | ⟨1, _⟩ => show win0_3.index t 1 * 128 + 1 * j.val = j.val; rw [e1]; omega
  · funext a; apply Fin.ext
    match a with
    | ⟨0, _⟩ => show win0_4.index t 0 * 4000 + 1 * r.val = R.val; rw [f0, hR]; omega
    | ⟨1, _⟩ => show win0_4.index t 1 * 128 + 1 * j.val = j.val; rw [f1]; omega

/-- What point `t` writes back to the first output array is block `t` of `hArr` of the entry arrays. -/
theorem flushed3_eq (c : Dev nD) (t : Fin cfg0.N) :
    (dat0 V c).flushed 3 t = ((cfg0.win 3).blk t).view.read (Elt Ideal) (hArr (V c main_v0) (V c main_v3) (V c main_v4)) := by
  show (cfg0.win 3).cut (grid0.coords t) ((dat0 V c).after 3 t) = _
  rw [after0_3]
  unfold linH
  rw [View.canon_unit_zero hz]
  simp only [View.ld_unit_zero (S := S4000x128) hz, View.ld_unit_zero (S := S128x256) hz, View.ld_unit_zero (S := S1x128) hz]
  funext y
  obtain ⟨r, j, rfl⟩ : ∃ (r : Fin 4000) (j : Fin 128), y = ix2 r j := ⟨y 0, y 1, eq_ix2 y⟩
  have hN : cfg0.N = 10 := N_0
  have hR : 4000 * t.val + r.val < 40000 := by have := t.isLt; have := r.isLt; omega
  show k0_pay2 (F := Ideal) (blk0 V c 0 t) (blk0 V c 1 t) (blk0 V c 2 t) (ix2 r j)
      = hArr (V c main_v0) (V c main_v3) (V c main_v4) (((cfg0.win 3).blk t).view.emb (ix2 r j))
  rw [(out_emb t r j ⟨4000 * t.val + r.val, hR⟩ rfl).1]
  refine (linH_block_at (blk0 V c 0 t) (blk0 V c 1 t) (blk0 V c 2 t) r j).trans ?_
  unfold hArr
  refine congrArg₂ (· + ·) (Finset.sum_congr rfl fun k _ => ?_) (bias_at V c t j)
  rw [rows_at V c t r k ⟨4000 * t.val + r.val, hR⟩ rfl, weights_at V c t k _]

/-- What point `t` writes back to the second output array is block `t` of `mArr` of the entry arrays. -/
theorem flushed4_eq (c : Dev nD) (t : Fin cfg0.N) :
    (dat0 V c).flushed 4 t = ((cfg0.win 4).blk t).view.read (Elt Ideal) (mArr (V c main_v0) (V c main_v3)) := by
  show (cfg0.win 4).cut (grid0.coords t) ((dat0 V c).after 4 t) = _
  rw [after0_4]
  unfold linM
  rw [View.canon_unit_zero hz]
  simp only [View.ld_unit_zero (S := S4000x128) hz, View.ld_unit_zero (S := S128x256) hz]
  funext y
  obtain ⟨r, j, rfl⟩ : ∃ (r : Fin 4000) (j : Fin 128), y = ix2 r j := ⟨y 0, y 1, eq_ix2 y⟩
  have hN : cfg0.N = 10 := N_0
  have hR : 4000 * t.val + r.val < 40000 := by have := t.isLt; have := r.isLt; omega
  show k0_pay3 (F := Ideal) (blk0 V c 0 t) (blk0 V c 1 t) (ix2 r j)
      = mArr (V c main_v0) (V c main_v3) (((cfg0.win 4).blk t).view.emb (ix2 r j))
  rw [(out_emb t r j ⟨4000 * t.val + r.val, hR⟩ rfl).2]
  refine (linM_block_at (blk0 V c 0 t) (blk0 V c 1 t) r j).trans ?_
  unfold mArr
  refine Finset.sum_congr rfl fun k _ => ?_
  rw [rows_at V c t r k ⟨4000 * t.val + r.val, hR⟩ rfl, weights_at V c t k _]

/-! ## The blocks tile the arrays -/

/-- An index of the first output array lies in point `t`'s block iff, on each axis, its coordinate is in the block's
    range. -/
theorem mem_blk3 (t : Fin cfg0.N) (i : S40000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v5_0).slice (win0_3.rect t)).set ↔ _
  rw [View.set_slice_whole, Rect.mem_set_unit]
  exact Iff.rfl

/-- Likewise for the second output array. -/
theorem mem_blk4 (t : Fin cfg0.N) (i : S40000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v5_1).slice (win0_4.rect t)).set ↔ _
  rw [View.set_slice_whole, Rect.mem_set_unit]
  exact Iff.rfl

/-- Row `ρ` of an output array is written by point `ρ / 4000`: every index is in some written-back block. -/
theorem covered3 (i : S40000x128.Idx) : ∃ t : Fin cfg0.N, (cfg0.win 3).flush t = true ∧ i ∈ ((cfg0.win 3).blk t).view.set := by
  have hi0 : (i 0).val < 40000 := idx2_lt0 i
  have hi1 : (i 1).val < 128 := idx2_lt1 i
  have hN : cfg0.N = 10 := N_0
  obtain ⟨t, ht⟩ : ∃ t : Fin cfg0.N, t.val = (i 0).val / 4000 := ⟨⟨(i 0).val / 4000, by rw [hN]; omega⟩, rfl⟩
  obtain ⟨-, -, -, -, -, -, e0, e1, -⟩ := block_index0 t
  refine ⟨t, flush0_3 t, ?_⟩
  rw [mem_blk3]
  intro a
  match a with
  | ⟨0, _⟩ => show win0_3.index t 0 * 4000 ≤ (i 0).val ∧ (i 0).val < win0_3.index t 0 * 4000 + 4000; rw [e0, ht]; omega
  | ⟨1, _⟩ => show win0_3.index t 1 * 128 ≤ (i 1).val ∧ (i 1).val < win0_3.index t 1 * 128 + 128; rw [e1]; omega

theorem covered4 (i : S40000x128.Idx) : ∃ t : Fin cfg0.N, (cfg0.win 4).flush t = true ∧ i ∈ ((cfg0.win 4).blk t).view.set := by
  have hi0 : (i 0).val < 40000 := idx2_lt0 i
  have hi1 : (i 1).val < 128 := idx2_lt1 i
  have hN : cfg0.N = 10 := N_0
  obtain ⟨t, ht⟩ : ∃ t : Fin cfg0.N, t.val = (i 0).val / 4000 := ⟨⟨(i 0).val / 4000, by rw [hN]; omega⟩, rfl⟩
  obtain ⟨-, -, -, -, -, -, -, -, e0, e1⟩ := block_index0 t
  refine ⟨t, flush0_4 t, ?_⟩
  rw [mem_blk4]
  intro a
  match a with
  | ⟨0, _⟩ => show win0_4.index t 0 * 4000 ≤ (i 0).val ∧ (i 0).val < win0_4.index t 0 * 4000 + 4000; rw [e0, ht]; omega
  | ⟨1, _⟩ => show win0_4.index t 1 * 128 ≤ (i 1).val ∧ (i 1).val < win0_4.index t 1 * 128 + 128; rw [e1]; omega

/-! ## The arrays after the region -/

/-- `hArr` at row `ρ`, column `j`. -/
theorem hArr_apply (a : S40000x128.Idx → EReal) (w : S128x256.Idx → EReal) (b : S1x128.Idx → EReal) (ρ : Fin 40000) (j : Fin 128) :
    hArr a w b (ix2 ρ j)
      = (∑ k : Fin 128, a (ix2 ρ k) * w (ix2 k ⟨j.val, by have := j.isLt; omega⟩)) + b (ix2 (0 : Fin 1) j) := rfl

/-- `mArr` at row `ρ`, column `j`. -/
theorem mArr_apply (a : S40000x128.Idx → EReal) (w : S128x256.Idx → EReal) (ρ : Fin 40000) (j : Fin 128) :
    mArr a w (ix2 ρ j) = ∑ k : Fin 128, a (ix2 ρ k) * w (ix2 k ⟨j.val + 128, by have := j.isLt; omega⟩) := rfl

/-- After the region the first output array holds, at `(ρ, j)`, the product of row `ρ` of the activations with column
    `j` of the weights, plus the bias of column `j`. -/
theorem final0_3 (c : Dev nD) :
    (dat0 (F := Ideal) V c).arrAt 3 cfg0.N = hArr (V c main_v0) (V c main_v3) (V c main_v4) :=
  (dat0 V c).arrAt_eq_of_cover 3 (hArr (V c main_v0) (V c main_v3) (V c main_v4)) (fun t _ => flushed3_eq V c t) covered3

/-- After the region the second output array holds, at `(ρ, j)`, the product of row `ρ` of the activations with
    column `128 + j` of the weights. -/
theorem final0_4 (c : Dev nD) :
    (dat0 (F := Ideal) V c).arrAt 4 cfg0.N = mArr (V c main_v0) (V c main_v3) :=
  (dat0 V c).arrAt_eq_of_cover 4 (mArr (V c main_v0) (V c main_v3)) (fun t _ => flushed4_eq V c t) covered4

end Arrays

end Cert.KernelIdeal.HandValue

end
-- ==== Proof.KI.StatsValue.lean ====
import proofs.«109383_j39367670235762_1_alg».proof.Proof.KI.Stats
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.StatsValue

open Idealize.ShloMosaic Idealize.ShloMosaic.TcCoe Idealize.SL.Sem
open Idealize.ShloMosaic.Pipeline (Dat)
open Cert.KernelIdeal.Gen Cert.KernelIdeal.Hand
open Idealize.ShloMosaic.ValueIdx
open scoped BigOperators

/-! ## The payloads, read at an index -/

/-- Column `l` of a [1,128] row. -/
abbrev rowIx (l : Fin 128) : S1x128.Idx := ix2 (0 : Fin 1) l

/-- The source index over column `l` with row `k`. -/
theorem lift_col (j : S128.Idx) (k : Fin (S4000x128.size 0)) :
    (reduces_S4000x128_S128 : S4000x128.Reduces [0] S128).lift j k = ix2 (n0 := 4000) (n1 := 128) k (j 0) := by
  funext a
  apply Fin.ext
  match a with
  | ⟨0, _⟩ => rw [Shape.Reduces.lift_val]; simp [Shape.Reduces.liftVal]
  | ⟨1, _⟩ => rw [Shape.Reduces.lift_val]; simp [Shape.Reduces.liftVal]

/-- The block of `h + agg`, entry by entry. -/
theorem pay3_apply (x0 x1 : Vec Ideal S4000x128 .f32) (i : S4000x128.Idx) :
    k1_pay3 (F := Ideal) x0 x1 i = x0 i + x1 i := by
  unfold k1_pay3
  simp only [shapeCast_self]
  rfl

/-- The zero row the reset stores. -/
theorem pay1_apply (j : S1x128.Idx) : k1_pay1 (F := Ideal) j = 0 := by
  unfold k1_pay1
  simp only [shapeCast_self]
  exact Ideal.ofBits_zero_f32
theorem pay2_apply (j : S1x128.Idx) : k1_pay2 (F := Ideal) j = 0 := by
  unfold k1_pay2
  simp only [shapeCast_self]
  exact Ideal.ofBits_zero_f32

/-- One step of the first accumulator at column `l`: the block's column sum of `h + agg` added. -/
theorem pay4_apply (x0 x1 : Vec Ideal S4000x128 .f32) (v : Vec Ideal S1x128 .f32) (l : Fin 128) :
    k1_pay4 (F := Ideal) x0 x1 v (rowIx l) = v (rowIx l) + ∑ r : Fin 4000, (x0 (ix2 r l) + x1 (ix2 r l)) := by
  unfold k1_pay4
  simp only [shapeCast_self]
  show (v (rowIx l) : EReal) + shapeCast S1x128 _ shapeCasts_S128_S1x128 (rowIx l) = _
  refine congrArg (fun z => (v (rowIx l) : EReal) + z) ?_
  refine (shapeCast_apply _ shapeCasts_S128_S1x128 (rowIx l) (ix1 l) ?_).trans ?_
  · rw [Shape.rowMajor_val_one, Shape.rowMajor_val_two]; simp
  refine (Ideal.multiReduction_add_single _ _ reduces_S4000x128_S128 _ _ (ix1 l)).trans ?_
  refine Finset.sum_congr rfl fun r _ => ?_
  rw [lift_col]
  exact pay3_apply x0 x1 _

/-- One step of the second accumulator at column `l`: the block's column sum of `(h + agg)²` added. -/
theorem pay5_apply (x0 x1 : Vec Ideal S4000x128 .f32) (v : Vec Ideal S1x128 .f32) (l : Fin 128) :
    k1_pay5 (F := Ideal) x0 x1 v (rowIx l)
      = v (rowIx l) + ∑ r : Fin 4000, (x0 (ix2 r l) + x1 (ix2 r l)) * (x0 (ix2 r l) + x1 (ix2 r l)) := by
  unfold k1_pay5
  simp only [shapeCast_self]
  show (v (rowIx l) : EReal) + shapeCast S1x128 _ shapeCasts_S128_S1x128 (rowIx l) = _
  refine congrArg (fun z => (v (rowIx l) : EReal) + z) ?_
  refine (shapeCast_apply _ shapeCasts_S128_S1x128 (rowIx l) (ix1 l) ?_).trans ?_
  · rw [Shape.rowMajor_val_one, Shape.rowMajor_val_two]; simp
  refine (Ideal.multiReduction_add_single _ _ reduces_S4000x128_S128 _ _ (ix1 l)).trans ?_
  refine Finset.sum_congr rfl fun r _ => ?_
  rw [lift_col]
  show (k1_pay3 (F := Ideal) x0 x1 _ : EReal) * k1_pay3 (F := Ideal) x0 x1 _ = _
  rw [pay3_apply]

/-! ## The blocks, read at an index -/

section Region
variable (V : (c : Dev nD) → (b : Ref sig .tc) → Buf (Elt Ideal) ((c : Thread nD τ).loc b)) (c : Dev nD)

/-- The two input arrays as the region finds them, and their sum. -/
abbrev hArr : S40000x128.Idx → EReal := V c main_v5_0
abbrev gArr : S40000x128.Idx → EReal := V c main_v27
abbrev sAt (r : Fin 40000) (l : Fin 128) : EReal := hArr V c (ix2 r l) + gArr V c (ix2 r l)

/-- The printed index maps of the three blocked windows, decided over the grid: block `t` of rows, the one block of columns. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `r` of block `t` is row `4000 t + r` of the array. -/
def rowAt (t : Fin cfg1.N) (r : Fin 4000) : Fin 40000 :=
  ⟨4000 * t.val + r.val, by have := t.isLt; have hN : cfg1.N = 10 := N_1; have := r.isLt; omega⟩

theorem blk0_apply (t : Fin cfg1.N) (r : Fin 4000) (l : Fin 128) :
    (blk1 (F := Ideal) V c 0 t : Vec Ideal S4000x128 .f32) (ix2 r l) = hArr V c (ix2 (rowAt t r) l) := by
  obtain ⟨e0, e1, -⟩ := idx_facts t
  unfold blk1
  rw [View.read_apply]
  show V c main_v5_0 _ = V c main_v5_0 _
  congr 1
  funext a
  apply Fin.ext
  match a with
  | ⟨0, _⟩ => show win1_0.index t (0 : Fin 2) * 4000 + 1 * r.val = 4000 * t.val + r.val; rw [e0]; omega
  | ⟨1, _⟩ => show win1_0.index t (1 : Fin 2) * 128 + 1 * l.val = l.val; rw [e1]; omega

theorem blk1_apply (t : Fin cfg1.N) (r : Fin 4000) (l : Fin 128) :
    (blk1 (F := Ideal) V c 1 t : Vec Ideal S4000x128 .f32) (ix2 r l) = gArr V c (ix2 (rowAt t r) l) := by
  obtain ⟨-, -, e0, e1, -⟩ := idx_facts t
  unfold blk1
  rw [View.read_apply]
  show V c main_v27 _ = V c main_v27 _
  congr 1
  funext a
  apply Fin.ext
  match a with
  | ⟨0, _⟩ => show win1_1.index t (0 : Fin 2) * 4000 + 1 * r.val = 4000 * t.val + r.val; rw [e0]; omega
  | ⟨1, _⟩ => show win1_1.index t (1 : Fin 2) * 128 + 1 * l.val = l.val; rw [e1]; omega

/-! ## The accumulators are partial column sums -/

/-- `h + agg` at row `r` (zero past the last row), column `l`: the summand over the naturals. -/
def sNat (l : Fin 128) (r : ℕ) : EReal := if hr : r < 40000 then sAt V c ⟨r, hr⟩ l else 0

theorem sNat_rowAt (l : Fin 128) (n : ℕ) (hn : n < cfg1.N) (r : Fin 4000) :
    sNat V c l (4000 * n + r.val) = sAt V c (rowAt ⟨n, hn⟩ r) l := by
  have hN : cfg1.N = 10 := N_1
  have := r.isLt
  unfold sNat
  rw [dif_pos (by omega)]
  rfl

/-- After `n` points the first accumulator holds, at column `l`, the sum of `h + agg` over the first `4000 n` rows. -/
theorem accSum_eq (l : Fin 128) : ∀ n : ℕ, n ≤ 10 →
    accSum (F := Ideal) V c n (rowIx l) = ∑ r ∈ Finset.range (4000 * n), sNat V c l r
  | 0, _ => by
    rw [accSum_zero V c 0 rfl, pay1_apply]; simp
  | n + 1, h => by
    have hn : n < cfg1.N := by rw [show cfg1.N = 10 from N_1]; omega
    refine (congrFun (accSum_succ V c ⟨n, hn⟩) (rowIx l)).trans ?_
    refine (pay4_apply (blk1 V c 0 ⟨n, hn⟩) (blk1 V c 1 ⟨n, hn⟩) (accSum V c n) l).trans ?_
    rw [accSum_eq l n (by omega), show 4000 * (n + 1) = 4000 * n + 4000 from by ring, Finset.sum_range_add]
    congr 1
    rw [Finset.sum_range]
    refine Finset.sum_congr rfl fun r _ => ?_
    rw [blk0_apply, blk1_apply, sNat_rowAt V c l n hn r]

/-- and the second the sum of `(h + agg)²` over them. -/
theorem accSq_eq (l : Fin 128) : ∀ n : ℕ, n ≤ 10 →
    accSq (F := Ideal) V c n (rowIx l) = ∑ r ∈ Finset.range (4000 * n), sNat V c l r * sNat V c l r
  | 0, _ => by
    rw [accSq_zero V c 0 rfl, pay2_apply]; simp
  | n + 1, h => by
    have hn : n < cfg1.N := by rw [show cfg1.N = 10 from N_1]; omega
    refine (congrFun (accSq_succ V c ⟨n, hn⟩) (rowIx l)).trans ?_
    refine (pay5_apply (blk1 V c 0 ⟨n, hn⟩) (blk1 V c 1 ⟨n, hn⟩) (accSq V c n) l).trans ?_
    rw [accSq_eq l n (by omega), show 4000 * (n + 1) = 4000 * n + 4000 from by ring, Finset.sum_range_add]
    congr 1
    rw [Finset.sum_range]
    refine Finset.sum_congr rfl fun r _ => ?_
    rw [blk0_apply, blk1_apply, sNat_rowAt V c l n hn r]

/-- The sum over the naturals below 40000 is the sum over the rows. -/
theorem sum_sNat (l : Fin 128) : ∑ r ∈ Finset.range (4000 * 10), sNat V c l r = ∑ r : Fin 40000, sAt V c r l := by
  rw [show 4000 * 10 = 40000 from rfl, Finset.sum_range]
  refine Finset.sum_congr rfl fun r _ => ?_
  unfold sNat; rw [dif_pos r.isLt]
theorem sum_sNat_sq (l : Fin 128) :
    ∑ r ∈ Finset.range (4000 * 10), sNat V c l r * sNat V c l r = ∑ r : Fin 40000, sAt V c r l * sAt V c r l := by
  rw [show 4000 * 10 = 40000 from rfl, Finset.sum_range]
  refine Finset.sum_congr rfl fun r _ => ?_
  unfold sNat; rw [dif_pos r.isLt]

/-! ## The first output: `h + agg`, block by block -/

/-- What the first output array ends holding. -/
abbrev G2 : Buf (Elt Ideal) ((c : Thread nD τ).loc main_v28_0) := fun i => hArr V c i + gArr V c i

/-- Block `t` of it, read at row `r`, column `l`. -/
theorem G2_blk_apply (t : Fin cfg1.N) (r : Fin 4000) (l : Fin 128) :
    (((cfg1.win 2).blk t).view.read (Elt Ideal) (G2 V c) : Vec Ideal S4000x128 .f32) (ix2 r l) = sAt V c (rowAt t r) l := by
  obtain ⟨-, -, -, -, e0, e1⟩ := idx_facts t
  rw [View.read_apply]
  show G2 V c _ = G2 V c (ix2 (rowAt t r) l)
  congr 1
  funext a
  apply Fin.ext
  match a with
  | ⟨0, _⟩ => show win1_2.index t (0 : Fin 2) * 4000 + 1 * r.val = 4000 * t.val + r.val; rw [e0]; omega
  | ⟨1, _⟩ => show win1_2.index t (1 : Fin 2) * 128 + 1 * l.val = l.val; rw [e1]; omega

/-- What point `t` writes back is block `t` of `h + agg`. -/
theorem flushed2_eq (t : Fin cfg1.N) :
    (dat1 V c).flushed 2 t = ((cfg1.win 2).blk t).view.read (Elt Ideal) (G2 V c) := by
  show (cfg1.win 2).cut (grid1.coords t) ((dat1 V c).after 2 t) = _
  rw [after1_2]
  have key : ∀ (r : Fin 4000) (l : Fin 128),
      (k1_pay3 (F := Ideal) (blk1 V c 0 t) (blk1 V c 1 t) : Vec Ideal S4000x128 .f32) (ix2 r l)
        = (((cfg1.win 2).blk t).view.read (Elt Ideal) (G2 V c) : Vec Ideal S4000x128 .f32) (ix2 r l) := fun r l => by
    refine (pay3_apply (blk1 V c 0 t) (blk1 V c 1 t) (ix2 r l)).trans ?_
    rw [blk0_apply, blk1_apply, G2_blk_apply]
  funext j
  have hj := eq_ix2 (n0 := 4000) (n1 := 128) j
  exact (congrArg _ hj).trans ((key (j 0) (j 1)).trans (congrArg _ hj.symm))

/-- An index of the array is in point `t`'s block iff each coordinate is in the block's range on its axis. -/
theorem mem_blk2 (t : Fin cfg1.N) (i : S40000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v28_0).slice (win1_2.rect t)).set ↔ _
  rw [View.set_slice_whole, Rect.mem_set_unit]
  exact Iff.rfl

/-- The first output array after the region: `h + agg`. -/
theorem final1_2 : (dat1 (F := Ideal) V c).arrAt 2 cfg1.N = fun i => hArr V c i + gArr V c i :=
  (dat1 V c).arrAt_eq_of_cover 2 (G2 V c) (fun t _ => flushed2_eq V c t) fun i => by
    have hi0 : (i 0).val < 40000 := (i 0).isLt
    have hi1 : (i 1).val < 128 := (i 1).isLt
    have hN : cfg1.N = 10 := N_1
    refine ⟨⟨(i 0).val / 4000, by omega⟩, flush1_2 _, ?_⟩
    rw [mem_blk2]
    obtain ⟨-, -, -, -, e0, e1⟩ := idx_facts ⟨(i 0).val / 4000, by omega⟩
    intro a
    match a with
    | ⟨0, _⟩ => show win1_2.index _ (0 : Fin 2) * 4000 ≤ (i 0).val ∧ (i 0).val < win1_2.index _ (0 : Fin 2) * 4000 + 4000; rw [e0]; dsimp only; omega
    | ⟨1, _⟩ => show win1_2.index _ (1 : Fin 2) * 128 ≤ (i 1).val ∧ (i 1).val < win1_2.index _ (1 : Fin 2) * 128 + 128; rw [e1]; omega

/-! ## The two row outputs: the column sums over all rows -/

abbrev G3 : S1x128.Idx → EReal := fun j => ∑ r : Fin 40000, sAt V c r (j 1)
abbrev G4 : S1x128.Idx → EReal := fun j => ∑ r : Fin 40000, sAt V c r (j 1) * sAt V c r (j 1)

/-- Every index of a [1,128] row is a column's. -/
theorem exists_rowIx (j : S1x128.Idx) : ∃ l : Fin 128, j = rowIx l :=
  ⟨j 1, by
    funext a
    match a with
    | ⟨0, _⟩ => exact Fin.ext (by have h : (j 0).val < 1 := (j 0).isLt; show (j 0).val = 0; omega)
    | ⟨1, _⟩ => rfl⟩

theorem accSum_final : (accSum (F := Ideal) V c 10 : S1x128.Idx → EReal) = G3 V c := by
  funext j
  obtain ⟨l, rfl⟩ := exists_rowIx j
  rw [accSum_eq V c l 10 (le_refl _)]
  exact sum_sNat V c l
theorem accSq_final : (accSq (F := Ideal) V c 10 : S1x128.Idx → EReal) = G4 V c := by
  funext j
  obtain ⟨l, rfl⟩ := exists_rowIx j
  rw [accSq_eq V c l 10 (le_refl _)]
  exact sum_sNat_sq V c l

theorem hz3 : (fun a => win1_3.index t1_9 a * main_v28_1.ty.shape.size a) = fun _ => 0 := funext fun a => by fin_cases a <;> decide +kernel
theorem hz4 : (fun a => win1_4.index t1_9 a * main_v28_2.ty.shape.size a) = fun _ => 0 := funext fun a => by fin_cases a <;> decide +kernel

/-- The one write-back of the second output, at the last point, writes the first accumulator: its one block is the array. -/
theorem flushed3_eq (t : Fin cfg1.N) (hf : (cfg1.win 3).flush t = true) :
    (dat1 V c).flushed 3 t = ((cfg1.win 3).blk t).view.read (Elt Ideal) (G3 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3_last, accSum_final]
  exact (Memref.read_access_unit_zero (Elt Ideal) main_v28_1 hz3 (fun a => by rw [congrFun hz3 a]; simp) (G3 V c)).symm

theorem flushed4_eq (t : Fin cfg1.N) (hf : (cfg1.win 4).flush t = true) :
    (dat1 V c).flushed 4 t = ((cfg1.win 4).blk t).view.read (Elt Ideal) (G4 V c) := by
  have hN : cfg1.N = 10 := N_1
  have h9 : t.val = 9 := by have := (flush1_4 t).mp hf; have := t.isLt; omega
  obtain rfl : t = t1_9 := Fin.ext h9
  show (cfg1.win 4).cut (grid1.coords t1_9) ((dat1 V c).after 4 t1_9) = _
  rw [after1_4_last, accSq_final]
  exact (Memref.read_access_unit_zero (Elt Ideal) main_v28_2 hz4 (fun a => by rw [congrFun hz4 a]; simp) (G4 V c)).symm

/-- The second output array after the region: the column sums of `h + agg` over all 40000 rows. -/
theorem final1_3 : (dat1 (F := Ideal) V c).arrAt 3 cfg1.N
    = fun j => ∑ r : Fin 40000, (hArr V c (ix2 r (j 1)) + gArr V c (ix2 r (j 1))) :=
  (dat1 V c).arrAt_eq_of_cover 3 (G3 V c) (flushed3_eq V c) fun i =>
    ⟨t1_9, (flush1_3 t1_9).mpr rfl, by
      show i ∈ ((View.whole main_v28_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

/-- The third output array after the region: the column sums of `(h + agg)²` over all 40000 rows. -/
theorem final1_4 : (dat1 (F := Ideal) V c).arrAt 4 cfg1.N
    = fun j => ∑ r : Fin 40000, (hArr V c (ix2 r (j 1)) + gArr V c (ix2 r (j 1))) * (hArr V c (ix2 r (j 1)) + gArr V c (ix2 r (j 1))) :=
  (dat1 V c).arrAt_eq_of_cover 4 (G4 V c) (flushed4_eq V c) fun i =>
    ⟨t1_9, (flush1_4 t1_9).mpr rfl, by
      show i ∈ ((View.whole main_v28_2).slice (win1_4.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_4.index t1_9 0 * win1_4.size 0 ≤ (i 0 : Nat) ∧ (i 0 : Nat) < win1_4.index t1_9 0 * win1_4.size 0 + win1_4.xsize (grid1.coords t1_9) 0
                  rw [show win1_4.index t1_9 0 * win1_4.size 0 = 0 from by decide +kernel, show win1_4.xsize (grid1.coords t1_9) 0 = 1 from by decide +kernel]; omega
      | ⟨1, _⟩ => show win1_4.index t1_9 1 * win1_4.size 1 ≤ (i 1 : Nat) ∧ (i 1 : Nat) < win1_4.index t1_9 1 * win1_4.size 1 + win1_4.xsize (grid1.coords t1_9) 1
                  rw [show win1_4.index t1_9 1 * win1_4.size 1 = 0 from by decide +kernel, show win1_4.xsize (grid1.coords t1_9) 1 = 128 from by decide +kernel]; omega⟩

end Region
end Cert.KernelIdeal.StatsValue

end
-- ==== Proof.KI.NormValue.lean ====
/- The normalisation's output array, at the ideal values, as a function of the arrays the region finds.

   The body is a tree of entry-by-entry operations over one block of 4000 rows and four rows of per-column numbers
   repeated down the block. Each grid point writes 4000 consecutive rows, the ten points cover all 40000 rows, and
   so after the region every entry of the output is the input's entry less its column's mean, times the reciprocal
   square root of the column's variance plus a small constant, times the column's scale, plus the column's shift,
   clamped below at zero. -/
import proofs.«109383_j39367670235762_1_alg».proof.Proof.KI.Norm
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

-- membership of an index in a rectangle of extent 40000 is decided by structural recursion along the long axis
set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.HandValue

open Cert.KernelIdeal Cert.KernelIdeal.Gen Cert.KernelIdeal.Hand

/-! ## The body's arithmetic, entry by entry -/

/-- Entry `(r, j)` of the output block: the entry of `x` less the mean of column `j`, times the reciprocal square
    root of the variance of column `j` plus `ε`, times the scale of column `j`, plus the shift of column `j`, and
    then the larger of that and zero. `ε` is the float whose word is `0x3727C5AC#32`. -/
theorem norm_block_at (x : FVec Ideal S4000x128 .f32) (mean var gamma beta : FVec Ideal S1x128 .f32) (r : Fin 4000) (j : Fin 128) :
    k2_pay1 (F := Ideal) x mean var gamma beta (ix2 r j)
      = max ((x (ix2 r j) - mean (ix2 (0 : Fin 1) j)) * Ideal.rsqrt (var (ix2 (0 : Fin 1) j) + Ideal.ofBits .f32 0x3727C5AC#32)
            * gamma (ix2 (0 : Fin 1) j) + beta (ix2 (0 : Fin 1) j)) 0 := by
  unfold k2_pay1
  simp only [shapeCast_self]
  show max ((x (ix2 r j) - broadcastTo S4000x128 mean broadcasts_S1x128_S4000x128 (ix2 r j))
        * broadcastTo S4000x128 (rsqrt (addf var (broadcast S1x128 (FloatOps.ofBits (F := Ideal) FTy.f32 0x3727C5AC#32)))) broadcasts_S1x128_S4000x128 (ix2 r j)
        * broadcastTo S4000x128 gamma broadcasts_S1x128_S4000x128 (ix2 r j)
      + broadcastTo S4000x128 beta broadcasts_S1x128_S4000x128 (ix2 r j)) (Ideal.ofBits .f32 0x00000000#32) = _
  rw [broadcastTo_1b_ab_apply mean broadcasts_S1x128_S4000x128 r j,
    broadcastTo_1b_ab_apply (rsqrt (addf var (broadcast S1x128 (FloatOps.ofBits (F := Ideal) FTy.f32 0x3727C5AC#32)))) broadcasts_S1x128_S4000x128 r j,
    broadcastTo_1b_ab_apply gamma broadcasts_S1x128_S4000x128 r j,
    broadcastTo_1b_ab_apply beta broadcasts_S1x128_S4000x128 r j, Ideal.ofBits_zero_f32]
  rfl

section Arrays
-- the TensorCore's buffer contents when the region is entered, at the ideal values
variable (V : (c : Dev nD) → (b : Ref sig .tc) → Buf (Elt Ideal) ((c : Thread nD τ).loc b))

/-! ## Where each block sits in its array -/

theorem hz2 : (![0, 0] : Fin 2 → Nat) = fun _ => 0 := funext fun a => by fin_cases a <;> rfl

/-- The block indices, decided over the ten grid points: the input's block and the output's block are block `t` of
    4000 rows at point `t`; each of the four rows of per-column numbers has one block. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `r` of the input's block at point `t` is row `4000 t + r` of the input. -/
theorem in_rows_at (c : Dev nD) (t : Fin cfg2.N) (r : Fin 4000) (j : Fin 128) (R : Fin 40000) (hR : R.val = 4000 * t.val + r.val) :
    (blk2 V c 0 t : Vec Ideal S4000x128 .f32) (ix2 r j) = (V c main_v28_0 : S40000x128.Idx → EReal) (ix2 R j) := by
  obtain ⟨e0, e1, -⟩ := block_index2 t
  unfold blk2
  rw [View.read_apply]
  show V c main_v28_0 _ = V c main_v28_0 _
  congr 1
  funext a; apply Fin.ext
  match a with
  | ⟨0, _⟩ => show win2_0.index t 0 * 4000 + 1 * r.val = R.val; rw [e0, hR]; omega
  | ⟨1, _⟩ => show win2_0.index t 1 * 128 + 1 * j.val = j.val; rw [e1]; omega

/-- The means' block at any point is the row of means. -/
theorem mean_at (c : Dev nD) (t : Fin cfg2.N) (j : Fin 128) :
    (blk2 V c 1 t : Vec Ideal S1x128 .f32) (ix2 (0 : Fin 1) j) = (V c main_v30 : S1x128.Idx → EReal) (ix2 (0 : Fin 1) j) := by
  obtain ⟨x0, x1, m0, m1, v0, v1, g0, g1, b0, b1, o0, o1⟩ := block_index2 t
  unfold blk2
  rw [View.read_apply]
  show V c main_v30 _ = V c main_v30 _
  congr 1
  funext a; apply Fin.ext
  match a with
  | ⟨0, _⟩ => show win2_1.index t 0 * 1 + 1 * 0 = 0; rw [m0]
  | ⟨1, _⟩ => show win2_1.index t 1 * 128 + 1 * j.val = j.val; rw [m1]; omega

/-- The variances' block at any point is the row of variances. -/
theorem var_at (c : Dev nD) (t : Fin cfg2.N) (j : Fin 128) :
    (blk2 V c 2 t : Vec Ideal S1x128 .f32) (ix2 (0 : Fin 1) j) = (V c main_v34 : S1x128.Idx → EReal) (ix2 (0 : Fin 1) j) := by
  obtain ⟨x0, x1, m0, m1, v0, v1, g0, g1, b0, b1, o0, o1⟩ := block_index2 t
  unfold blk2
  rw [View.read_apply]
  show V c main_v34 _ = V c main_v34 _
  congr 1
  funext a; apply Fin.ext
  match a with
  | ⟨0, _⟩ => show win2_2.index t 0 * 1 + 1 * 0 = 0; rw [v0]
  | ⟨1, _⟩ => show win2_2.index t 1 * 128 + 1 * j.val = j.val; rw [v1]; omega

/-- The scales' block at any point is the row of scales. -/
theorem gamma_at (c : Dev nD) (t : Fin cfg2.N) (j : Fin 128) :
    (blk2 V c 3 t : Vec Ideal S1x128 .f32) (ix2 (0 : Fin 1) j) = (V c main_v35 : S1x128.Idx → EReal) (ix2 (0 : Fin 1) j) := by
  obtain ⟨x0, x1, m0, m1, v0, v1, g0, g1, b0, b1, o0, o1⟩ := block_index2 t
  unfold blk2
  rw [View.read_apply]
  show V c main_v35 _ = V c main_v35 _
  congr 1
  funext a; apply Fin.ext
  match a with
  | ⟨0, _⟩ => show win2_3.index t 0 * 1 + 1 * 0 = 0; rw [g0]
  | ⟨1, _⟩ => show win2_3.index t 1 * 128 + 1 * j.val = j.val; rw [g1]; omega

/-- The shifts' block at any point is the row of shifts. -/
theorem beta_at (c : Dev nD) (t : Fin cfg2.N) (j : Fin 128) :
    (blk2 V c 4 t : Vec Ideal S1x128 .f32) (ix2 (0 : Fin 1) j) = (V c main_v36 : S1x128.Idx → EReal) (ix2 (0 : Fin 1) j) := by
  obtain ⟨x0, x1, m0, m1, v0, v1, g0, g1, b0, b1, o0, o1⟩ := block_index2 t
  unfold blk2
  rw [View.read_apply]
  show V c main_v36 _ = V c main_v36 _
  congr 1
  funext a; apply Fin.ext
  match a with
  | ⟨0, _⟩ => show win2_4.index t 0 * 1 + 1 * 0 = 0; rw [b0]
  | ⟨1, _⟩ => show win2_4.index t 1 * 128 + 1 * j.val = j.val; rw [b1]; omega

/-! ## The output array as a function of the entry arrays -/

/-- The output array: entry by entry, the input less its column's mean, times the reciprocal square root of the
    column's variance plus `ε`, times the column's scale, plus the column's shift, clamped below at zero. -/
def nArr (x : S40000x128.Idx → EReal) (mean var gamma beta : S1x128.Idx → EReal) : S40000x128.Idx → EReal :=
  fun i => max ((x i - mean (ix2 (0 : Fin 1) (i 1))) * Ideal.rsqrt (var (ix2 (0 : Fin 1) (i 1)) + Ideal.ofBits .f32 0x3727C5AC#32)
      * gamma (ix2 (0 : Fin 1) (i 1)) + beta (ix2 (0 : Fin 1) (i 1))) 0

/-- `nArr` at row `ρ`, column `j`. -/
theorem nArr_apply (x : S40000x128.Idx → EReal) (mean var gamma beta : S1x128.Idx → EReal) (ρ : Fin 40000) (j : Fin 128) :
    nArr x mean var gamma beta (ix2 ρ j)
      = max ((x (ix2 ρ j) - mean (ix2 (0 : Fin 1) j)) * Ideal.rsqrt (var (ix2 (0 : Fin 1) j) + Ideal.ofBits .f32 0x3727C5AC#32)
          * gamma (ix2 (0 : Fin 1) j) + beta (ix2 (0 : Fin 1) j)) 0 := rfl

/-- Where entry `(r, j)` of the output block at point `t` sits in the output array: row `4000 t + r`, column `j`. -/
theorem norm_out_emb (t : Fin cfg2.N) (r : Fin 4000) (j : Fin 128) (R : Fin 40000) (hR : R.val = 4000 * t.val + r.val) :
    ((cfg2.win 5).blk t).view.emb (ix2 r j) = ix2 R j := by
  obtain ⟨-, -, -, -, -, -, -, -, -, -, e0, e1⟩ := block_index2 t
  funext a; apply Fin.ext
  match a with
  | ⟨0, _⟩ => show win2_5.index t 0 * 4000 + 1 * r.val = R.val; rw [e0, hR]; omega
  | ⟨1, _⟩ => show win2_5.index t 1 * 128 + 1 * j.val = j.val; rw [e1]; omega

/-- What point `t` writes back to the output array is block `t` of `nArr` of the entry arrays. -/
theorem flushed5_eq (c : Dev nD) (t : Fin cfg2.N) :
    (dat2 V c).flushed 5 t
      = ((cfg2.win 5).blk t).view.read (Elt Ideal) (nArr (V c main_v28_0) (V c main_v30) (V c main_v34) (V c main_v35) (V c main_v36)) := by
  show (cfg2.win 5).cut (grid2.coords t) ((dat2 V c).after 5 t) = _
  rw [after2_5]
  unfold normOut
  rw [View.canon_unit_zero hz2]
  simp only [View.ld_unit_zero (S := S4000x128) hz2, View.ld_unit_zero (S := S1x128) hz2]
  funext y
  obtain ⟨r, j, rfl⟩ : ∃ (r : Fin 4000) (j : Fin 128), y = ix2 r j := ⟨y 0, y 1, eq_ix2 y⟩
  have hN : cfg2.N = 10 := N_2
  have hR : 4000 * t.val + r.val < 40000 := by have := t.isLt; have := r.isLt; omega
  show k2_pay1 (F := Ideal) (blk2 V c 0 t) (blk2 V c 1 t) (blk2 V c 2 t) (blk2 V c 3 t) (blk2 V c 4 t) (ix2 r j)
      = nArr (V c main_v28_0) (V c main_v30) (V c main_v34) (V c main_v35) (V c main_v36) (((cfg2.win 5).blk t).view.emb (ix2 r j))
  rw [norm_out_emb t r j ⟨4000 * t.val + r.val, hR⟩ rfl, nArr_apply]
  refine (norm_block_at (blk2 V c 0 t) (blk2 V c 1 t) (blk2 V c 2 t) (blk2 V c 3 t) (blk2 V c 4 t) r j).trans ?_
  rw [in_rows_at V c t r j ⟨4000 * t.val + r.val, hR⟩ rfl, mean_at V c t j, var_at V c t j, gamma_at V c t j, beta_at V c t j]

/-! ## The blocks tile the array -/

/-- An index of the output array lies in point `t`'s block iff, on each axis, its coordinate is in the block's range. -/
theorem mem_blk5 (t : Fin cfg2.N) (i : S40000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v37).slice (win2_5.rect t)).set ↔ _
  rw [View.set_slice_whole, Rect.mem_set_unit]
  exact Iff.rfl

/-- Row `ρ` of the output array is written by point `ρ / 4000`: every index is in some written-back block. -/
theorem covered5 (i : S40000x128.Idx) : ∃ t : Fin cfg2.N, (cfg2.win 5).flush t = true ∧ i ∈ ((cfg2.win 5).blk t).view.set := by
  have hi0 : (i 0).val < 40000 := idx2_lt0 i
  have hi1 : (i 1).val < 128 := idx2_lt1 i
  have hN : cfg2.N = 10 := N_2
  obtain ⟨t, ht⟩ : ∃ t : Fin cfg2.N, t.val = (i 0).val / 4000 := ⟨⟨(i 0).val / 4000, by rw [hN]; omega⟩, rfl⟩
  obtain ⟨-, -, -, -, -, -, -, -, -, -, e0, e1⟩ := block_index2 t
  refine ⟨t, flush2_5 t, ?_⟩
  rw [mem_blk5]
  intro a
  match a with
  | ⟨0, _⟩ => show win2_5.index t 0 * 4000 ≤ (i 0).val ∧ (i 0).val < win2_5.index t 0 * 4000 + 4000; rw [e0, ht]; omega
  | ⟨1, _⟩ => show win2_5.index t 1 * 128 ≤ (i 1).val ∧ (i 1).val < win2_5.index t 1 * 128 + 128; rw [e1]; omega

/-! ## The array after the region -/

/-- After the region the output array is `nArr` of the arrays the region found. -/
theorem final2_5 (c : Dev nD) :
    (dat2 (F := Ideal) V c).arrAt 5 cfg2.N = nArr (V c main_v28_0) (V c main_v30) (V c main_v34) (V c main_v35) (V c main_v36) :=
  (dat2 V c).arrAt_eq_of_cover 5 (nArr (V c main_v28_0) (V c main_v30) (V c main_v34) (V c main_v35) (V c main_v36))
    (fun t _ => flushed5_eq V c t) covered5

end Arrays

end Cert.KernelIdeal.HandValue

end
-- ==== Proof.KI.Value.lean ====
/-
  The idealized kernel program's result as one term of its arguments, at the ideal values: the run (KI/Run) says what every
  buffer holds at the end as a fold of the seven items over the launch memory; here that fold is walked once, item by item,
  each region's output arrays replaced by the closed forms of its value module and each host stretch by the operations'
  term (KI/Host), down to the seven argument arrays.
  Notation: X the input, E the edge list, Wn and Ws the message and self-loop weight matrices, B the bias, G and Bt scale
  and shift. The stages, in the kernel's flat layout of 40000 rows:
    kH = rows(X) · [Wsᵀ | Wnᵀ] (left half) + B,   kM = rows(X) · [Wsᵀ | Wnᵀ] (right half),
    kAgg = the rows of kM gathered along the edges and summed at their heads,   kS = kH + kAgg,
    mean = column sums of kS over 40000,   var = column sums of kS² over 40000 − mean²,
    result = max((kS − mean) · rsqrt(var + ε) · G + Bt, 0), read as 4 × 10000 × 128.
-/
import proofs.«109383_j39367670235762_1_alg».proof.Proof.KI.Run
import proofs.«109383_j39367670235762_1_alg».proof.Proof.KI.Host
import proofs.«109383_j39367670235762_1_alg».proof.Proof.KI.LinearValue
import proofs.«109383_j39367670235762_1_alg».proof.Proof.KI.StatsValue
import proofs.«109383_j39367670235762_1_alg».proof.Proof.KI.NormValue
set_option maxRecDepth 16384

noncomputable section

namespace Cert.KernelIdeal.HandValue

open Idealize.ShloMosaic Idealize.ShloMosaic.TcCoe Idealize.ShloMosaic.ValueIdx
open Cert.KernelIdeal.Gen Cert.KernelIdeal.Hand

/-! ## The stages -/

/-- The input as 40000 rows. -/
def kRows (x : FVec Ideal S4x10000x128 .f32) : FVec Ideal S40000x128 .f32 :=
  shapeCast S40000x128 x shapeCasts_S4x10000x128_S40000x128
/-- The two weight matrices transposed, side by side. -/
def kWeights (ws wn : FVec Ideal S128x128 .f32) : FVec Ideal S128x256 .f32 :=
  concatenate S128x256 1
    [⟨S128x128, transpose S128x128 [1, 0] ws transposes_S128x128_S128x128_1_0⟩,
     ⟨S128x128, transpose S128x128 [1, 0] wn transposes_S128x128_S128x128_1_0⟩]
    concatenates_S128x128_S128x128_S128x256_d1
/-- A per-channel vector as one row. -/
def kRow (v : FVec Ideal S128 .f32) : FVec Ideal S1x128 .f32 := shapeCast S1x128 v shapeCasts_S128_S1x128

def kH (x : FVec Ideal S4x10000x128 .f32) (ws wn : FVec Ideal S128x128 .f32) (b : FVec Ideal S128 .f32) :
    FVec Ideal S40000x128 .f32 := hArr (kRows x) (kWeights ws wn) (kRow b)
def kM (x : FVec Ideal S4x10000x128 .f32) (ws wn : FVec Ideal S128x128 .f32) : FVec Ideal S40000x128 .f32 :=
  mArr (kRows x) (kWeights ws wn)
/-- The aggregated messages, as 40000 rows. -/
def kAgg (x : FVec Ideal S4x10000x128 .f32) (e : IVec S2x160000 32) (ws wn : FVec Ideal S128x128 .f32) :
    FVec Ideal S40000x128 .f32 :=
  shapeCast S40000x128
    (aggregate (shapeCast S4x10000x128 (kM x ws wn) shapeCasts_S40000x128_S4x10000x128) e)
    shapeCasts_S4x10000x128_S40000x128

/-- The layer before normalisation, as 40000 rows. -/
def kS (x : FVec Ideal S4x10000x128 .f32) (e : IVec S2x160000 32) (ws wn : FVec Ideal S128x128 .f32) (b : FVec Ideal S128 .f32) :
    FVec Ideal S40000x128 .f32 := fun i => kH x ws wn b i + kAgg x e ws wn i
/-- Column sums, and column sums of squares, over the 40000 rows. -/
def kSum (s : FVec Ideal S40000x128 .f32) : FVec Ideal S1x128 .f32 := fun j => ∑ r : Fin 40000, s (ix2 r (j 1))
def kSq (s : FVec Ideal S40000x128 .f32) : FVec Ideal S1x128 .f32 := fun j => ∑ r : Fin 40000, s (ix2 r (j 1)) * s (ix2 r (j 1))
/-- Mean and variance per channel, from the two sums. -/
def kMean (s : FVec Ideal S40000x128 .f32) : FVec Ideal S1x128 .f32 := Host.divf (F := Ideal) (kSum s) countRow
def kVar (s : FVec Ideal S40000x128 .f32) : FVec Ideal S1x128 .f32 :=
  subf (Host.divf (F := Ideal) (kSq s) countRow) (mulf (kMean s) (kMean s))

/-! ## The walk -/

section Walk

variable (m : (ℓ : Loc nD τ sig) → Buf (Elt Ideal) ℓ) (ρ : Dev nD → PrngReg) (c : Dev nD)

/-- An argument array, or any buffer the first stretch does not write, at the linear region's entry. -/
theorem at1 (r : Ref sig .tc) (h0 : r ∉ hostOps0_W) : W1 m ρ c (Proc.devRef .tc r) = m ((c : Thread nD τ).loc r) :=
  keep0 (W0 m ρ c) r h0
theorem at2 (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans (at1 m ρ c r h0)
theorem at3 (r : Ref sig .tc) (h0 : r ∉ hostOps0_W) (a0 : ∀ w, Pipeline.arrRef spec0 w ≠ r) (h1 : r ∉ hostOps1_W) :
    W3 m ρ c (Proc.devRef .tc r) = m ((c : Thread nD τ).loc r) :=
  (keep1 (W2 m ρ c) r h1).trans (at2 m ρ c r h0 a0)
theorem at4 (r : Ref sig .tc) (h0 : r ∉ hostOps0_W) (a0 : ∀ w, Pipeline.arrRef spec0 w ≠ r) (h1 : r ∉ hostOps1_W)
    (a1 : ∀ w, Pipeline.arrRef spec1 w ≠ r) : W4 m ρ c (Proc.devRef .tc r) = m ((c : Thread nD τ).loc r) :=
  (W4_of_ne m ρ c r a1).trans (at3 m ρ c r h0 a0 h1)

/-- The linear region's first output. -/
theorem W2_H : W2 m ρ c (Proc.devRef .tc main_v5_0)
    = kH (m ((c : Thread nD τ).loc main_arg0)) (m ((c : Thread nD τ).loc main_arg3)) (m ((c : Thread nD τ).loc main_arg2))
        (m ((c : Thread nD τ).loc main_arg4)) := by
  refine (W2_arr m ρ c 3).trans ((final0_3 (V1 m ρ) c).trans ?_)
  show hArr (W1 m ρ c (Proc.devRef .tc main_v0)) (W1 m ρ c (Proc.devRef .tc main_v3)) (W1 m ρ c (Proc.devRef .tc main_v4)) = _
  rw [show W1 m ρ c (Proc.devRef .tc main_v0) = _ from rows_eq (W0 m ρ c),
    show W1 m ρ c (Proc.devRef .tc main_v3) = _ from weights_eq (W0 m ρ c),
    show W1 m ρ c (Proc.devRef .tc main_v4) = _ from biasRow_eq (W0 m ρ c)]
  rfl

/-- The linear region's second output. -/
theorem W2_M : W2 m ρ c (Proc.devRef .tc main_v5_1)
    = kM (m ((c : Thread nD τ).loc main_arg0)) (m ((c : Thread nD τ).loc main_arg3)) (m ((c : Thread nD τ).loc main_arg2)) := by
  refine (W2_arr m ρ c 4).trans ((final0_4 (V1 m ρ) c).trans ?_)
  show mArr (W1 m ρ c (Proc.devRef .tc main_v0)) (W1 m ρ c (Proc.devRef .tc main_v3)) = _
  rw [show W1 m ρ c (Proc.devRef .tc main_v0) = _ from rows_eq (W0 m ρ c),
    show W1 m ρ c (Proc.devRef .tc main_v3) = _ from weights_eq (W0 m ρ c)]
  rfl

/-- The statistics region's two inputs. -/
theorem W3_H : W3 m ρ c (Proc.devRef .tc main_v5_0)
    = kH (m ((c : Thread nD τ).loc main_arg0)) (m ((c : Thread nD τ).loc main_arg3)) (m ((c : Thread nD τ).loc main_arg2))
        (m ((c : Thread nD τ).loc main_arg4)) :=
  (keep1 (W2 m ρ c) main_v5_0 (by decide)).trans (W2_H m ρ c)

theorem W3_agg : W3 m ρ c (Proc.devRef .tc main_v27)
    = kAgg (m ((c : Thread nD τ).loc main_arg0)) (m ((c : Thread nD τ).loc main_arg1)) (m ((c : Thread nD τ).loc main_arg3))
        (m ((c : Thread nD τ).loc main_arg2)) := by
  refine (aggRows_eq (W2 m ρ c)).trans ?_
  rw [W2_M m ρ c, at2 m ρ c main_arg1 (by decide) (by decide)]
  rfl

/-- The statistics region's three outputs: the layer, its column sums, the column sums of its squares. -/
theorem W4_S : W4 m ρ c (Proc.devRef .tc main_v28_0)
    = kS (m ((c : Thread nD τ).loc main_arg0)) (m ((c : Thread nD τ).loc main_arg1)) (m ((c : Thread nD τ).loc main_arg3))
        (m ((c : Thread nD τ).loc main_arg2)) (m ((c : Thread nD τ).loc main_arg4)) := by
  refine (W4_arr m ρ c 2).trans ((Cert.KernelIdeal.StatsValue.final1_2 (V3 m ρ) c).trans ?_)
  have e1 : Cert.KernelIdeal.StatsValue.hArr (V3 m ρ) c
      = kH (m ((c : Thread nD τ).loc main_arg0)) (m ((c : Thread nD τ).loc main_arg3)) (m ((c : Thread nD τ).loc main_arg2))
          (m ((c : Thread nD τ).loc main_arg4)) := W3_H m ρ c
  have e2 : Cert.KernelIdeal.StatsValue.gArr (V3 m ρ) c
      = kAgg (m ((c : Thread nD τ).loc main_arg0)) (m ((c : Thread nD τ).loc main_arg1)) (m ((c : Thread nD τ).loc main_arg3))
          (m ((c : Thread nD τ).loc main_arg2)) := W3_agg m ρ c
  rw [e1, e2]
  rfl

theorem W4_sum : W4 m ρ c (Proc.devRef .tc main_v28_1)
    = kSum (kS (m ((c : Thread nD τ).loc main_arg0)) (m ((c : Thread nD τ).loc main_arg1)) (m ((c : Thread nD τ).loc main_arg3))
        (m ((c : Thread nD τ).loc main_arg2)) (m ((c : Thread nD τ).loc main_arg4))) := by
  refine (W4_arr m ρ c 3).trans ((Cert.KernelIdeal.StatsValue.final1_3 (V3 m ρ) c).trans ?_)
  have e1 : Cert.KernelIdeal.StatsValue.hArr (V3 m ρ) c
      = kH (m ((c : Thread nD τ).loc main_arg0)) (m ((c : Thread nD τ).loc main_arg3)) (m ((c : Thread nD τ).loc main_arg2))
          (m ((c : Thread nD τ).loc main_arg4)) := W3_H m ρ c
  have e2 : Cert.KernelIdeal.StatsValue.gArr (V3 m ρ) c
      = kAgg (m ((c : Thread nD τ).loc main_arg0)) (m ((c : Thread nD τ).loc main_arg1)) (m ((c : Thread nD τ).loc main_arg3))
          (m ((c : Thread nD τ).loc main_arg2)) := W3_agg m ρ c
  rw [e1, e2]
  rfl

theorem W4_sq : W4 m ρ c (Proc.devRef .tc main_v28_2)
    = kSq (kS (m ((c : Thread nD τ).loc main_arg0)) (m ((c : Thread nD τ).loc main_arg1)) (m ((c : Thread nD τ).loc main_arg3))
        (m ((c : Thread nD τ).loc main_arg2)) (m ((c : Thread nD τ).loc main_arg4))) := by
  refine (W4_arr m ρ c 4).trans ((Cert.KernelIdeal.StatsValue.final1_4 (V3 m ρ) c).trans ?_)
  have e1 : Cert.KernelIdeal.StatsValue.hArr (V3 m ρ) c
      = kH (m ((c : Thread nD τ).loc main_arg0)) (m ((c : Thread nD τ).loc main_arg3)) (m ((c : Thread nD τ).loc main_arg2))
          (m ((c : Thread nD τ).loc main_arg4)) := W3_H m ρ c
  have e2 : Cert.KernelIdeal.StatsValue.gArr (V3 m ρ) c
      = kAgg (m ((c : Thread nD τ).loc main_arg0)) (m ((c : Thread nD τ).loc main_arg1)) (m ((c : Thread nD τ).loc main_arg3))
          (m ((c : Thread nD τ).loc main_arg2)) := W3_agg m ρ c
  rw [e1, e2]
  rfl

/-- The normalising region's five inputs. -/
theorem W5_S : W5 m ρ c (Proc.devRef .tc main_v28_0)
    = kS (m ((c : Thread nD τ).loc main_arg0)) (m ((c : Thread nD τ).loc main_arg1)) (m ((c : Thread nD τ).loc main_arg3))
        (m ((c : Thread nD τ).loc main_arg2)) (m ((c : Thread nD τ).loc main_arg4)) :=
  (keep2 (W4 m ρ c) main_v28_0 (by decide)).trans (W4_S m ρ c)

theorem W5_mean : W5 m ρ c (Proc.devRef .tc main_v30)
    = kMean (kS (m ((c : Thread nD τ).loc main_arg0)) (m ((c : Thread nD τ).loc main_arg1)) (m ((c : Thread nD τ).loc main_arg3))
        (m ((c : Thread nD τ).loc main_arg2)) (m ((c : Thread nD τ).loc main_arg4))) := by
  refine (meanRow_eq (W4 m ρ c)).trans ?_
  rw [W4_sum m ρ c]
  rfl

theorem W5_var : W5 m ρ c (Proc.devRef .tc main_v34)
    = kVar (kS (m ((c : Thread nD τ).loc main_arg0)) (m ((c : Thread nD τ).loc main_arg1)) (m ((c : Thread nD τ).loc main_arg3))
        (m ((c : Thread nD τ).loc main_arg2)) (m ((c : Thread nD τ).loc main_arg4))) := by
  refine (varRow_eq (W4 m ρ c)).trans ?_
  rw [W4_sum m ρ c, W4_sq m ρ c]
  rfl

theorem W5_scale : W5 m ρ c (Proc.devRef .tc main_v35) = kRow (m ((c : Thread nD τ).loc main_arg5)) := by
  refine (scaleRow_eq (W4 m ρ c)).trans ?_
  rw [at4 m ρ c main_arg5 (by decide) (by decide) (by decide) (by decide)]
  rfl

theorem W5_shift : W5 m ρ c (Proc.devRef .tc main_v36) = kRow (m ((c : Thread nD τ).loc main_arg6)) := by
  refine (shiftRow_eq (W4 m ρ c)).trans ?_
  rw [at4 m ρ c main_arg6 (by decide) (by decide) (by decide) (by decide)]
  rfl

/-- THE KERNEL PROGRAM'S RESULT, as one term of the seven arguments (in the order X, E, Wn, Ws, B, G, Bt). -/
def kerOut (x : FVec Ideal S4x10000x128 .f32) (e : IVec S2x160000 32) (wn ws : FVec Ideal S128x128 .f32)
    (b g bt : FVec Ideal S128 .f32) : FVec Ideal S4x10000x128 .f32 :=
  shapeCast S4x10000x128
    (nArr (kS x e ws wn b) (kMean (kS x e ws wn b)) (kVar (kS x e ws wn b)) (kRow g) (kRow bt))
    shapeCasts_S40000x128_S4x10000x128

theorem result_value : W7 m ρ c (Proc.devRef .tc main_v38)
    = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (result_eq (W6 m ρ c)).trans ?_
  rw [show W6 m ρ c (Proc.devRef .tc main_v37) = _ from (W6_arr m ρ c 5).trans (final2_5 (V5 m ρ) c)]
  show shapeCast S4x10000x128 (nArr (W5 m ρ c (Proc.devRef .tc main_v28_0)) (W5 m ρ c (Proc.devRef .tc main_v30))
    (W5 m ρ c (Proc.devRef .tc main_v34)) (W5 m ρ c (Proc.devRef .tc main_v35)) (W5 m ρ c (Proc.devRef .tc main_v36))) _ = _
  rw [W5_S m ρ c, W5_mean m ρ c, W5_var m ρ c, W5_scale m ρ c, W5_shift m ρ c]
  rfl

end Walk

end Cert.KernelIdeal.HandValue

end
-- ==== Proof.Spec.lean ====
/-
  The arithmetic this certificate rests on, stated over the extended reals and away from both programs.

  A batch-normalised layer needs, per channel, the mean  μ = (∑ᵢ xᵢ) / n  and the (biased) variance of the n = 40000
  rows of that channel. The reference computes the variance as the mean of the squared deviations,
  (∑ᵢ (xᵢ − μ)²) / n; the kernel accumulates ∑ᵢ xᵢ and ∑ᵢ xᵢ² in one pass and forms (∑ᵢ xᵢ²) / n − μ·μ. Over the real
  numbers the two are one number: expanding the square gives ∑ᵢ xᵢ² − 2μ ∑ᵢ xᵢ + n μ², and ∑ᵢ xᵢ = n μ. On the
  extended reals the expansion uses distributivity, which fails at the infinities, so the law is stated for entries
  that ARE real numbers (`IsR`), and the rest of this module shows that being real passes through every operation
  that produces those entries from real inputs: sums, products, differences, a quotient by a non-zero real.
-/
import Idealize.ShloMosaic.PureOps.Ideal
import Idealize.ShloMosaic.PureOps.Ideal.Laws

noncomputable section

namespace Cert.Spec

open Idealize.ShloMosaic

/-- The float word of `40000.0` denotes the real number 40000. -/
theorem ofBits_40000 : Ideal.ofBits .f32 0x471C4000#32 = ((40000 : ℝ) : EReal) := by
  simp [Ideal.ofBits, Ideal.ieee, -EReal.coe_mul]; norm_num

/-- An extended real that is a real number. -/
def IsR (a : EReal) : Prop := ∃ r : ℝ, a = (r : EReal)

theorem IsR.coe (r : ℝ) : IsR (r : EReal) := ⟨r, rfl⟩
theorem IsR.zero : IsR 0 := ⟨0, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of reals, taken in the extended reals, is the real sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem IsR.sum {ι : Type*} (s : Finset ι) (x : ι → EReal) (hx : ∀ i ∈ s, IsR (x i)) : IsR (∑ i ∈ s, x i) := by
  classical
  induction s using Finset.induction_on with
  | empty => simpa using IsR.zero
  | insert a s ha ih =>
    rw [Finset.sum_insert ha]
    exact (hx a (Finset.mem_insert_self a s)).add (ih fun i hi => hx i (Finset.mem_insert_of_mem hi))

/-- The quotient by a non-zero real number is the product with its reciprocal, on every extended real; of a real it is real. -/
theorem IsR.div_coe {a : EReal} (ha : IsR a) {n : ℝ} (hn : n ≠ 0) : IsR (Ideal.div a (n : EReal)) := by
  rw [Ideal.div_coe hn]; exact ha.mul (IsR.coe _)

/-- The variance of real numbers, computed from the two running sums, over ℝ. -/
theorem real_variance {ι : Type*} (s : Finset ι) (f : ι → ℝ) (n : ℝ) (hn : n ≠ 0) (hcard : (s.card : ℝ) = n) :
    (∑ i ∈ s, (f i - (∑ i ∈ s, f i) * (1 / n)) * (f i - (∑ i ∈ s, f i) * (1 / n))) * (1 / n)
      = (∑ i ∈ s, f i * f i) * (1 / n) - ((∑ i ∈ s, f i) * (1 / n)) * ((∑ i ∈ s, f i) * (1 / n)) := by
  set S := ∑ i ∈ s, f i with hS
  set μ := S * (1 / n) with hμ
  have hsq : ∀ i, (f i - μ) * (f i - μ) = f i * f i - 2 * μ * f i + μ * μ := fun i => by ring
  simp only [hsq]
  rw [Finset.sum_add_distrib, Finset.sum_sub_distrib, ← Finset.mul_sum, Finset.sum_const, nsmul_eq_mul, hcard, ← hS]
  have hSμ : S = n * μ := by rw [hμ]; field_simp
  rw [hSμ]; field_simp; ring

/-- THE LAW: for entries that are real numbers, the mean of the squared deviations from the mean is the mean of the
    squares less the squared mean — both read on the extended reals, the quotients by the real `n ≠ 0` the
    number of entries. -/
theorem variance_law {ι : Type*} (s : Finset ι) (x : ι → EReal) (hx : ∀ i ∈ s, IsR (x i)) (n : ℝ) (hn : n ≠ 0)
    (hcard : (s.card : ℝ) = n) :
    Ideal.div (∑ i ∈ s, (x i - Ideal.div (∑ i ∈ s, x i) (n : EReal)) * (x i - Ideal.div (∑ i ∈ s, x i) (n : EReal))) (n : EReal)
      = Ideal.div (∑ i ∈ s, x i * x i) (n : EReal)
          - Ideal.div (∑ i ∈ s, x i) (n : EReal) * Ideal.div (∑ i ∈ s, x i) (n : EReal) := by
  classical
  -- name the real behind every entry of `s` (anything off `s` is never read: take 0 there)
  have hx' : ∀ i, ∃ r : ℝ, i ∈ s → x i = (r : EReal) := fun i => by
    by_cases hi : i ∈ s
    · obtain ⟨r, hr⟩ := hx i hi; exact ⟨r, fun _ => hr⟩
    · exact ⟨0, fun h => absurd h hi⟩
  choose f hf using hx'
  have e1 : ∑ i ∈ s, x i = ((∑ i ∈ s, f i : ℝ) : EReal) := by
    rw [coe_sum]; exact Finset.sum_congr rfl fun i hi => hf i hi
  have e2 : ∑ i ∈ s, x i * x i = ((∑ i ∈ s, f i * f i : ℝ) : EReal) := by
    rw [coe_sum]; exact Finset.sum_congr rfl fun i hi => by rw [hf i hi, EReal.coe_mul]
  have e3 : ∑ i ∈ s, (x i - Ideal.div (∑ i ∈ s, x i) (n : EReal)) * (x i - Ideal.div (∑ i ∈ s, x i) (n : EReal))
      = ((∑ i ∈ s, (f i - (∑ i ∈ s, f i) * (1 / n)) * (f i - (∑ i ∈ s, f i) * (1 / n)) : ℝ) : EReal) := by
    rw [coe_sum]
    refine Finset.sum_congr rfl fun i hi => ?_
    rw [e1, Ideal.div_coe hn, hf i hi, ← EReal.coe_mul, ← EReal.coe_sub, ← EReal.coe_mul]
  rw [e3, e2, e1]
  simp only [Ideal.div_coe hn, ← EReal.coe_mul, ← EReal.coe_sub]
  exact congrArg _ (real_variance s f n hn hcard)

end Cert.Spec

end
-- ==== Proof.RI.Value.lean ====
/-
  The stages of the idealized reference's result read at an index, at the ideal values (floats extended reals,
  every operation exact): the two matrix products as sums over the contracted feature, the bias broadcast, the
  mean and the variance over batch and node as sums over the pairs (batch, node), and the normalised, scaled,
  shifted and rectified output element by element. The aggregation over edges is not opened: it is one named
  function of the messages and the edge table.
-/
import proofs.«109383_j39367670235762_1_alg».proof.Proof.RI.Run
import proofs.«109383_j39367670235762_1_alg».proof.Proof.Spec
import Idealize.ShloMosaic.Lib.IdealHost

noncomputable section

open scoped BigOperators

namespace Cert.ReferenceIdeal.HandValue

open Cert.ReferenceIdeal Cert.ReferenceIdeal.Gen Cert.ReferenceIdeal.Hand Idealize.ShloMosaic Idealize.ShloMosaic.ValueIdx

/-! ## The aggregation over edges, named -/

/-- The messages `msg` accumulated over the edges: into zeros, at each node named by the edge table's second
    row, the sum of the message rows named by its first row. -/
def refAgg {F : FTy → Type} [FloatOps F] (msg : FVec F S4x10000x128 .f32) (e : IVec S2x160000 32) :
    FVec F S4x10000x128 .f32 :=
  Host.scatterAdd scatter_S4x10000x128_S160000x1_S4x160000x128_02_1_1_1
    (broadcastInDim S4x10000x128 ![] bcast_S_S4x10000x128 (constant S_ .f32 0x00000000#32))
    (refIdx (extractStridedSlice S1x160000 ![1, 0] e slices_S2x160000_S1x160000_1_0))
    (Host.gather gather_S4x10000x128_S160000x1_S4x160000x128_02_1_n_n_1_1_41128 msg
      (refIdx (extractStridedSlice S1x160000 ![0, 0] e slices_S2x160000_S1x160000_0_0)))

/-- The layer before normalisation is the linear part plus the aggregation of the messages `X·W_nodeᵀ`. -/
theorem refS_eq {F : FTy → Type} [FloatOps F] (x : FVec F S4x10000x128 .f32) (e : IVec S2x160000 32)
    (wn ws : FVec F S128x128 .f32) (b : FVec F S128 .f32) :
    refS x e wn ws b
      = addf
          (addf (Host.dotGeneral dot_S4x10000x128_S128x128_S4x10000x128_2_1_01_0_n_n none x ws)
            (broadcastInDim S4x10000x128 ![0, 1, 2] bcast_S1x1x128_S4x10000x128_0_1_2
              (broadcastInDim S1x1x128 ![2] bcast_S128_S1x1x128_2 b)))
          (refAgg (Host.dotGeneral dot_S4x10000x128_S128x128_S4x10000x128_2_1_01_0_n_n none x wn) e) := rfl

/-! ## Broadcasts at an index -/

/-- A per-feature vector broadcast over batch and node reads, at (batch, node, feature), its entry at the feature. -/
theorem bcastFeat_apply {α : Type} (v : S128.Idx → α) (p : Fin 4) (q : Fin 10000) (j : Fin 128) :
    broadcastInDim S4x10000x128 ![0, 1, 2] bcast_S1x1x128_S4x10000x128_0_1_2
      (broadcastInDim S1x1x128 ![2] bcast_S128_S1x1x128_2 v) (ix3 p q j) = v (ix1 j) := by
  unfold broadcastInDim
  exact congrArg v (funext fun a => by match a with | ⟨0, _⟩ => rfl)

/-! ## The matrix products at an index -/

/-- The left operand's index on its two free axes is the result's batch and node; on the contracted axis, the
    contraction position's one coordinate. -/
theorem lhsIdx_0 (i : S4x10000x128.Idx) (c : (dot_S4x10000x128_S128x128_S4x10000x128_2_1_01_0_n_n).contr.Idx) :
    ((dot_S4x10000x128_S128x128_S4x10000x128_2_1_01_0_n_n).lhsIdx i c 0).val = (i 0).val := by
  unfold DotDims.lhsIdx
  rw [dif_neg (show ¬(0 : Fin S4x10000x128.rank) ∈ (dot_S4x10000x128_S128x128_S4x10000x128_2_1_01_0_n_n).lhsBatch by decide),
    dif_pos (show (0 : Fin S4x10000x128.rank) ∈ (dot_S4x10000x128_S128x128_S4x10000x128_2_1_01_0_n_n).lhsNonContracting by decide)]
  rfl
theorem lhsIdx_1 (i : S4x10000x128.Idx) (c : (dot_S4x10000x128_S128x128_S4x10000x128_2_1_01_0_n_n).contr.Idx) :
    ((dot_S4x10000x128_S128x128_S4x10000x128_2_1_01_0_n_n).lhsIdx i c 1).val = (i 1).val := by
  unfold DotDims.lhsIdx
  rw [dif_neg (show ¬(1 : Fin S4x10000x128.rank) ∈ (dot_S4x10000x128_S128x128_S4x10000x128_2_1_01_0_n_n).lhsBatch by decide),
    dif_pos (show (1 : Fin S4x10000x128.rank) ∈ (dot_S4x10000x128_S128x128_S4x10000x128_2_1_01_0_n_n).lhsNonContracting by decide)]
  rfl
theorem lhsIdx_2 (i : S4x10000x128.Idx) (c : (dot_S4x10000x128_S128x128_S4x10000x128_2_1_01_0_n_n).contr.Idx) :
    ((dot_S4x10000x128_S128x128_S4x10000x128_2_1_01_0_n_n).lhsIdx i c 2).val = (c ⟨0, by decide⟩).val :=
  (dot_S4x10000x128_S128x128_S4x10000x128_2_1_01_0_n_n).lhsIdx_val_of_single rfl i c
/-- The right operand's index on its free axis is the result's feature; on the contracted axis, the contraction
    position's one coordinate. -/
theorem rhsIdx_0 (i : S4x10000x128.Idx) (c : (dot_S4x10000x128_S128x128_S4x10000x128_2_1_01_0_n_n).contr.Idx) :
    ((dot_S4x10000x128_S128x128_S4x10000x128_2_1_01_0_n_n).rhsIdx i c 0).val = (i 2).val := by
  unfold DotDims.rhsIdx
  rw [dif_neg (show ¬(0 : Fin S128x128.rank) ∈ (dot_S4x10000x128_S128x128_S4x10000x128_2_1_01_0_n_n).rhsBatch by decide),
    dif_pos (show (0 : Fin S128x128.rank) ∈ (dot_S4x10000x128_S128x128_S4x10000x128_2_1_01_0_n_n).rhsNonContracting by decide)]
  rfl
theorem rhsIdx_1 (i : S4x10000x128.Idx) (c : (dot_S4x10000x128_S128x128_S4x10000x128_2_1_01_0_n_n).contr.Idx) :
    ((dot_S4x10000x128_S128x128_S4x10000x128_2_1_01_0_n_n).rhsIdx i c 1).val = (c ⟨0, by decide⟩).val :=
  (dot_S4x10000x128_S128x128_S4x10000x128_2_1_01_0_n_n).rhsIdx_val_of_single rfl i c

/-- `X·Wᵀ` at (batch `p`, node `q`, feature `j`): the sum over the contracted feature `k` of `X[p, q, k] · W[j, k]`. -/
theorem refMsg_apply (x : FVec Ideal S4x10000x128 .f32) (w : FVec Ideal S128x128 .f32) (p : Fin 4) (q : Fin 10000)
    (j : Fin 128) :
    Host.dotGeneral (F := Ideal) dot_S4x10000x128_S128x128_S4x10000x128_2_1_01_0_n_n none x w (ix3 p q j)
      = ∑ k : Fin 128, x (ix3 p q k) * w (ix2 j k) := by
  simp only [Host.dotGeneral]
  rw [Ideal.dotGeneral_apply, ← Equiv.sum_comp (contrEquiv1 dot_S4x10000x128_S128x128_S4x10000x128_2_1_01_0_n_n 128 rfl rfl).symm]
  refine Finset.sum_congr rfl fun k _ => ?_
  have hk := contrEquiv1_symm_val dot_S4x10000x128_S128x128_S4x10000x128_2_1_01_0_n_n 128 rfl rfl k
  have el : (dot_S4x10000x128_S128x128_S4x10000x128_2_1_01_0_n_n).lhsIdx (ix3 p q j) ((contrEquiv1 dot_S4x10000x128_S128x128_S4x10000x128_2_1_01_0_n_n 128 rfl rfl).symm k) = ix3 p q k :=
    funext fun a => Fin.ext (by
      match a with
      | ⟨0, _⟩ => exact lhsIdx_0 (ix3 p q j) _
      | ⟨1, _⟩ => exact lhsIdx_1 (ix3 p q j) _
      | ⟨2, _⟩ => exact (lhsIdx_2 (ix3 p q j) _).trans hk)
  have er : (dot_S4x10000x128_S128x128_S4x10000x128_2_1_01_0_n_n).rhsIdx (ix3 p q j) ((contrEquiv1 dot_S4x10000x128_S128x128_S4x10000x128_2_1_01_0_n_n 128 rfl rfl).symm k) = ix2 j k :=
    funext fun a => Fin.ext (by
      match a with
      | ⟨0, _⟩ => exact rhsIdx_0 (ix3 p q j) _
      | ⟨1, _⟩ => exact (rhsIdx_1 (ix3 p q j) _).trans hk)
  rw [el, er]

/-- The linear part `X·Wᵀ + b` at (batch, node, feature). -/
theorem refLin_apply (x : FVec Ideal S4x10000x128 .f32) (w : FVec Ideal S128x128 .f32) (b : FVec Ideal S128 .f32)
    (p : Fin 4) (q : Fin 10000) (j : Fin 128) :
    addf (Host.dotGeneral (F := Ideal) dot_S4x10000x128_S128x128_S4x10000x128_2_1_01_0_n_n none x w)
        (broadcastInDim S4x10000x128 ![0, 1, 2] bcast_S1x1x128_S4x10000x128_0_1_2
          (broadcastInDim S1x1x128 ![2] bcast_S128_S1x1x128_2 b)) (ix3 p q j)
      = (∑ k : Fin 128, x (ix3 p q k) * w (ix2 j k)) + b (ix1 j) := by
  rw [addf_apply, refMsg_apply, bcastFeat_apply]

/-! ## Constants -/

/-- The word `0x471C4000` is the real `40000`. -/
theorem ofBits_40000 : Ideal.ofBits .f32 0x471C4000#32 = ((40000 : ℝ) : EReal) := by
  simp [Ideal.ofBits, Ideal.ieee, -EReal.coe_mul]; norm_num

/-! ## The sums over batch and node -/

/-- A source index drops to feature `k` exactly when its feature coordinate is `k`. -/
theorem drop_eq_iff (i : S4x10000x128.Idx) (k : Fin 128) :
    reducesTo_S4x10000x128_S128_d0_1.drop i = ix1 k ↔ i 2 = k := by
  constructor
  · intro h
    have h0 := congrArg (fun f : S128.Idx => (f 0).val) h
    exact Fin.ext ((Shape.ReducesTo.drop_apply_val_of_eq reducesTo_S4x10000x128_S128_d0_1 i 0 2).symm.trans h0)
  · intro h
    funext b
    match b with
    | ⟨0, _⟩ => exact Fin.ext ((Shape.ReducesTo.drop_apply_val_of_eq reducesTo_S4x10000x128_S128_d0_1 i 0 2).trans (congrArg Fin.val h))

/-- The host's sum over batch and node at feature `k`: the initial value plus the sum over the pairs (batch, node). -/
theorem hostSum_apply (x : S4x10000x128.Idx → EReal) (init : EReal) (k : Fin 128) :
    Ideal.hostReduceAdd reducesTo_S4x10000x128_S128_d0_1 x init (ix1 k) = init + ∑ p : Fin 4 × Fin 10000, x (ix3 p.1 p.2 k) := by
  unfold Ideal.hostReduceAdd
  congr 1
  symm
  refine Finset.sum_bij (fun p _ => ix3 p.1 p.2 k) ?_ ?_ ?_ ?_
  · intro p _
    exact Finset.mem_filter.mpr ⟨Finset.mem_univ _, (drop_eq_iff _ k).mpr rfl⟩
  · intro p _ q _ h
    exact Prod.ext (congrFun h 0) (congrFun h 1)
  · intro i hi
    have h2 := (drop_eq_iff i k).mp (Finset.mem_filter.mp hi).2
    exact ⟨(i 0, i 1), Finset.mem_univ _, by rw [← h2]; exact (eq_ix3 i).symm⟩
  · intro p _; rfl

/-- The host's sum from the zero word: the sum over the pairs. -/
theorem hostSum0_apply (x : FVec Ideal S4x10000x128 .f32) (k : Fin 128) :
    Host.reduceAdd x (constant (F := Ideal) S_ .f32 0x00000000#32) reducesTo_S4x10000x128_S128_d0_1 h_S_ (ix1 k)
      = ∑ p : Fin 4 × Fin 10000, x (ix3 p.1 p.2 k) := by
  rw [hostReduceAdd_apply, hostSum_apply]
  show Ideal.ofBits .f32 0x00000000#32 + _ = _
  rw [Ideal.ofBits_zero_f32, zero_add]

/-! ## The mean -/

/-- The mean at feature `k`: the sum over batch and node divided by the constant `40000` (the word `0x471C4000`). -/
theorem refMean_apply (s : FVec Ideal S4x10000x128 .f32) (k : Fin 128) :
    refMean s (ix1 k)
      = Ideal.div (∑ p : Fin 4 × Fin 10000, s (ix3 p.1 p.2 k)) (Ideal.ofBits .f32 0x471C4000#32) := by
  unfold refMean
  rw [hostDivf_apply, hostSum0_apply, broadcastInDim_scalar_apply]
  rfl

/-- A rank-3 array with unit batch and node axes broadcast over batch and node reads its entry at the feature. -/
theorem bcast3_apply {α : Type} (v : S1x1x128.Idx → α) (p : Fin 4) (q : Fin 10000) (j : Fin 128) :
    broadcastInDim S4x10000x128 ![0, 1, 2] bcast_S1x1x128_S4x10000x128_0_1_2 v (ix3 p q j) = v (ix3 (0 : Fin 1) (0 : Fin 1) j) := by
  unfold broadcastInDim
  exact congrArg v (funext fun a => by match a with | ⟨0, _⟩ => rfl | ⟨1, _⟩ => rfl | ⟨2, _⟩ => rfl)

/-- A per-feature vector given unit batch and node axes reads its entry at the feature. -/
theorem bcast1_apply {α : Type} (v : S128.Idx → α) (a b : Fin 1) (j : Fin 128) :
    broadcastInDim S1x1x128 ![2] bcast_S128_S1x1x128_2 v (ix3 a b j) = v (ix1 j) := by
  unfold broadcastInDim
  exact congrArg v (funext fun c => by match c with | ⟨0, _⟩ => rfl)

/-- The variance function's own mean, broadcast back, is the mean at the feature. -/
theorem refVarMean_apply (s : FVec Ideal S4x10000x128 .f32) (p : Fin 4) (q : Fin 10000) (k : Fin 128) :
    refVarMean s (ix3 p q k) = refMean s (ix1 k) := by
  rw [refMean_apply]
  unfold refVarMean
  rw [bcast3_apply, hostDivf_apply, bcast1_apply, hostSum0_apply, broadcastInDim_scalar_apply]
  rfl

/-! ## The variance -/

/-- The variance function's count `40000 − 0` is the real `40000`. -/
theorem refCount_apply : (refCount (F := Ideal)) ix0 = ((40000 : ℝ) : EReal) := by
  show Ideal.ofBits .f32 0x471C4000#32 - (((0#32 : BitVec 32).toInt : ℝ) : EReal) = _
  rw [ofBits_40000]; simp

/-- The variance at feature `k`: the count is positive, so the select takes the quotient — the sum over batch and
    node of the squared deviations from the mean, divided by `40000`; the not-a-number constant of the other
    branch is never read. -/
theorem refVar_apply (s : FVec Ideal S4x10000x128 .f32) (k : Fin 128) :
    refVar s (ix1 k)
      = Ideal.div
          (∑ p : Fin 4 × Fin 10000,
            (s (ix3 p.1 p.2 k) - refMean s (ix1 k)) * (s (ix3 p.1 p.2 k) - refMean s (ix1 k)))
          (Ideal.ofBits .f32 0x471C4000#32) := by
  unfold refVar
  rw [select_apply, broadcastInDim_scalar_apply, broadcastInDim_scalar_apply, hostDivf_apply, hostSum0_apply,
    broadcastInDim_scalar_apply, cmpf_apply, refCount_apply]
  have hc : FloatOps.cmpf (F := Ideal) .ogt ((40000 : ℝ) : EReal) (constant (F := Ideal) S_ .f32 0x00000000#32 ix0) = 1#1 := by
    show Ideal.cmp .ogt ((40000 : ℝ) : EReal) (Ideal.ofBits .f32 0x00000000#32) = 1#1
    rw [Ideal.ofBits_zero_f32]
    simp [Ideal.cmp]
  rw [hc, select_one, ofBits_40000]
  refine congrArg (fun t => Ideal.div t _) (Finset.sum_congr rfl fun p _ => ?_)
  rw [mulf_apply, subf_apply, refVarMean_apply]

/-! ## The output -/

/-- The host's reciprocal square root at an index is the ideal one of the element. -/
theorem hostRsqrt_apply {s : Shape} {φ : FTy} (a : FVec Ideal s φ) (i : s.Idx) : Host.rsqrt a i = Ideal.rsqrt (a i) := rfl

/-- The output at (batch, node, feature): the element centred by the mean, scaled by the reciprocal square root of
    the variance plus `ε` (the word `0x3727C5AC`), by `γ`, shifted by `β`, and rectified. -/
theorem refTail_apply (s : FVec Ideal S4x10000x128 .f32) (mean var gam bet : FVec Ideal S128 .f32) (p : Fin 4)
    (q : Fin 10000) (j : Fin 128) :
    refTail s mean var gam bet (ix3 p q j)
      = max ((s (ix3 p q j) - mean (ix1 j)) * Ideal.rsqrt (var (ix1 j) + Ideal.ofBits .f32 0x3727C5AC#32)
            * gam (ix1 j) + bet (ix1 j)) 0 := by
  unfold refTail
  rw [maximumf_apply, addf_apply, mulf_apply, mulf_apply, subf_apply, bcastFeat_apply, bcastFeat_apply, bcastFeat_apply,
    bcastFeat_apply, broadcastInDim_scalar_apply, hostRsqrt_apply, addf_apply, broadcastInDim_scalar_apply,
    constant_apply, constant_apply, Ideal.ofBits_zero_f32]

/-- The same at any index, its feature coordinate `i 2`. -/
theorem refTail_apply_idx (s : FVec Ideal S4x10000x128 .f32) (mean var gam bet : FVec Ideal S128 .f32)
    (i : S4x10000x128.Idx) :
    refTail s mean var gam bet i
      = max ((s i - mean (ix1 (i 2))) * Ideal.rsqrt (var (ix1 (i 2)) + Ideal.ofBits .f32 0x3727C5AC#32)
            * gam (ix1 (i 2)) + bet (ix1 (i 2))) 0 := by
  exact (congrArg (fun t : S4x10000x128.Idx => refTail s mean var gam bet t
      = max ((s t - mean (ix1 (i 2))) * Ideal.rsqrt (var (ix1 (i 2)) + Ideal.ofBits .f32 0x3727C5AC#32)
            * gam (ix1 (i 2)) + bet (ix1 (i 2))) 0) (eq_ix3 i)).mpr
    (refTail_apply s mean var gam bet (i 0) (i 1) (i 2))

/-! ## The variance from the two running sums -/

/-- For an array of real entries the variance at feature `k` is the mean of the squares minus the square of the
    mean: the squared deviations expanded, and the sum of the entries being `40000` times the mean. -/
theorem refVar_twoSums (s : FVec Ideal S4x10000x128 .f32) (hs : ∀ i, Cert.Spec.IsR (s i)) (k : Fin 128) :
    refVar s (ix1 k)
      = Ideal.div (∑ p : Fin 4 × Fin 10000, s (ix3 p.1 p.2 k) * s (ix3 p.1 p.2 k)) (Ideal.ofBits .f32 0x471C4000#32)
          - refMean s (ix1 k) * refMean s (ix1 k) := by
  rw [refVar_apply, refMean_apply, ofBits_40000]
  exact Cert.Spec.variance_law Finset.univ (fun p : Fin 4 × Fin 10000 => s (ix3 p.1 p.2 k)) (fun p _ => hs _) 40000
    (by norm_num) (by simp [Finset.card_univ, Fintype.card_prod])

end Cert.ReferenceIdeal.HandValue

end
-- ==== Proof.Layout.lean ====
/-
  Layout facts used on both sides of the certificate, stated over literal shapes and any element type.

  The kernel works on the node features flattened to 40000 = 4 · 10000 rows, the reference on the 4 × 10000 × 128 array
  itself. Row `r` of the flat array is node `r % 10000` of batch `r / 10000` (row-major order), so a reshape read at an index
  is the other array at the index with the same row-major position. The kernel multiplies by ONE 128 × 256 weight matrix,
  the two transposed weight matrices side by side: its column `j < 128` is row `j` of the first matrix and its column
  `128 + j` is row `j` of the second. A sum over the 40000 flat rows is the sum over (batch, node) pairs.
-/
import Idealize.ShloMosaic.Lib.Pipeline.Value
import Idealize.ShloMosaic.Lib.ValueIdx
import Idealize.ShloMosaic.Lib.ValueLayout

noncomputable section

namespace Cert.Layout

open Idealize.ShloMosaic Idealize.ShloMosaic.ValueIdx

variable {α : Type}

abbrev S3 : Shape := ⟨3, ![4, 10000, 128]⟩
abbrev S2 : Shape := ⟨2, ![40000, 128]⟩

/-- The flat row of node `q` of batch `p`. -/
def flatRow (p : Fin 4) (q : Fin 10000) : Fin 40000 := ⟨p.val * 10000 + q.val, by have := p.isLt; have := q.isLt; omega⟩
/-- The batch and the node of a flat row. -/
def rowBatch (r : Fin 40000) : Fin 4 := ⟨r.val / 10000, by have := r.isLt; omega⟩
def rowNode (r : Fin 40000) : Fin 10000 := ⟨r.val % 10000, Nat.mod_lt _ (by decide)⟩

theorem flatRow_rowBatch_rowNode (r : Fin 40000) : flatRow (rowBatch r) (rowNode r) = r :=
  Fin.ext (by show r.val / 10000 * 10000 + r.val % 10000 = r.val; omega)
theorem rowBatch_flatRow (p : Fin 4) (q : Fin 10000) : rowBatch (flatRow p q) = p :=
  Fin.ext (by show (p.val * 10000 + q.val) / 10000 = p.val; have := q.isLt; omega)
theorem rowNode_flatRow (p : Fin 4) (q : Fin 10000) : rowNode (flatRow p q) = q :=
  Fin.ext (by show (p.val * 10000 + q.val) % 10000 = q.val; have := q.isLt; omega)

/-- The 4 × 10000 × 128 array flattened to 40000 × 128, read at row `r`, column `j`. -/
theorem flatten_apply (x : S3.Idx → α) (h : S3.ShapeCasts S2) (r : Fin 40000) (j : Fin 128) :
    shapeCast S2 x h (ix2 r j) = x (ix3 (rowBatch r) (rowNode r) j) :=
  shapeCast_apply x h _ _ (by
    rw [Shape.rowMajor_val_three, Shape.rowMajor_val_two]
    show ((r.val / 10000) * 10000 + r.val % 10000) * 128 + j.val = r.val * 128 + j.val
    have := r.isLt; omega)

/-- The 40000 × 128 array read as 4 × 10000 × 128, at batch `p`, node `q`, column `j`. -/
theorem unflatten_apply (y : S2.Idx → α) (h : S2.ShapeCasts S3) (p : Fin 4) (q : Fin 10000) (j : Fin 128) :
    shapeCast S3 y h (ix3 p q j) = y (ix2 (flatRow p q) j) :=
  shapeCast_apply y h _ _ (by
    rw [Shape.rowMajor_val_three, Shape.rowMajor_val_two]
    show (p.val * 10000 + q.val) * 128 + j.val = (p.val * 10000 + q.val) * 128 + j.val
    rfl)

/-- A sum over the flat rows is the sum over (batch, node) pairs. -/
theorem sum_flatRows {M : Type*} [AddCommMonoid M] (f : Fin 40000 → M) :
    ∑ r : Fin 40000, f r = ∑ p : Fin 4 × Fin 10000, f (flatRow p.1 p.2) := by
  refine (Fintype.sum_equiv
    { toFun := fun p : Fin 4 × Fin 10000 => flatRow p.1 p.2
      invFun := fun r => (rowBatch r, rowNode r)
      left_inv := fun p => Prod.ext (rowBatch_flatRow p.1 p.2) (rowNode_flatRow p.1 p.2)
      right_inv := fun r => flatRow_rowBatch_rowNode r } _ _ fun _ => rfl).symm

abbrev SW : Shape := ⟨2, ![128, 128]⟩
abbrev SWW : Shape := ⟨2, ![128, 256]⟩

/-- Column `j < 128` of the two transposed matrices set side by side is row `j` of the first. -/
theorem weights_left (a b : SW.Idx → α) (ht : SW.Transposes [1, 0] SW) (hc : Shape.Concatenates [SW, SW] SWW 1)
    (k j : Fin 128) :
    concatenate SWW 1 [⟨SW, transpose SW [1, 0] a ht⟩, ⟨SW, transpose SW [1, 0] b ht⟩] hc
      (ix2 k (⟨j.val, by have := j.isLt; omega⟩ : Fin 256)) = a (ix2 j k) := by
  exact (concatenate_pair_apply_left (t := SWW) (s₁ := SW) (s₂ := SW) (1 : Fin 2) (transpose SW [1, 0] a ht)
    (transpose SW [1, 0] b ht) hc (ix2 k (⟨j.val, by have := j.isLt; omega⟩ : Fin 256)) rfl (ix2 k j)
    (fun c => match c with | ⟨0, _⟩ => rfl | ⟨1, _⟩ => rfl)).trans (transpose_ix2_apply a ht k j)

/-- Column `128 + j` is row `j` of the second. -/
theorem weights_right (a b : SW.Idx → α) (ht : SW.Transposes [1, 0] SW) (hc : Shape.Concatenates [SW, SW] SWW 1)
    (k j : Fin 128) :
    concatenate SWW 1 [⟨SW, transpose SW [1, 0] a ht⟩, ⟨SW, transpose SW [1, 0] b ht⟩] hc
      (ix2 k (⟨j.val + 128, by have := j.isLt; omega⟩ : Fin 256)) = b (ix2 j k) := by
  exact (concatenate_pair_apply_right (t := SWW) (s₁ := SW) (s₂ := SW) (1 : Fin 2) (transpose SW [1, 0] a ht)
    (transpose SW [1, 0] b ht) hc (ix2 k (⟨j.val + 128, by have := j.isLt; omega⟩ : Fin 256)) rfl rfl (ix2 k j)
    (fun c hne => match c, hne with | ⟨0, _⟩, _ => rfl | ⟨1, _⟩, hne => absurd rfl hne) rfl).trans
    (transpose_ix2_apply b ht k j)

end Cert.Layout

end
-- ==== Proof.Reals.lean ====
/-
  Real inputs give a real layer. Every entry of the layer before normalisation,
      S = (X · W_selfᵀ + b) + A,    A the messages X · W_nodeᵀ gathered along the edges and summed at their heads,
  is built from entries of X, the two weight matrices and the bias by finitely many products and sums (a gather only
  picks an entry; a scatter-add into zeros adds up the entries that land on a node, whichever they are). So when those
  inputs are real numbers, so is every entry of S — which is what the variance law (Spec) asks of the data it is applied
  to. Nothing here depends on WHICH edges there are: the edge list is read only as an index set.
-/
import proofs.«109383_j39367670235762_1_alg».proof.Proof.Spec
import proofs.«109383_j39367670235762_1_alg».proof.Proof.RI.Run
import Idealize.ShloMosaic.PureOps.Ideal.Laws
import Idealize.ShloMosaic.Lib.ValueIdx

noncomputable section

namespace Cert.Reals

open Idealize.ShloMosaic Cert.Spec
open Cert.ReferenceIdeal Cert.ReferenceIdeal.Gen Cert.ReferenceIdeal.Hand

/-- A host matrix product of real matrices is real: each entry is a finite sum of products. -/
theorem dot_real {sl sr so : Shape} (d : DotDims sl sr so) (x : FVec Ideal sl .f32) (w : FVec Ideal sr .f32)
    (hx : ∀ i, IsR (x i)) (hw : ∀ i, IsR (w i)) (j : so.Idx) : IsR (Host.dotGeneral (F := Ideal) d none x w j) := by
  show IsR (FloatOps.dotGeneral d none .single x w j)
  rw [Ideal.dotGeneral_apply]
  exact IsR.sum _ _ fun k _ => (hx _).mul (hw _)

/-- A scatter-add of real updates into a real array is real: each entry is the old entry plus a finite sum of updates. -/
theorem scatterAdd_real {s si su : Shape} (d : ScatterDims s si su) {w : Nat} (x : FVec Ideal s .f32) (idx : IVec si w)
    (upd : FVec Ideal su .f32) (hx : ∀ i, IsR (x i)) (hu : ∀ j, IsR (upd j)) (i : s.Idx) :
    IsR (Host.scatterAdd (F := Ideal) d x idx upd i) := by
  show IsR (x i + ∑ j ∈ _, upd j)
  exact (hx i).add (IsR.sum _ _ fun j _ => hu j)

/-- The layer before normalisation is real wherever the input, the two weight matrices and the bias are. -/
theorem layer_real (x : FVec Ideal S4x10000x128 .f32) (e : IVec S2x160000 32) (wn ws : FVec Ideal S128x128 .f32)
    (b : FVec Ideal S128 .f32) (hx : ∀ i, IsR (x i)) (hwn : ∀ i, IsR (wn i)) (hws : ∀ i, IsR (ws i)) (hb : ∀ i, IsR (b i)) :
    ∀ i, IsR (refS (F := Ideal) x e wn ws b i) := by
  intro i
  unfold refS
  show IsR ((_ + _) + _)
  refine IsR.add (IsR.add (dot_real _ x ws hx hws i) ?_) (scatterAdd_real _ _ _ _ ?_ ?_ i)
  · exact hb _
  · intro i'
    show IsR (Ideal.ofBits .f32 0x00000000#32)
    rw [Ideal.ofBits_zero_f32]; exact IsR.zero
  · intro j
    exact dot_real _ x wn hx hwn _

end Cert.Reals

end
-- ==== Proof.Bridge.lean ====
/-
  The two programs compute one function. Index by index, at the ideal values:
  * the kernel's flat row `r` is node `r % 10000` of batch `r / 10000`, and its one product with the two transposed weight
    matrices side by side is, column by column, the reference's two products (Layout);
  * so the messages agree, and with them the aggregated messages — both programs apply the SAME gather and scatter-add to
    them, which is never opened — and the layer before normalisation: the kernel's `kS` is the reference's `S` flattened;
  * the kernel's column sums over 40000 rows are the reference's sums over (batch, node), so the means agree; the variances
    agree by the variance law (Spec), which needs the entries of `S` to be real numbers — they are when the inputs are
    (Reals);
  * the last, pointwise stage is the same expression on both sides.
-/
import proofs.«109383_j39367670235762_1_alg».proof.Proof.KI.Value
import proofs.«109383_j39367670235762_1_alg».proof.Proof.RI.Value
import proofs.«109383_j39367670235762_1_alg».proof.Proof.Layout
import proofs.«109383_j39367670235762_1_alg».proof.Proof.Spec
import proofs.«109383_j39367670235762_1_alg».proof.Proof.Reals
import Idealize.ShloMosaic.PureOps.Ideal.Laws

set_option maxRecDepth 16384

noncomputable section

namespace Cert.Bridge

open Idealize.ShloMosaic Idealize.ShloMosaic.ValueIdx
open Cert.Layout Cert.Spec
open Cert.KernelIdeal.HandValue

local notation "S3D" => Cert.ReferenceIdeal.S4x10000x128
local notation "SFlat" => Cert.KernelIdeal.S40000x128
local notation "SMat" => Cert.ReferenceIdeal.S128x128
local notation "SVec" => Cert.ReferenceIdeal.S128

/-! ## The linear parts -/

/-- A per-channel vector set as one row, read at column `j`. -/
theorem kRow_apply (v : FVec Ideal SVec .f32) (j : Fin 128) : kRow v (ix2 (0 : Fin 1) j) = v (ix1 j) :=
  shapeCast_apply v _ _ _ (by
    rw [Shape.rowMajor_val_one, Shape.rowMajor_val_two]
    show j.val = 0 * 128 + j.val
    omega)

/-- The kernel's first linear output at flat row `r`, column `j`: row `r`'s node features against row `j` of the self-loop
    matrix, plus the bias. -/
theorem kH_apply (x : FVec Ideal S3D .f32) (ws wn : FVec Ideal SMat .f32) (b : FVec Ideal SVec .f32) (r : Fin 40000) (j : Fin 128) :
    kH x ws wn b (ix2 r j) = (∑ k : Fin 128, x (ix3 (rowBatch r) (rowNode r) k) * ws (ix2 j k)) + b (ix1 j) := by
  unfold kH
  rw [hArr_apply, kRow_apply]
  refine congrArg (· + _) (Finset.sum_congr rfl fun k _ => ?_)
  rw [show kRows x (ix2 r k) = _ from flatten_apply x _ r k,
    show kWeights ws wn (ix2 k _) = _ from weights_left ws wn _ _ k j]

/-- The kernel's second linear output: against row `j` of the message matrix. -/
theorem kM_apply (x : FVec Ideal S3D .f32) (ws wn : FVec Ideal SMat .f32) (r : Fin 40000) (j : Fin 128) :
    kM x ws wn (ix2 r j) = ∑ k : Fin 128, x (ix3 (rowBatch r) (rowNode r) k) * wn (ix2 j k) := by
  unfold kM
  rw [mArr_apply]
  refine Finset.sum_congr rfl fun k _ => ?_
  rw [show kRows x (ix2 r k) = _ from flatten_apply x _ r k,
    show kWeights ws wn (ix2 k _) = _ from weights_right ws wn _ _ k j]

/-- The kernel's messages, read as 4 × 10000 × 128, are the reference's. -/
theorem messages_eq (x : FVec Ideal S3D .f32) (ws wn : FVec Ideal SMat .f32) :
    shapeCast S3D (kM x ws wn) Cert.KernelIdeal.Gen.shapeCasts_S40000x128_S4x10000x128
      = Host.dotGeneral (F := Ideal) Cert.ReferenceIdeal.dot_S4x10000x128_S128x128_S4x10000x128_2_1_01_0_n_n none x wn := by
  funext i
  obtain ⟨p, q, j, rfl⟩ : ∃ (p : Fin 4) (q : Fin 10000) (j : Fin 128), i = ix3 p q j := ⟨i 0, i 1, i 2, eq_ix3 i⟩
  rw [unflatten_apply, kM_apply, Cert.ReferenceIdeal.HandValue.refMsg_apply, rowBatch_flatRow, rowNode_flatRow]

/-! ## The layer before normalisation -/

/-- Both programs state the gather and the scatter-add with the same dimension numbers, -/
theorem scatterDims_eq : Cert.KernelIdeal.scatter_S4x10000x128_S160000x1_S4x160000x128_02_1_1_1
    = Cert.ReferenceIdeal.scatter_S4x10000x128_S160000x1_S4x160000x128_02_1_1_1 := rfl
theorem gatherDims_eq : Cert.KernelIdeal.gather_S4x10000x128_S160000x1_S4x160000x128_02_1_n_n_1_1_41128
    = Cert.ReferenceIdeal.gather_S4x10000x128_S160000x1_S4x160000x128_02_1_n_n_1_1_41128 := rfl

/-- and turn a row of the edge list into start indices by the same operations, -/
theorem srcIdx_eq (e : IVec Cert.ReferenceIdeal.S2x160000 32) :
    startIdx (srcRow e) = Cert.ReferenceIdeal.Hand.refIdx (extractStridedSlice Cert.ReferenceIdeal.S1x160000 ![0, 0] e
      Cert.ReferenceIdeal.Gen.slices_S2x160000_S1x160000_0_0) := rfl
theorem dstIdx_eq (e : IVec Cert.ReferenceIdeal.S2x160000 32) :
    startIdx (dstRow e) = Cert.ReferenceIdeal.Hand.refIdx (extractStridedSlice Cert.ReferenceIdeal.S1x160000 ![1, 0] e
      Cert.ReferenceIdeal.Gen.slices_S2x160000_S1x160000_1_0) := rfl

/-- so the aggregation of given messages along given edges is one function in both. -/
theorem aggregate_eq (msg : FVec Ideal S3D .f32) (e : IVec Cert.ReferenceIdeal.S2x160000 32) :
    aggregate msg e = Cert.ReferenceIdeal.HandValue.refAgg (F := Ideal) msg e := by
  unfold aggregate Cert.ReferenceIdeal.HandValue.refAgg
  rw [scatterDims_eq, gatherDims_eq, srcIdx_eq, dstIdx_eq]

/-- The kernel's aggregated messages at flat row `r` are the reference's at that row's batch and node. -/
theorem kAgg_apply (x : FVec Ideal S3D .f32) (e : IVec Cert.ReferenceIdeal.S2x160000 32) (ws wn : FVec Ideal SMat .f32)
    (r : Fin 40000) (j : Fin 128) :
    kAgg x e ws wn (ix2 r j)
      = Cert.ReferenceIdeal.HandValue.refAgg (F := Ideal)
          (Host.dotGeneral (F := Ideal) Cert.ReferenceIdeal.dot_S4x10000x128_S128x128_S4x10000x128_2_1_01_0_n_n none x wn) e
          (ix3 (rowBatch r) (rowNode r) j) := by
  unfold kAgg
  rw [flatten_apply, messages_eq, aggregate_eq]

/-- The kernel's layer at flat row `r` is the reference's at that row's batch and node. -/
theorem layer_apply (x : FVec Ideal S3D .f32) (e : IVec Cert.ReferenceIdeal.S2x160000 32) (ws wn : FVec Ideal SMat .f32)
    (b : FVec Ideal SVec .f32) (r : Fin 40000) (j : Fin 128) :
    kS x e ws wn b (ix2 r j) = Cert.ReferenceIdeal.Hand.refS (F := Ideal) x e wn ws b (ix3 (rowBatch r) (rowNode r) j) := by
  have hk : kS x e ws wn b (ix2 r j) = kH x ws wn b (ix2 r j) + kAgg x e ws wn (ix2 r j) := rfl
  rw [hk, Cert.ReferenceIdeal.HandValue.refS_eq, addf_apply, kH_apply, Cert.ReferenceIdeal.HandValue.refLin_apply, kAgg_apply]

/-! ## Mean and variance -/

section Stats

variable (x : FVec Ideal S3D .f32) (e : IVec Cert.ReferenceIdeal.S2x160000 32) (wn ws : FVec Ideal SMat .f32)
  (b : FVec Ideal SVec .f32)

/-- The kernel's column sums over the 40000 rows are the sums over (batch, node) of the reference's layer. -/
theorem kSum_layer (j : Fin 128) :
    kSum (kS x e ws wn b) (ix2 (0 : Fin 1) j)
      = ∑ p : Fin 4 × Fin 10000, Cert.ReferenceIdeal.Hand.refS (F := Ideal) x e wn ws b (ix3 p.1 p.2 j) := by
  show ∑ r : Fin 40000, kS x e ws wn b (ix2 r j) = _
  rw [sum_flatRows]
  refine Finset.sum_congr rfl fun p _ => ?_
  rw [layer_apply, rowBatch_flatRow, rowNode_flatRow]

theorem kSq_layer (j : Fin 128) :
    kSq (kS x e ws wn b) (ix2 (0 : Fin 1) j)
      = ∑ p : Fin 4 × Fin 10000, Cert.ReferenceIdeal.Hand.refS (F := Ideal) x e wn ws b (ix3 p.1 p.2 j)
          * Cert.ReferenceIdeal.Hand.refS (F := Ideal) x e wn ws b (ix3 p.1 p.2 j) := by
  show ∑ r : Fin 40000, kS x e ws wn b (ix2 r j) * kS x e ws wn b (ix2 r j) = _
  rw [sum_flatRows]
  refine Finset.sum_congr rfl fun p _ => ?_
  rw [layer_apply, rowBatch_flatRow, rowNode_flatRow]

/-- The means agree: the same sum over the same 40000 entries, divided by the same constant. -/
theorem kMean_layer (j : Fin 128) :
    kMean (kS x e ws wn b) (ix2 (0 : Fin 1) j)
      = Cert.ReferenceIdeal.Hand.refMean (Cert.ReferenceIdeal.Hand.refS (F := Ideal) x e wn ws b) (ix1 j) := by
  rw [Cert.ReferenceIdeal.HandValue.refMean_apply, ← kSum_layer]
  rfl

/-- The variances agree where the layer's entries are real: the kernel's mean of squares less squared mean is the
    reference's mean of squared deviations (the variance law). -/
theorem kVar_layer (hs : ∀ i, IsR (Cert.ReferenceIdeal.Hand.refS (F := Ideal) x e wn ws b i)) (j : Fin 128) :
    kVar (kS x e ws wn b) (ix2 (0 : Fin 1) j)
      = Cert.ReferenceIdeal.Hand.refVar (Cert.ReferenceIdeal.Hand.refS (F := Ideal) x e wn ws b) (ix1 j) := by
  rw [Cert.ReferenceIdeal.HandValue.refVar_twoSums _ hs, ← kSq_layer, ← kMean_layer]
  rfl

end Stats

/-! ## The results -/

/-- THE BRIDGE: where the layer before normalisation is real, the kernel program's result is the reference's. -/
theorem results_eq (x : FVec Ideal S3D .f32) (e : IVec Cert.ReferenceIdeal.S2x160000 32) (wn ws : FVec Ideal SMat .f32)
    (b g bt : FVec Ideal SVec .f32) (hs : ∀ i, IsR (Cert.ReferenceIdeal.Hand.refS (F := Ideal) x e wn ws b i)) :
    kerOut x e wn ws b g bt = Cert.ReferenceIdeal.Hand.refOut (F := Ideal) x e wn ws b g bt := by
  funext i
  obtain ⟨p, q, j, rfl⟩ : ∃ (p : Fin 4) (q : Fin 10000) (j : Fin 128), i = ix3 p q j := ⟨i 0, i 1, i 2, eq_ix3 i⟩
  rw [Cert.ReferenceIdeal.Hand.refOut_eq, Cert.ReferenceIdeal.HandValue.refTail_apply]
  unfold kerOut
  rw [unflatten_apply, nArr_apply, layer_apply, rowBatch_flatRow, rowNode_flatRow, kMean_layer, kVar_layer x e wn ws b hs,
    kRow_apply, kRow_apply]

end Cert.Bridge

end
-- ==== Proof.Finite.lean ====
/-
  What the precondition says of the inputs. The precondition computes, for each float argument, the
  conjunction over all entries x of the test |x| < +∞, and asks that the conjunction of the six be true. On the
  extended reals |x| = max x (−x) is below +∞ exactly when x is neither infinity, that is, when x is a real number.
  One lemma reads a single argument of any shape; the theorem applies it to the six.
-/
import proofs.«109383_j39367670235762_1_alg».proof.Proof.Spec
import proofs.«109383_j39367670235762_1_alg».proof.Pre_finite_inputs
import proofs.«109383_j39367670235762_1_alg».proof.Proof.Gen.Pre_finite_inputs
import Idealize.ShloMosaic.Lib.ReduceAll
import Idealize.ShloMosaic.Lib.IdealHost
import Idealize.ShloMosaic.PureOps.Ideal.Laws

noncomputable section

namespace Cert.Finite

open Idealize.ShloMosaic

/-- The f32 word `0x7F800000` denotes +∞. -/
theorem ofBits_inf : Ideal.ofBits .f32 0x7F800000#32 = (⊤ : EReal) := by
  simp [Ideal.ofBits, Ideal.ieee]

/-- An extended real whose absolute value `max x (−x)` compares below +∞ is a real number. -/
theorem isR_of_abs_lt_inf (x : EReal)
    (h : Ideal.cmp .olt (max x (-x)) (Ideal.ofBits .f32 0x7F800000#32) = 1#1) : Cert.Spec.IsR x := by
  rw [ofBits_inf] at h
  induction x using EReal.rec with
  | bot => exact absurd h (by simp [Ideal.cmp])
  | top => exact absurd h (by simp [Ideal.cmp])
  | coe r => exact ⟨r, rfl⟩

/-- A rank-0 shape has one index. -/
instance subsingleton_scalar_idx : Subsingleton (⟨0, ![]⟩ : Shape).Idx :=
  ⟨fun a b => funext fun d => d.elim0⟩

/-- One argument: if the conjunction over all entries of `|x| < +∞` is true, every entry is a real number. -/
theorem all_isR {s : Shape} {axes : List (Fin s.rank)} (x : FVec Ideal s .f32)
    (hb : (⟨0, ![]⟩ : Shape).BroadcastsInDim s ![]) (hr : s.ReducesTo axes (⟨0, ![]⟩ : Shape))
    (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ValueIdx.ix0 = 1#1) (i : s.Idx) :
    Cert.Spec.IsR (x i) := by
  have hi := Host.reduce_andi_all _ _ hr hu ValueIdx.ix0 e i
  refine isR_of_abs_lt_inf (x i) ?_
  have hbc : broadcastInDim s ![] hb (constant (F := Ideal) (⟨0, ![]⟩ : Shape) .f32 0x7F800000#32) i
      = Ideal.ofBits .f32 0x7F800000#32 := ValueIdx.broadcastInDim_scalar_apply hb _ i
  have hi' : FloatOps.cmpf .olt (FloatOps.hostAbsf (x i))
      (broadcastInDim s ![] hb (constant (F := Ideal) (⟨0, ![]⟩ : Shape) .f32 0x7F800000#32) i) = 1#1 := hi
  rw [hbc] at hi'
  exact hi'

open Cert.Pre_finite_inputs in
/-- The precondition of the programs makes every entry of every float argument a real number. -/
theorem of_pre [hP : Cert.Pre_finite_inputs.Facts] (a0 : FVec Ideal S4x10000x128 .f32) (a1 : IVec S2x160000 32)
    (a2 a3 : FVec Ideal S128x128 .f32) (a4 a5 a6 : FVec Ideal S128 .f32)
    (h : Cert.Pre_finite_inputs.fn (F := Ideal) a0 a1 a2 a3 a4 a5 a6 = fun _ => 1#1) :
    (∀ i, Cert.Spec.IsR (a0 i)) ∧ (∀ i, Cert.Spec.IsR (a2 i)) ∧ (∀ i, Cert.Spec.IsR (a3 i))
      ∧ (∀ i, Cert.Spec.IsR (a4 i)) ∧ (∀ i, Cert.Spec.IsR (a5 i)) ∧ (∀ i, Cert.Spec.IsR (a6 i)) := by
  have h0 := congrFun h ValueIdx.ix0
  dsimp only [Cert.Pre_finite_inputs.fn, Cert.Pre_finite_inputs.fn_part1] at h0
  obtain ⟨h01234, e6⟩ := IntOp.andi_eq_one.1 h0
  obtain ⟨h0123, e5⟩ := IntOp.andi_eq_one.1 h01234
  obtain ⟨h012, e4⟩ := IntOp.andi_eq_one.1 h0123
  obtain ⟨h01, e3⟩ := IntOp.andi_eq_one.1 h012
  obtain ⟨e0, e2⟩ := IntOp.andi_eq_one.1 h01
  exact ⟨all_isR a0 _ _ _ e0, all_isR a2 _ _ _ e2, all_isR a3 _ _ _ e3,
    all_isR a4 _ _ _ e4, all_isR a5 _ _ _ e5, all_isR a6 _ _ _ e6⟩

end Cert.Finite

end
-- ==== Proof.lean ====
/-
  A graph-convolution layer with batch normalisation, computed two ways, is one function of its inputs.

  Both programs form, for every node of every batch, the self-loop transform  X·W_selfᵀ + b  plus the messages  X·W_nodeᵀ
  gathered along the edges and summed at each edge's head; then normalise every channel by its mean and variance over the
  40000 (batch, node) rows, scale, shift and clamp at zero. They differ in three ways, none of which changes a value on the
  extended reals: the kernel works on the rows flattened and in blocks of 4000, multiplies once by the two weight matrices
  set side by side, and accumulates the sums block by block (layout and the order of a sum); it rounds to bfloat16 on the way
  into the matrix unit (a change of format is the identity at the ideal values); and it computes the variance from the two
  running sums, as the mean of the squares less the squared mean, where the reference takes the mean of the squared
  deviations. The last is the one law the proof needs, and it needs the summed entries to be real numbers: that is where the
  precondition — every float input finite — is used.
  The five claims: each of the three programs runs to the end, faults nowhere and leaves its arguments as launched
  (Frames); the idealized kernel is the kernel's own text read at the ideal values, no rewrite to justify; and the
  idealized kernel and the idealized reference, run from memories that agree on the arguments, end with equal results.
-/
import proofs.«109383_j39367670235762_1_alg».proof.Defs
import proofs.«109383_j39367670235762_1_alg».proof.Proof.Frames
import proofs.«109383_j39367670235762_1_alg».proof.Proof.Bridge
import proofs.«109383_j39367670235762_1_alg».proof.Proof.Finite

set_option maxRecDepth 16384

noncomputable section

namespace Cert.Proof

open Idealize.ShloMosaic Idealize.ShloMosaic.TcCoe Idealize.SL.Sem

/-- From memories that agree on the seven arguments, of which the precondition holds, both idealized programs run to the
    end, leave the arguments alone, and end with the same result array: the reference's composed term of the arguments. The
    kernel program's result is read off its run (`result_value`) and carried to the reference's by the bridge, whose one
    hypothesis — the layer before normalisation is real — follows from the inputs being finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Hand.refOut (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)), ?_,
    Cert.ReferenceIdeal.Hand.run (F := Ideal) m' ρ'⟩
  refine (θ_run Cert.KernelIdeal.defs _ _).mono (fun r h c => ?_) (Cert.KernelIdeal.Hand.run_all (F := Ideal) m ρ)
  obtain ⟨h0, h1, h2, h3, h4, h5, h6⟩ := hagree c
  obtain ⟨f0, f2, f3, f4, -, -⟩ := Cert.Finite.of_pre _ _ _ _ _ _ _ (hpre c)
  refine ⟨?_,
    (h c _ (Cert.KernelIdeal.Hand.mem_uc Cert.KernelIdeal.main_arg0 (by decide))).trans
        (Cert.KernelIdeal.Hand.W7_of_untouched m ρ c Cert.KernelIdeal.main_arg0 (by decide) (by decide) (by decide) (by decide) (by decide) (by decide) (by decide)),
    (h c _ (Cert.KernelIdeal.Hand.mem_uc Cert.KernelIdeal.main_arg1 (by decide))).trans
        (Cert.KernelIdeal.Hand.W7_of_untouched m ρ c Cert.KernelIdeal.main_arg1 (by decide) (by decide) (by decide) (by decide) (by decide) (by decide) (by decide)),
    (h c _ (Cert.KernelIdeal.Hand.mem_uc Cert.KernelIdeal.main_arg2 (by decide))).trans
        (Cert.KernelIdeal.Hand.W7_of_untouched m ρ c Cert.KernelIdeal.main_arg2 (by decide) (by decide) (by decide) (by decide) (by decide) (by decide) (by decide)),
    (h c _ (Cert.KernelIdeal.Hand.mem_uc Cert.KernelIdeal.main_arg3 (by decide))).trans
        (Cert.KernelIdeal.Hand.W7_of_untouched m ρ c Cert.KernelIdeal.main_arg3 (by decide) (by decide) (by decide) (by decide) (by decide) (by decide) (by decide)),
    (h c _ (Cert.KernelIdeal.Hand.mem_uc Cert.KernelIdeal.main_arg4 (by decide))).trans
        (Cert.KernelIdeal.Hand.W7_of_untouched m ρ c Cert.KernelIdeal.main_arg4 (by decide) (by decide) (by decide) (by decide) (by decide) (by decide) (by decide)),
    (h c _ (Cert.KernelIdeal.Hand.mem_uc Cert.KernelIdeal.main_arg5 (by decide))).trans
        (Cert.KernelIdeal.Hand.W7_of_untouched m ρ c Cert.KernelIdeal.main_arg5 (by decide) (by decide) (by decide) (by decide) (by decide) (by decide) (by decide)),
    (h c _ (Cert.KernelIdeal.Hand.mem_uc Cert.KernelIdeal.main_arg6 (by decide))).trans
        (Cert.KernelIdeal.Hand.W7_of_untouched m ρ c Cert.KernelIdeal.main_arg6 (by decide) (by decide) (by decide) (by decide) (by decide) (by decide) (by decide))⟩
  beta_reduce
  rw [h0, h1, h2, h3, h4, h5, h6]
  refine (h c _ (Cert.KernelIdeal.Hand.mem_uc Cert.KernelIdeal.main_v38 (by decide))).trans ?_
  refine (Cert.KernelIdeal.HandValue.result_value m ρ c).trans ?_
  exact Cert.Bridge.results_eq _ _ _ _ _ _ _ (Cert.Reals.layer_real _ _ _ _ _ f0 f2 f3 f4)

theorem claim : Cert.Claim :=
  ⟨Cert.Kernel.Gen.facts, Cert.KernelIdeal.Gen.facts, Cert.ReferenceIdeal.Gen.facts, Cert.Pre_finite_inputs.Gen.facts,
    Cert.Proof.Parts.frame_kernel, Cert.Proof.Parts.frame_kernelIdeal, Cert.Proof.Parts.frame_referenceIdeal,
    Cert.Proof.Parts.preserves, algebraic⟩

end Cert.Proof

end
